-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S100000x256 : Shape := ⟨2, ![100000, 256]⟩
abbrev S8192x256 : Shape := ⟨2, ![8192, 256]⟩
abbrev S2x256 : Shape := ⟨2, ![2, 256]⟩
abbrev S8192 : Shape := ⟨1, ![8192]⟩
abbrev S200000 : Shape := ⟨1, ![200000]⟩
abbrev S100000 : Shape := ⟨1, ![100000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S8192x256 : S_.BroadcastsInDim S8192x256 (![] : Fin 0 → Fin S8192x256.rank)
  reducesTo_S8192x256_S_d0_1 : S8192x256.ReducesTo [0, 1] S_
  bcast_S_S2x256 : S_.BroadcastsInDim S2x256 (![] : Fin 0 → Fin S2x256.rank)
  reducesTo_S2x256_S_d0_1 : S2x256.ReducesTo [0, 1] S_

variable [Facts]

def fn_part2 {F : FTy → Type} [FloatOps F] (main_arg7 : FVec F S2x256 .f32) (main_arg8 : FVec F S2x256 .f32) (main_v33 : IVec S_ 1) : IVec S_ 1 :=
  let main_v34 : FVec F S2x256 .f32 := Host.absf main_arg7
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S2x256 .f32 := Host.absf main_arg8
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  main_v43

def fn_part1 {F : FTy → Type} [FloatOps F] (main_arg4 : FVec F S8192x256 .f32) (main_arg5 : FVec F S8192x256 .f32) (main_arg6 : FVec F S100000x256 .f32) (main_arg7 : FVec F S2x256 .f32) (main_arg8 : FVec F S2x256 .f32) (main_v13 : IVec S_ 1) (main_v16 : IVec S100000x256 1) : IVec S_ 1 :=
  let main_c_5 : IVec S_ 1 := constantI S_ 1 1#1
  let main_v17 : IVec S_ 1 := (fun x v => Host.reduce IntOp.andi x v reducesTo_S100000x256_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S8192x256 .f32 := Host.absf main_arg5
  let main_cst_8 : FVec F S_ .f32 := constant S_ .f32 0x7F800000#32
  let main_v25 : FVec F S8192x256 .f32 := broadcastInDim S8192x256 ![] bcast_S_S8192x256 main_cst_8
  let main_v26 : IVec S8192x256 1 := cmpf .olt main_v24 main_v25
  let main_c_9 : IVec S_ 1 := constantI S_ 1 1#1
  let main_v27 : IVec S_ 1 := (fun x v => Host.reduce IntOp.andi x v reducesTo_S8192x256_S_d0_1 h_S_) main_v26 main_c_9
  let main_v28 : IVec S_ 1 := andi main_v23 main_v27
  let main_v29 : FVec F S100000x256 .f32 := Host.absf main_arg6
  let main_cst_10 : FVec F S_ .f32 := constant S_ .f32 0x7F800000#32
  let main_v30 : FVec F S100000x256 .f32 := broadcastInDim S100000x256 ![] bcast_S_S100000x256 main_cst_10
  let main_v31 : IVec S100000x256 1 := cmpf .olt main_v29 main_v30
  let main_c_11 : IVec S_ 1 := constantI S_ 1 1#1
  let main_v32 : IVec S_ 1 := (fun x v => Host.reduce IntOp.andi x v reducesTo_S100000x256_S_d0_1 h_S_) main_v31 main_c_11
  let main_v33 : IVec S_ 1 := andi main_v28 main_v32
  fn_part2 (F := F) main_arg7 main_arg8 main_v33

def fn {F : FTy → Type} [FloatOps F] (main_arg0 : FVec F S200000x256 .f32) (main_arg1 : FVec F S200000x256 .f32) (main_arg2 : FVec F S100000x256 .f32) (main_arg3 : FVec F S100000x256 .f32) (main_arg4 : FVec F S8192x256 .f32) (main_arg5 : FVec F S8192x256 .f32) (main_arg6 : FVec F S100000x256 .f32) (main_arg7 : FVec F S2x256 .f32) (main_arg8 : FVec F S2x256 .f32) (main_arg9 : IVec S8192 32) (main_arg10 : IVec S200000 32) (main_arg11 : IVec S100000 32) (main_arg12 : IVec S8192 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S100000x256 .f32 := Host.absf main_arg2
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S100000x256 .f32 := Host.absf main_arg3
  let main_cst_4 : FVec F S_ .f32 := constant S_ .f32 0x7F800000#32
  let main_v15 : FVec F S100000x256 .f32 := broadcastInDim S100000x256 ![] bcast_S_S100000x256 main_cst_4
  let main_v16 : IVec S100000x256 1 := cmpf .olt main_v14 main_v15
  fn_part1 (F := F) main_arg4 main_arg5 main_arg6 main_arg7 main_arg8 main_v13 main_v16
-- ==== Kernel.lean ====
abbrev S200000x256 : Shape := ⟨2, ![200000, 256]⟩
abbrev S100000x256 : Shape := ⟨2, ![100000, 256]⟩
abbrev S8192x256 : Shape := ⟨2, ![8192, 256]⟩
abbrev S2x256 : Shape := ⟨2, ![2, 256]⟩
abbrev S8192 : Shape := ⟨1, ![8192]⟩
abbrev S200000 : Shape := ⟨1, ![200000]⟩
abbrev S100000 : Shape := ⟨1, ![100000]⟩
abbrev S_ : Shape := ⟨0, ![]⟩
abbrev S200000x1 : Shape := ⟨2, ![200000, 1]⟩
abbrev S100000x1 : Shape := ⟨2, ![100000, 1]⟩
abbrev S8192x1 : Shape := ⟨2, ![8192, 1]⟩
abbrev S2x1x1 : Shape := ⟨3, ![2, 1, 1]⟩
abbrev S2000x256 : Shape := ⟨2, ![2000, 256]⟩
abbrev S1x1x1 : Shape := ⟨3, ![1, 1, 1]⟩
abbrev S2000 : Shape := ⟨1, ![2000]⟩
abbrev S2000x1 : Shape := ⟨2, ![2000, 1]⟩
abbrev S1x2000x1 : Shape := ⟨3, ![1, 2000, 1]⟩
abbrev S1 : Shape := ⟨1, ![1]⟩
abbrev S1024x256 : Shape := ⟨2, ![1024, 256]⟩
abbrev S1024 : Shape := ⟨1, ![1024]⟩
abbrev S1024x1 : Shape := ⟨2, ![1024, 1]⟩
abbrev S1x1024x1 : Shape := ⟨3, ![1, 1024, 1]⟩
abbrev S1x256 : Shape := ⟨2, ![1, 256]⟩

abbrev nBuf : Space → Nat
  | .hbm => 70
  | .vmem => 38
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S100000x256, .f32⟩
  | .hbm, ⟨3, _⟩ => ⟨S100000x256, .f32⟩
  | .hbm, ⟨4, _⟩ => ⟨S8192x256, .f32⟩
  | .hbm, ⟨5, _⟩ => ⟨S8192x256, .f32⟩
  | .hbm, ⟨6, _⟩ => ⟨S100000x256, .f32⟩
  | .hbm, ⟨7, _⟩ => ⟨S2x256, .f32⟩
  | .hbm, ⟨8, _⟩ => ⟨S2x256, .f32⟩
  | .hbm, ⟨9, _⟩ => ⟨S8192, .i32⟩
  | .hbm, ⟨10, _⟩ => ⟨S200000, .i32⟩
  | .hbm, ⟨11, _⟩ => ⟨S100000, .i32⟩
  | .hbm, ⟨12, _⟩ => ⟨S8192, .i32⟩
  | .hbm, ⟨13, _⟩ => ⟨S_, .i32⟩
  | .hbm, ⟨14, _⟩ => ⟨S200000, .i32⟩
  | .hbm, ⟨15, _⟩ => ⟨S200000, .i1⟩
  | .hbm, ⟨16, _⟩ => ⟨S_, .i32⟩
  | .hbm, ⟨17, _⟩ => ⟨S200000, .i32⟩
  | .hbm, ⟨18, _⟩ => ⟨S200000, .i32⟩
  | .hbm, ⟨19, _⟩ => ⟨S200000, .i32⟩
  | .hbm, ⟨20, _⟩ => ⟨S200000x1, .i32⟩
  | .hbm, ⟨21, _⟩ => ⟨S200000x256, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000x256, .f32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S8192x256, .f32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S8192x256, .f32⟩
  | .hbm, ⟨49, _⟩ => ⟨S2x1x1, .f32⟩
  | .hbm, ⟨50, _⟩ => ⟨S_, .f32⟩
  | .hbm, ⟨51, _⟩ => ⟨S_, .f32⟩
  | .hbm, ⟨52, _⟩ => ⟨S2x1x1, .f32⟩
  | .hbm, ⟨53, _⟩ => ⟨S_, .f32⟩
  | .hbm, ⟨54, _⟩ => ⟨S_, .f32⟩
  | .hbm, ⟨55, _⟩ => ⟨S2x1x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8192x256, .f32⟩
  | .hbm, ⟨69, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S1x1x1, .f32⟩
  | .local _ .vmem, ⟨7, _⟩ => ⟨S1x1x1, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S1x1x1, .f32⟩
  | .local _ .vmem, ⟨15, _⟩ => ⟨S1x1x1, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1x1x1, .f32⟩
  | .local _ .vmem, ⟨23, _⟩ => ⟨S1x1x1, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S2x256, .f32⟩
  | .local _ .vmem, ⟨29, _⟩ => ⟨S1024x256, .f32⟩
  | .local _ .vmem, ⟨30, _⟩ => ⟨S1024x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2x256, .f32⟩
  | .local _ .vmem, ⟨36, _⟩ => ⟨S2000x256, .f32⟩
  | .local _ .vmem, ⟨37, _⟩ => ⟨S2000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_12 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S8192 : S_.BroadcastsInDim S8192 (![] : Fin 0 → Fin S8192.rank)
  bcast_S8192_S8192x1_0 : S8192.BroadcastsInDim S8192x1 (![0] : Fin 1 → Fin S8192x1.rank)
  inb_S1x1x1_S1x1x1_0_0_0 : ∀ a, (![0, 0, 0] : Fin 3 → Nat) a + S1x1x1.size a ≤ S1x1x1.size a
  h_S1x1x1 : 0 < S1x1x1.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  reduces_S2000x256_S2000 : S2000x256.Reduces [1] S2000
  shapeCasts_S2000_S2000x1 : S2000.ShapeCasts S2000x1
  broadcasts_S2000x1_S2000x256 : S2000x1.Broadcasts S2000x256
  shapeCasts_S2000x1_S1x2000x1 : S2000x1.ShapeCasts S1x2000x1
  reduces_S1x2000x1_S1 : S1x2000x1.Reduces [1, 2] S1
  shapeCasts_S1_S1x1x1 : S1.ShapeCasts S1x1x1
  inpos_S1x1x1_p0_0_0 : ∀ a, (![0, 0, 0] : Fin 3 → Nat) a < S1x1x1.size a
  shapeCasts_S1x1x1_S1x1x1 : S1x1x1.ShapeCasts S1x1x1
  reducesTo_S2x1x1_S_d0_1_2 : S2x1x1.ReducesTo [0, 1, 2] S_
  h_S_ : 0 < S_.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  shapeCasts_S1024x1_S1x1024x1 : S1024x1.ShapeCasts S1x1024x1
  reduces_S1x1024x1_S1 : S1x1024x1.Reduces [1, 2] S1
  inb_S2x256_S2x256_0_0 : ∀ a, (![0, 0] : Fin 2 → Nat) a + S2x256.size a ≤ S2x256.size a
  h_S2x256 : 0 < S2x256.numel
  slices_S2x256_o0_0_S1x256 : S2x256.Slices ![0, 0] S1x256
  slices_S2x256_o1_0_S1x256 : S2x256.Slices ![1, 0] S1x256
  broadcasts_S1x256_S1024x256 : S1x256.Broadcasts S1024x256
  broadcasts_S1x256_S2000x256 : S1x256.Broadcasts S2000x256
  gather_S200000x256_S200000x1_S200000x256_1_0_n_n_0_1_1256_wf : GatherDims.WF S200000x256 S200000x1 S200000x256 [1] [0] [] [0] [] 1 ![1, 256]
  gather_S100000x256_S100000x1_S100000x256_1_0_n_n_0_1_1256_wf : GatherDims.WF S100000x256 S100000x1 S100000x256 [1] [0] [] [0] [] 1 ![1, 256]
  gather_S8192x256_S8192x1_S8192x256_1_0_n_n_0_1_1256_wf : GatherDims.WF S8192x256 S8192x1 S8192x256 [1] [0] [] [0] [] 1 ![1, 256]
  gather_S200000x256_S8192x1_S8192x256_1_0_n_n_0_1_1256_wf : GatherDims.WF S200000x256 S8192x1 S8192x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S200000x256.size a
  hwx0_1 : ∀ i : grid0.Coords, EltTy.bits .f32 = 32 ∨ (Rect.block (s := S200000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S200000x256.size a
  hwx0_2 : ∀ i : grid0.Coords, EltTy.bits .f32 = 32 ∨ (Rect.block (s := S200000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1.size a ≤ S2x1x1.size a
  hwx2_3 : ∀ i : grid2.Coords, EltTy.bits .f32 = 32 ∨ (Rect.block (s := S2x1x1) S1x1x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S8192x256.size a
  hwx3_0 : ∀ i : grid3.Coords, EltTy.bits .f32 = 32 ∨ (Rect.block (s := S8192x256) S1024x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S8192x256.size a
  hwx3_1 : ∀ i : grid3.Coords, EltTy.bits .f32 = 32 ∨ (Rect.block (s := S8192x256) S1024x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2x256.size a ≤ S2x256.size a
  hwx3_2 : ∀ i : grid3.Coords, EltTy.bits .f32 = 32 ∨ (Rect.block (s := S2x256) S2x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S8192x256.size a
  hwx3_3 : ∀ i : grid3.Coords, EltTy.bits .f32 = 32 ∨ (Rect.block (s := S8192x256) S1024x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2x256.size a ≤ S2x256.size a
  hwx4_2 : ∀ i : grid4.Coords, EltTy.bits .f32 = 32 ∨ (Rect.block (s := S2x256) S2x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S100000x256.size a
  hwx4_3 : ∀ i : grid4.Coords, EltTy.bits .f32 = 32 ∨ (Rect.block (s := S100000x256) S2000x256.size (cc4_transform_3 i) (hinb4_3 i)).WholeWords (EltTy.packing .f32)

variable [Facts₀]

def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def gather_S100000x256_S100000x1_S100000x256_1_0_n_n_0_1_1256 : GatherDims S100000x256 S100000x1 S100000x256 where
  offsetDims := [1]
  collapsedSliceDims := [0]
  operandBatchingDims := []
  startIndicesBatchingDims := []
  startIndexMap := [0]
  indexVectorDim := 1
  sliceSizes := ![1, 256]
  wf := gather_S100000x256_S100000x1_S100000x256_1_0_n_n_0_1_1256_wf
def gather_S8192x256_S8192x1_S8192x256_1_0_n_n_0_1_1256 : GatherDims S8192x256 S8192x1 S8192x256 where
  offsetDims := [1]
  collapsedSliceDims := [0]
  operandBatchingDims := []
  startIndicesBatchingDims := []
  startIndexMap := [0]
  indexVectorDim := 1
  sliceSizes := ![1, 256]
  wf := gather_S8192x256_S8192x1_S8192x256_1_0_n_n_0_1_1256_wf
def gather_S200000x256_S8192x1_S8192x256_1_0_n_n_0_1_1256 : GatherDims S200000x256 S8192x1 S8192x256 where
  offsetDims := [1]
  collapsedSliceDims := [0]
  operandBatchingDims := []
  startIndicesBatchingDims := []
  startIndexMap := [0]
  indexVectorDim := 1
  sliceSizes := ![1, 256]
  wf := gather_S200000x256_S8192x1_S8192x256_1_0_n_n_0_1_1256_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg4) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1024x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x1x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v27) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S2x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S2x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S200000x256 : Shape := ⟨2, ![200000, 256]⟩
abbrev S100000x256 : Shape := ⟨2, ![100000, 256]⟩
abbrev S8192x256 : Shape := ⟨2, ![8192, 256]⟩
abbrev S2x256 : Shape := ⟨2, ![2, 256]⟩
abbrev S8192 : Shape := ⟨1, ![8192]⟩
abbrev S200000 : Shape := ⟨1, ![200000]⟩
abbrev S100000 : Shape := ⟨1, ![100000]⟩
abbrev S_ : Shape := ⟨0, ![]⟩
abbrev S200000x1 : Shape := ⟨2, ![200000, 1]⟩
abbrev S100000x1 : Shape := ⟨2, ![100000, 1]⟩
abbrev S8192x1 : Shape := ⟨2, ![8192, 1]⟩
abbrev S1x256 : Shape := ⟨2, ![1, 256]⟩
abbrev S256 : Shape := ⟨1, ![256]⟩

abbrev nBuf : Space → Nat
  | .hbm => 235
  | .vmem => 0
  | .smem => 0
  | _ => 0

abbrev hbmTy0_0 (i : Nat) : BufTy := match i % 128 with
  | 0 => ⟨S200000x256, .f32⟩
  | 1 => ⟨S200000x256, .f32⟩
  | 2 => ⟨S100000x256, .f32⟩
  | 3 => ⟨S100000x256, .f32⟩
  | 4 => ⟨S8192x256, .f32⟩
  | 5 => ⟨S8192x256, .f32⟩
  | 6 => ⟨S100000x256, .f32⟩
  | 7 => ⟨S2x256, .f32⟩
  | 8 => ⟨S2x256, .f32⟩
  | 9 => ⟨S8192, .i32⟩
  | 10 => ⟨S200000, .i32⟩
  | 11 => ⟨S100000, .i32⟩
  | 12 => ⟨S8192, .i32⟩
  | 13 => ⟨S200000x256, .f32⟩
  | 14 => ⟨S_, .f32⟩
  | 15 => ⟨S200000, .f32⟩
  | 16 => ⟨S200000x1, .f32⟩
  | 17 => ⟨S200000x1, .f32⟩
  | 18 => ⟨S_, .f32⟩
  | 19 => ⟨S200000x1, .f32⟩
  | 20 => ⟨S200000x1, .f32⟩
  | 21 => ⟨S200000x256, .f32⟩
  | 22 => ⟨S200000x256, .f32⟩
  | 23 => ⟨S200000x256, .f32⟩
  | 24 => ⟨S_, .f32⟩
  | 25 => ⟨S200000, .f32⟩
  | 26 => ⟨S200000x1, .f32⟩
  | 27 => ⟨S200000x1, .f32⟩
  | 28 => ⟨S_, .f32⟩
  | 29 => ⟨S200000x1, .f32⟩
  | 30 => ⟨S200000x1, .f32⟩
  | 31 => ⟨S200000x256, .f32⟩
  | 32 => ⟨S200000x256, .f32⟩
  | 33 => ⟨S200000x256, .f32⟩
  | 34 => ⟨S_, .f32⟩
  | 35 => ⟨S200000, .f32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S200000x256, .f32⟩
  | 45 => ⟨S200000x256, .f32⟩
  | 46 => ⟨S_, .f32⟩
  | 47 => ⟨S200000, .f32⟩
  | 48 => ⟨S200000, .f32⟩
  | 49 => ⟨S_, .f32⟩
  | 50 => ⟨S200000, .f32⟩
  | 51 => ⟨S200000, .f32⟩
  | 52 => ⟨S_, .f32⟩
  | 53 => ⟨S200000, .f32⟩
  | 54 => ⟨S200000, .f32⟩
  | 55 => ⟨S200000, .f32⟩
  | 56 => ⟨S200000, .f32⟩
  | 57 => ⟨S200000, .i1⟩
  | 58 => ⟨S200000, .f32⟩
  | 59 => ⟨S200000, .f32⟩
  | 60 => ⟨S200000, .f32⟩
  | 61 => ⟨S200000, .f32⟩
  | 62 => ⟨S200000, .f32⟩
  | 63 => ⟨S200000, .f32⟩
  | 64 => ⟨S200000, .f32⟩
  | 65 => ⟨S200000, .f32⟩
  | 66 => ⟨S_, .f32⟩
  | 67 => ⟨S_, .f32⟩
  | 68 => ⟨S_, .f32⟩
  | 69 => ⟨S_, .f32⟩
  | 70 => ⟨S100000x256, .f32⟩
  | 71 => ⟨S_, .f32⟩
  | 72 => ⟨S100000, .f32⟩
  | 73 => ⟨S100000x1, .f32⟩
  | 74 => ⟨S100000x1, .f32⟩
  | 75 => ⟨S_, .f32⟩
  | 76 => ⟨S100000x1, .f32⟩
  | 77 => ⟨S100000x1, .f32⟩
  | 78 => ⟨S100000x256, .f32⟩
  | 79 => ⟨S100000x256, .f32⟩
  | 80 => ⟨S100000x256, .f32⟩
  | 81 => ⟨S_, .f32⟩
  | 82 => ⟨S100000, .f32⟩
  | 83 => ⟨S100000x1, .f32⟩
  | 84 => ⟨S100000x1, .f32⟩
  | 85 => ⟨S_, .f32⟩
  | 86 => ⟨S100000x1, .f32⟩
  | 87 => ⟨S100000x1, .f32⟩
  | 88 => ⟨S100000x256, .f32⟩
  | 89 => ⟨S100000x256, .f32⟩
  | 90 => ⟨S100000x256, .f32⟩
  | 91 => ⟨S_, .f32⟩
  | 92 => ⟨S100000, .f32⟩
  | 93 => ⟨S_, .i32⟩
  | 94 => ⟨S100000, .i32⟩
  | 95 => ⟨S100000, .i1⟩
  | 96 => ⟨S_, .i32⟩
  | 97 => ⟨S100000, .i32⟩
  | 98 => ⟨S100000, .i32⟩
  | 99 => ⟨S100000, .i32⟩
  | 100 => ⟨S100000x1, .i32⟩
  | 101 => ⟨S100000x256, .f32⟩
  | 102 => ⟨S100000x256, .f32⟩
  | 103 => ⟨S_, .f32⟩
  | 104 => ⟨S100000, .f32⟩
  | 105 => ⟨S100000, .f32⟩
  | 106 => ⟨S_, .f32⟩
  | 107 => ⟨S100000, .f32⟩
  | 108 => ⟨S100000, .f32⟩
  | 109 => ⟨S_, .f32⟩
  | 110 => ⟨S100000, .f32⟩
  | 111 => ⟨S100000, .f32⟩
  | 112 => ⟨S100000, .f32⟩
  | 113 => ⟨S100000, .f32⟩
  | 114 => ⟨S100000, .i1⟩
  | 115 => ⟨S100000, .f32⟩
  | 116 => ⟨S100000, .f32⟩
  | 117 => ⟨S100000, .f32⟩
  | 118 => ⟨S100000, .f32⟩
  | 119 => ⟨S100000, .f32⟩
  | 120 => ⟨S100000, .f32⟩
  | 121 => ⟨S100000, .f32⟩
  | 122 => ⟨S100000, .f32⟩
  | 123 => ⟨S_, .f32⟩
  | 124 => ⟨S_, .f32⟩
  | 125 => ⟨S_, .f32⟩
  | 126 => ⟨S_, .f32⟩
  | 127 => ⟨S_, .f32⟩
  | _ => ⟨S200000x256, .f32⟩

abbrev hbmTy0_1 (i : Nat) : BufTy := match i % 128 with
  | 0 => ⟨S8192x256, .f32⟩
  | 1 => ⟨S_, .f32⟩
  | 2 => ⟨S8192, .f32⟩
  | 3 => ⟨S8192x1, .f32⟩
  | 4 => ⟨S8192x1, .f32⟩
  | 5 => ⟨S_, .f32⟩
  | 6 => ⟨S8192x1, .f32⟩
  | 7 => ⟨S8192x1, .f32⟩
  | 8 => ⟨S8192x256, .f32⟩
  | 9 => ⟨S8192x256, .f32⟩
  | 10 => ⟨S8192x256, .f32⟩
  | 11 => ⟨S_, .f32⟩
  | 12 => ⟨S8192, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x256, .f32⟩
  | 19 => ⟨S8192x256, .f32⟩
  | 20 => ⟨S8192x256, .f32⟩
  | 21 => ⟨S_, .f32⟩
  | 22 => ⟨S8192, .f32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x256, .f32⟩
  | 32 => ⟨S8192x256, .f32⟩
  | 33 => ⟨S_, .f32⟩
  | 34 => ⟨S8192, .f32⟩
  | 35 => ⟨S8192, .f32⟩
  | 36 => ⟨S_, .f32⟩
  | 37 => ⟨S8192, .f32⟩
  | 38 => ⟨S8192, .f32⟩
  | 39 => ⟨S_, .f32⟩
  | 40 => ⟨S8192, .f32⟩
  | 41 => ⟨S8192, .f32⟩
  | 42 => ⟨S8192, .f32⟩
  | 43 => ⟨S8192, .f32⟩
  | 44 => ⟨S8192, .i1⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S2x256, .f32⟩
  | 61 => ⟨S2x256, .f32⟩
  | 62 => ⟨S_, .f32⟩
  | 63 => ⟨S2x256, .f32⟩
  | 64 => ⟨S2x256, .f32⟩
  | 65 => ⟨S_, .f32⟩
  | 66 => ⟨S2x256, .f32⟩
  | 67 => ⟨S2x256, .f32⟩
  | 68 => ⟨S2x256, .f32⟩
  | 69 => ⟨S2x256, .f32⟩
  | 70 => ⟨S_, .f32⟩
  | 71 => ⟨S2x256, .f32⟩
  | 72 => ⟨S2x256, .f32⟩
  | 73 => ⟨S_, .f32⟩
  | 74 => ⟨S2x256, .f32⟩
  | 75 => ⟨S2x256, .f32⟩
  | 76 => ⟨S1x256, .f32⟩
  | 77 => ⟨S256, .f32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192x256, .f32⟩
  | 87 => ⟨S1x256, .f32⟩
  | 88 => ⟨S8192x256, .f32⟩
  | 89 => ⟨S8192x256, .f32⟩
  | 90 => ⟨S1x256, .f32⟩
  | 91 => ⟨S256, .f32⟩
  | 92 => ⟨S1x256, .f32⟩
  | 93 => ⟨S8192x256, .f32⟩
  | 94 => ⟨S8192x256, .f32⟩
  | 95 => ⟨S8192x256, .f32⟩
  | 96 => ⟨S1x256, .f32⟩
  | 97 => ⟨S256, .f32⟩
  | 98 => ⟨S1x256, .f32⟩
  | 99 => ⟨S100000x256, .f32⟩
  | 100 => ⟨S100000x256, .f32⟩
  | 101 => ⟨S1x256, .f32⟩
  | 102 => ⟨S256, .f32⟩
  | 103 => ⟨S1x256, .f32⟩
  | 104 => ⟨S100000x256, .f32⟩
  | 105 => ⟨S100000x256, .f32⟩
  | 106 => ⟨S100000x256, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v5 : Ref sig .tc := ⟨.hbm, 27, rfl⟩
abbrev main_cst_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩
abbrev main_v23 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_v24 : Ref sig .tc := ⟨.hbm, 65, rfl⟩
abbrev main_cst_5 : Ref sig .tc := ⟨.hbm, 66, rfl⟩
abbrev main_v25 : Ref sig .tc := ⟨.hbm, 67, rfl⟩
abbrev main_cst_6 : Ref sig .tc := ⟨.hbm, 68, rfl⟩
abbrev main_v26 : Ref sig .tc := ⟨.hbm, 69, rfl⟩
abbrev main_call3_v0 : Ref sig .tc := ⟨.hbm, 70, rfl⟩
abbrev main_call3_cst : Ref sig .tc := ⟨.hbm, 71, rfl⟩
abbrev main_call3_v1 : Ref sig .tc := ⟨.hbm, 72, rfl⟩
abbrev main_call3_v2 : Ref sig .tc := ⟨.hbm, 73, rfl⟩
abbrev main_v27 : Ref sig .tc := ⟨.hbm, 74, rfl⟩
abbrev main_cst_7 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_call4_v0 : Ref sig .tc := ⟨.hbm, 80, rfl⟩
abbrev main_call4_cst : Ref sig .tc := ⟨.hbm, 81, rfl⟩
abbrev main_call4_v1 : Ref sig .tc := ⟨.hbm, 82, rfl⟩
abbrev main_call4_v2 : Ref sig .tc := ⟨.hbm, 83, rfl⟩
abbrev main_v32 : Ref sig .tc := ⟨.hbm, 84, rfl⟩
abbrev main_cst_8 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_9 : Ref sig .tc := ⟨.hbm, 91, rfl⟩
abbrev main_v38 : Ref sig .tc := ⟨.hbm, 92, rfl⟩
abbrev main_c_10 : Ref sig .tc := ⟨.hbm, 93, rfl⟩
abbrev main_v39 : Ref sig .tc := ⟨.hbm, 94, rfl⟩
abbrev main_v40 : Ref sig .tc := ⟨.hbm, 95, rfl⟩
abbrev main_c_11 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_cst_12 : Ref sig .tc := ⟨.hbm, 103, rfl⟩
abbrev main_v47 : Ref sig .tc := ⟨.hbm, 104, rfl⟩
abbrev main_v48 : Ref sig .tc := ⟨.hbm, 105, rfl⟩
abbrev main_cst_13 : Ref sig .tc := ⟨.hbm, 106, rfl⟩
abbrev main_v49 : Ref sig .tc := ⟨.hbm, 107, rfl⟩
abbrev main_v50 : Ref sig .tc := ⟨.hbm, 108, rfl⟩
abbrev main_call5_cst : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_v5 : Ref sig .tc := ⟨.hbm, 115, rfl⟩
abbrev main_call5_v6 : Ref sig .tc := ⟨.hbm, 116, rfl⟩
abbrev main_call5_v7 : Ref sig .tc := ⟨.hbm, 117, rfl⟩
abbrev main_call5_v8 : Ref sig .tc := ⟨.hbm, 118, rfl⟩
abbrev main_call5_v9 : Ref sig .tc := ⟨.hbm, 119, rfl⟩
abbrev main_call5_v10 : Ref sig .tc := ⟨.hbm, 120, rfl⟩
abbrev main_call5_v11 : Ref sig .tc := ⟨.hbm, 121, rfl⟩
abbrev main_v51 : Ref sig .tc := ⟨.hbm, 122, rfl⟩
abbrev main_cst_14 : Ref sig .tc := ⟨.hbm, 123, rfl⟩
abbrev main_v52 : Ref sig .tc := ⟨.hbm, 124, rfl⟩
abbrev main_cst_15 : Ref sig .tc := ⟨.hbm, 125, rfl⟩
abbrev main_v53 : Ref sig .tc := ⟨.hbm, 126, rfl⟩
abbrev main_v54 : Ref sig .tc := ⟨.hbm, 127, rfl⟩
abbrev main_call6_v0 : Ref sig .tc := ⟨.hbm, 128, rfl⟩
abbrev main_call6_cst : Ref sig .tc := ⟨.hbm, 129, rfl⟩
abbrev main_call6_v1 : Ref sig .tc := ⟨.hbm, 130, rfl⟩
abbrev main_call6_v2 : Ref sig .tc := ⟨.hbm, 131, rfl⟩
abbrev main_v55 : Ref sig .tc := ⟨.hbm, 132, rfl⟩
abbrev main_cst_16 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_call7_v0 : Ref sig .tc := ⟨.hbm, 138, rfl⟩
abbrev main_call7_cst : Ref sig .tc := ⟨.hbm, 139, rfl⟩
abbrev main_call7_v1 : Ref sig .tc := ⟨.hbm, 140, rfl⟩
abbrev main_call7_v2 : Ref sig .tc := ⟨.hbm, 141, rfl⟩
abbrev main_v60 : Ref sig .tc := ⟨.hbm, 142, rfl⟩
abbrev main_cst_17 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_cst_18 : Ref sig .tc := ⟨.hbm, 149, rfl⟩
abbrev main_v66 : Ref sig .tc := ⟨.hbm, 150, rfl⟩
abbrev main_c_19 : Ref sig .tc := ⟨.hbm, 151, rfl⟩
abbrev main_v67 : Ref sig .tc := ⟨.hbm, 152, rfl⟩
abbrev main_v68 : Ref sig .tc := ⟨.hbm, 153, rfl⟩
abbrev main_c_20 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_cst_21 : Ref sig .tc := ⟨.hbm, 161, rfl⟩
abbrev main_v75 : Ref sig .tc := ⟨.hbm, 162, rfl⟩
abbrev main_v76 : Ref sig .tc := ⟨.hbm, 163, rfl⟩
abbrev main_cst_22 : Ref sig .tc := ⟨.hbm, 164, rfl⟩
abbrev main_v77 : Ref sig .tc := ⟨.hbm, 165, rfl⟩
abbrev main_v78 : Ref sig .tc := ⟨.hbm, 166, rfl⟩
abbrev main_call8_cst : Ref sig .tc := ⟨.hbm, 167, rfl⟩
abbrev main_call8_v0 : Ref sig .tc := ⟨.hbm, 168, rfl⟩
abbrev main_call8_v1 : Ref sig .tc := ⟨.hbm, 169, rfl⟩
abbrev main_call8_v2 : Ref sig .tc := ⟨.hbm, 170, rfl⟩
abbrev main_call8_v3 : Ref sig .tc := ⟨.hbm, 171, rfl⟩
abbrev main_call8_v4 : Ref sig .tc := ⟨.hbm, 172, rfl⟩
abbrev main_call8_v5 : Ref sig .tc := ⟨.hbm, 173, rfl⟩
abbrev main_call8_v6 : Ref sig .tc := ⟨.hbm, 174, rfl⟩
abbrev main_call8_v7 : Ref sig .tc := ⟨.hbm, 175, rfl⟩
abbrev main_call8_v8 : Ref sig .tc := ⟨.hbm, 176, rfl⟩
abbrev main_call8_v9 : Ref sig .tc := ⟨.hbm, 177, rfl⟩
abbrev main_call8_v10 : Ref sig .tc := ⟨.hbm, 178, rfl⟩
abbrev main_call8_v11 : Ref sig .tc := ⟨.hbm, 179, rfl⟩
abbrev main_v79 : Ref sig .tc := ⟨.hbm, 180, rfl⟩
abbrev main_cst_23 : Ref sig .tc := ⟨.hbm, 181, rfl⟩
abbrev main_v80 : Ref sig .tc := ⟨.hbm, 182, rfl⟩
abbrev main_cst_24 : Ref sig .tc := ⟨.hbm, 183, rfl⟩
abbrev main_v81 : Ref sig .tc := ⟨.hbm, 184, rfl⟩
abbrev main_v82 : Ref sig .tc := ⟨.hbm, 185, rfl⟩
abbrev main_cst_25 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_cst_26 : Ref sig .tc := ⟨.hbm, 190, rfl⟩
abbrev main_v86 : Ref sig .tc := ⟨.hbm, 191, rfl⟩
abbrev main_v87 : Ref sig .tc := ⟨.hbm, 192, rfl⟩
abbrev main_cst_27 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_cst_28 : Ref sig .tc := ⟨.hbm, 198, rfl⟩
abbrev main_v92 : Ref sig .tc := ⟨.hbm, 199, rfl⟩
abbrev main_v93 : Ref sig .tc := ⟨.hbm, 200, rfl⟩
abbrev main_cst_29 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_c_30 : Ref sig .tc := ⟨.hbm, 206, rfl⟩
abbrev main_v98 : Ref sig .tc := ⟨.hbm, 207, rfl⟩
abbrev main_v99 : Ref sig .tc := ⟨.hbm, 208, rfl⟩
abbrev main_c_31 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩

abbrev nD : Nat := 1
abbrev τ : Topo := Topo.v7x

variable {F : FTy → Type} [FloatOps F]

class Facts₀ : Prop where
  reducesTo_S200000x256_S200000_d1 : S200000x256.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x256_0_1 : S200000x1.BroadcastsInDim S200000x256 (![0, 1] : Fin 2 → Fin S200000x256.rank)
  bcast_S_S200000 : S_.BroadcastsInDim S200000 (![] : Fin 0 → Fin S200000.rank)
  reducesTo_S200000_S_d0 : S200000.ReducesTo [0] S_
  reducesTo_S100000x256_S100000_d1 : S100000x256.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S_S100000 : S_.BroadcastsInDim S100000 (![] : Fin 0 → Fin S100000.rank)
  reducesTo_S100000_S_d0 : S100000.ReducesTo [0] S_
  reducesTo_S8192x256_S8192_d1 : S8192x256.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192 : S_.BroadcastsInDim S8192 (![] : Fin 0 → Fin S8192.rank)
  reducesTo_S8192_S_d0 : S8192.ReducesTo [0] S_
  bcast_S_S2x256 : S_.BroadcastsInDim S2x256 (![] : Fin 0 → Fin S2x256.rank)
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  slices_S2x256_S1x256_1_0 : S2x256.Slices ![1, 0] S1x256
  bcast_S1x256_S100000x256_0_1 : S1x256.BroadcastsInDim S100000x256 (![0, 1] : Fin 2 → Fin S100000x256.rank)
  gather_S200000x256_S200000x1_S200000x256_1_0_n_n_0_1_1256_wf : GatherDims.WF S200000x256 S200000x1 S200000x256 [1] [0] [] [0] [] 1 ![1, 256]
  gather_S100000x256_S100000x1_S100000x256_1_0_n_n_0_1_1256_wf : GatherDims.WF S100000x256 S100000x1 S100000x256 [1] [0] [] [0] [] 1 ![1, 256]
  gather_S8192x256_S8192x1_S8192x256_1_0_n_n_0_1_1256_wf : GatherDims.WF S8192x256 S8192x1 S8192x256 [1] [0] [] [0] [] 1 ![1, 256]
  gather_S200000x256_S8192x1_S8192x256_1_0_n_n_0_1_1256_wf : GatherDims.WF S200000x256 S8192x1 S8192x256 [1] [0] [] [0] [] 1 ![1, 256]

variable [Facts₀]

def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def gather_S100000x256_S100000x1_S100000x256_1_0_n_n_0_1_1256 : GatherDims S100000x256 S100000x1 S100000x256 where
  offsetDims := [1]
  collapsedSliceDims := [0]
  operandBatchingDims := []
  startIndicesBatchingDims := []
  startIndexMap := [0]
  indexVectorDim := 1
  sliceSizes := ![1, 256]
  wf := gather_S100000x256_S100000x1_S100000x256_1_0_n_n_0_1_1256_wf
def gather_S8192x256_S8192x1_S8192x256_1_0_n_n_0_1_1256 : GatherDims S8192x256 S8192x1 S8192x256 where
  offsetDims := [1]
  collapsedSliceDims := [0]
  operandBatchingDims := []
  startIndicesBatchingDims := []
  startIndexMap := [0]
  indexVectorDim := 1
  sliceSizes := ![1, 256]
  wf := gather_S8192x256_S8192x1_S8192x256_1_0_n_n_0_1_1256_wf
def gather_S200000x256_S8192x1_S8192x256_1_0_n_n_0_1_1256 : GatherDims S200000x256 S8192x1 S8192x256 where
  offsetDims := [1]
  collapsedSliceDims := [0]
  operandBatchingDims := []
  startIndicesBatchingDims := []
  startIndexMap := [0]
  indexVectorDim := 1
  sliceSizes := ![1, 256]
  wf := gather_S200000x256_S8192x1_S8192x256_1_0_n_n_0_1_1256_wf

class Facts : Prop extends Facts₀ where

variable [Facts]
-- ==== Proof.KernelRun.lean ====
/-
  The idealized kernel's run with its three results named. Every weakly fair execution of the program ends, without a
  fault, with each result buffer holding what the last segment boundary holds there — the fold of the host stretches
  and of the five regions' write-backs from the launch memory — and with the thirteen argument arrays as launched.
  What those boundary contents are, as functions of the arguments, is read off the fold in the modules that import this one.
-/
import proofs.«167286_j7885559955680_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the three results at the last boundary's contents, the arguments unchanged. -/
theorem run_results : θ_run defs (onTc (τ := τ) (main (F := F))) ⟨m, fun _ => 0, ρ⟩ (fun r => ∀ c : Dev nD,
      r.2.mem ((c.tc : Thread nD τ).loc main_v40) = W9 m ρ c (Proc.devRef .tc main_v40)
      ∧ r.2.mem ((c.tc : Thread nD τ).loc main_v41) = W9 m ρ c (Proc.devRef .tc main_v41)
      ∧ r.2.mem ((c.tc : Thread nD τ).loc main_v39) = W9 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v40 (by decide)),
       h c _ (mem_uc main_v41 (by decide)),
       h c _ (mem_uc main_v39 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.Results

end
-- ==== Proof.RowLoss.lean ====
/-
  The per-row contrastive term both programs compute, over the extended reals, and the scalar laws that join the two
  spellings of it.

  A row `x` of 256 numbers is divided by the larger of its Euclidean length and a fixed small floor; the cosine of two
  rows is the sum of the products of their scaled entries; a triple (anchor, positive, negative) contributes
  `softplus (cos(anchor, negative) − cos(anchor, positive))`, where `softplus d = max d 0 + log (1 + e^(−|d|))`.
  The two programs differ only in spelling: one subtracts and adds a zero and writes `0 − |d|`, the other negates `|d|` and
  divides `d` by one first; one guards the expression by the comparison `d ≠ d`, which no extended real satisfies.
  None of these laws needs finiteness.
-/
import Idealize.ShloMosaic.PureOps.Ideal
import Idealize.ShloMosaic.PureOps.Ideal.Laws
import Idealize.ShloMosaic.Lib.ValueIdx

noncomputable section

namespace Cert.RowLoss

open Idealize.ShloMosaic

/-- The floor under a row's length (the same word in both programs; never evaluated). -/
abbrev floor : EReal := Ideal.ofBits .f32 0x322BCC77#32

/-- Entry `j` of the row `x` divided by the larger of its Euclidean length and the floor. -/
def unitRow (x : Fin 256 → EReal) (j : Fin 256) : EReal :=
  Ideal.div (x j) (max (Ideal.sqrt (∑ k : Fin 256, x k * x k)) floor)

/-- The cosine of two rows: the sum of the products of their scaled entries. -/
def cosine (x y : Fin 256 → EReal) : EReal := ∑ j : Fin 256, unitRow x j * unitRow y j

/-- `softplus d = max d 0 + log (1 + e^(−|d|))`, with `|d| = max d (−d)`. -/
def softplus (d : EReal) : EReal := max d 0 + Ideal.log1p (Ideal.exp (-(max d (-d))))

/-- One triple's contribution. -/
def pairLoss (a p n : Fin 256 → EReal) : EReal := softplus (cosine a n - cosine a p)

/-! ## Scalar laws on the extended reals -/

theorem sub_zero' (x : EReal) : x - 0 = x := by rw [sub_eq_add_neg, neg_zero, add_zero]

theorem zero_sub' (x : EReal) : 0 - x = -x := by rw [sub_eq_add_neg, zero_add]

/-- Division by one is the identity on every extended real. -/
theorem div_one' (x : EReal) : Ideal.div x 1 = x := by
  unfold Ideal.div
  rw [if_neg one_ne_zero, inv_one, mul_one]

/-- The word of the float one denotes one. -/
theorem ofBits_one : Ideal.ofBits .f32 0x3F800000#32 = 1 := by
  simp [Ideal.ofBits, Ideal.ieee]
  first
    | (rw [← EReal.coe_mul, ← EReal.coe_one]; exact congrArg _ (by norm_num); done)
    | (rw [← EReal.coe_mul]; norm_num; done)
    | (norm_cast; norm_num; done)
    | (exact_mod_cast (by norm_num : (8388608:ℝ) * (1 / 8388608) = 1))

/-- No extended real differs from itself: both spellings of the guard are off. -/
theorem cmp_one_self (x : EReal) : Ideal.cmp .one x x = 0#1 := by simp [Ideal.cmp]
theorem cmp_une_self (x : EReal) : Ideal.cmp .une x x = 0#1 := by simp [Ideal.cmp]

/-- The kernel's spelling of softplus: `d − 0` compared with itself, `d + 0` on the dead branch, `0 − |d − 0|`. -/
theorem softplus_kernel (d : EReal) :
    Scalar.select (Ideal.cmp .one (d - 0) (d - 0)) (d + 0)
      (max d 0 + Ideal.log1p (Ideal.exp (0 - max (d - 0) (-(d - 0))))) = softplus d := by
  rw [cmp_one_self, ValueIdx.select_zero, sub_zero', zero_sub']
  rfl

/-- The reference's spelling: `d` first divided by one, the guard `≠` in its unordered form, `−|d − 0|`. -/
theorem softplus_reference (d : EReal) :
    Scalar.select (Ideal.cmp .une (Ideal.div d 1 - 0) (Ideal.div d 1 - 0)) (Ideal.div d 1 + 0)
      (max (Ideal.div d 1) 0 + Ideal.log1p (Ideal.exp (-(max (Ideal.div d 1 - 0) (-(Ideal.div d 1 - 0)))))) = softplus d := by
  rw [cmp_une_self, ValueIdx.select_zero, div_one', sub_zero']
  rfl

end Cert.RowLoss

end
-- ==== Proof.LibGatherScatter.lean ====
/-
  Row lookups and row accumulations read at one entry.

  A table of N rows is looked up at a list of E signed row numbers: entry e of the result is the table's row whose
  number is the e-th row number, read as a signed integer and clamped into [0, N − 1].  An accumulation adds E update
  rows into a table of N rows: update e is added to the row its signed row number names, and is dropped when that
  number names no row.  Over the extended reals the accumulated table reads, at row i, the table's own entry plus
  the sum of the updates whose row number is i.  Both are stated for tables of rows of W entries and for tables of
  single numbers, with the row numbers given as an E-by-1 array.
-/
import Idealize.ShloMosaic.PureOps.Ideal.Laws
import Idealize.ShloMosaic.Lib.ValueIdx

noncomputable section

open scoped BigOperators

namespace LibGatherScatter

open Idealize.ShloMosaic Idealize.ShloMosaic.ValueIdx

/-- A signed word clamped to a row number of a table of N rows. -/
def clampRow (N : Nat) (hN : 0 < N) {w : Nat} (v : BitVec w) : Fin N := ⟨min v.toInt.toNat (N - 1), by omega⟩

/-- A word that, read signed, is the row number i is clamped to i. -/
theorem clampRow_of_toInt {N : Nat} (hN : 0 < N) {w : Nat} (v : BitVec w) (i : Fin N) (h : v.toInt = (i.val : ℤ)) :
    clampRow N hN v = i := by
  refine Fin.ext ?_
  show min v.toInt.toNat (N - 1) = i.val
  rw [h, Int.toNat_natCast]
  have := i.isLt
  omega

/-- The one entry of the one-entry list of axes `[1]`, whatever number it is asked for under. -/
theorem getElem_single_one (n : Nat) (hn : n < ([1] : List (Fin 2)).length) : (([1] : List (Fin 2))[n]'hn) = 1 := by
  have h0 : n = 0 := by simpa using hn
  subst h0
  rfl

/-! ## Looking rows up -/

section Gather
variable {α : Type}

/-- The lookup of whole rows of an N-by-W table at an E-by-1 array of row numbers. -/
abbrev rowsDims (N E W : Nat) (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- Entry (e, k) of the looked-up rows is entry k of the table's row named by row number e, clamped. -/
theorem gather_rows_apply {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowsDims N E W wf) x idx (ix2 e k) = x (ix2 (clampRow N hN (idx (ix2 e (0 : Fin 1)))) k) := by
  unfold Host.gather
  refine congrArg x (funext fun a => Fin.ext ?_)
  match a with
  | ⟨0, _⟩ =>
    show (rowsDims N E W wf).start (ix2 e k) idx 0 + (rowsDims N E W wf).batchCoord (ix2 e k) 0
      + (rowsDims N E W wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E W wf).startIndexMap from List.mem_singleton.mpr rfl)]
    have hsi : (rowsDims N E W wf).siIdx (ix2 e k) ⟨List.idxOf (0 : Fin 2) (rowsDims N E W wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E W wf).start (ix2 e k) idx 1 + (rowsDims N E W wf).batchCoord (ix2 e k) 1
      + (rowsDims N E W wf).offCoord (ix2 e k) 1 = k.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowsDims N E W wf).startIndexMap from h10)]
    unfold GatherDims.offCoord
    rw [dif_pos (show (1 : Fin 2) ∈ (rowsDims N E W wf).sKept from
      (GatherDims.mem_sKept _ _).mpr ⟨h10, List.not_mem_nil⟩)]
    rw [Nat.zero_add]
    exact congrArg (fun z : Fin 2 => ((ix2 e k z).val : ℕ)) (getElem_single_one _ _)

/-- The lookup of single numbers of a table of N numbers at an E-by-1 array of row numbers. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the looked-up numbers is the table's number named by row number e, clamped. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  refine congrArg x (funext fun a => Fin.ext ?_)
  obtain rfl : a = 0 := Subsingleton.elim _ _
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating rows -/

/-- An axis is among the axes outside a list exactly when it is not in the list. -/
theorem mem_kept {s : Shape} (axes : List (Fin s.rank)) (a : Fin s.rank) : a ∈ s.kept axes ↔ a ∉ axes := by
  simp [Shape.kept, List.mem_filter, List.mem_finRange]

/-- A rank-1 index set is its one coordinate range, so a sum over it is the sum over the coordinate. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section ScatterRows

/-- The accumulation of E update rows into an N-by-W table at an E-by-1 array of row numbers. -/
abbrev rowsScat (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)
  (idx : IVec ⟨2, ![E, 1]⟩ w) (e : Fin E) (k' : Fin W)

theorem one_not_mem_zero : ¬ (1 : Fin 2) ∈ ([0] : List (Fin 2)) := by decide

/-- Update (e, k') starts, along the rows, at its row number read signed … -/
theorem rowsScat_start0 : (rowsScat N E W wf).start (ix2 e k') idx 0 = (idx (ix2 e (0 : Fin 1))).toInt := by
  unfold ScatterDims.start
  rw [dif_pos (show (0 : Fin 2) ∈ (rowsScat N E W wf).scatterDimsToOperandDims from List.mem_singleton.mpr rfl)]
  have hsi : (rowsScat N E W wf).siIdx (ix2 e k') ⟨List.idxOf (0 : Fin 2) (rowsScat N E W wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, along a row, at 0; -/
theorem rowsScat_start1 : (rowsScat N E W wf).start (ix2 e k') idx 1 = 0 := by
  unfold ScatterDims.start
  rw [dif_neg (show ¬ (1 : Fin 2) ∈ (rowsScat N E W wf).scatterDimsToOperandDims from one_not_mem_zero)]

/-- its place inside the row window is 0 along the rows … -/
theorem rowsScat_window0 : (rowsScat N E W wf).window (ix2 e k') 0 = 0 := by
  unfold ScatterDims.window
  rw [dif_neg (show ¬ (0 : Fin 2) ∈ (rowsScat N E W wf).sKept from
    fun h => ((mem_kept _ _).mp h) (List.mem_singleton.mpr rfl))]

/-- … and k' along the row. -/
theorem rowsScat_window1 : (rowsScat N E W wf).window (ix2 e k') 1 = k'.val := by
  unfold ScatterDims.window
  rw [dif_pos (show (1 : Fin 2) ∈ (rowsScat N E W wf).sKept from (mem_kept _ _).mpr one_not_mem_zero)]
  exact congrArg (fun z : Fin 2 => ((ix2 e k' z).val : ℕ)) (getElem_single_one _ _)

/-- Update (e, k') lands on entry (i, k) exactly when its row number, read signed, is i and k' is k. -/
theorem rowsScat_resultIdx_iff (i : Fin N) (k : Fin W) :
    (rowsScat N E W wf).resultIdx? (ix2 e k') idx = some (ix2 i k)
      ↔ (idx (ix2 e (0 : Fin 1))).toInt = (i.val : ℤ) ∧ k' = k := by
  have s0 := rowsScat_start0 wf idx e k'
  have s1 := rowsScat_start1 wf idx e k'
  have w0 := rowsScat_window0 wf e k'
  have w1 := rowsScat_window1 wf e k'
  have hi := i.isLt
  have hk := k.isLt
  have hk' := k'.isLt
  unfold ScatterDims.resultIdx?
  split
  · rename_i h
    rw [Option.some.injEq]
    constructor
    · intro hf
      have h0 : ((rowsScat N E W wf).start (ix2 e k') idx 0 + ((rowsScat N E W wf).window (ix2 e k') 0 : ℕ)).toNat = i.val :=
        congrArg (fun f : (⟨2, ![N, W]⟩ : Shape).Idx => (f 0).val) hf
      have h1 : ((rowsScat N E W wf).start (ix2 e k') idx 1 + ((rowsScat N E W wf).window (ix2 e k') 1 : ℕ)).toNat = k.val :=
        congrArg (fun f : (⟨2, ![N, W]⟩ : Shape).Idx => (f 1).val) hf
      have hh := (h 0).1
      rw [s0, w0] at h0 hh
      rw [s1, w1] at h1
      exact ⟨by omega, Fin.ext (by omega)⟩
    · rintro ⟨hI, rfl⟩
      funext a; refine Fin.ext ?_
      match a with
      | ⟨0, _⟩ =>
        show ((rowsScat N E W wf).start (ix2 e k') idx 0 + ((rowsScat N E W wf).window (ix2 e k') 0 : ℕ)).toNat = i.val
        rw [s0, w0, hI]; omega
      | ⟨1, _⟩ =>
        show ((rowsScat N E W wf).start (ix2 e k') idx 1 + ((rowsScat N E W wf).window (ix2 e k') 1 : ℕ)).toNat = k'.val
        rw [s1, w1]; omega
  · rename_i h
    constructor
    · intro hf; exact absurd hf (by simp)
    · rintro ⟨hI, rfl⟩
      exfalso; apply h; intro a
      match a with
      | ⟨0, _⟩ =>
        show 0 ≤ (rowsScat N E W wf).start (ix2 e k') idx 0 + ((rowsScat N E W wf).window (ix2 e k') 0 : ℕ)
          ∧ (rowsScat N E W wf).start (ix2 e k') idx 0 + ((rowsScat N E W wf).window (ix2 e k') 0 : ℕ) < (N : ℤ)
        rw [s0, w0, hI]; omega
      | ⟨1, _⟩ =>
        show 0 ≤ (rowsScat N E W wf).start (ix2 e k') idx 1 + ((rowsScat N E W wf).window (ix2 e k') 1 : ℕ)
          ∧ (rowsScat N E W wf).start (ix2 e k') idx 1 + ((rowsScat N E W wf).window (ix2 e k') 1 : ℕ) < (W : ℤ)
        rw [s1, w1]; omega

/-- Entry (i, k) of the accumulated table, over the extended reals: the table's own entry plus the sum of the
    entries k of the update rows whose row number is i. -/
theorem scatterAdd_rows_apply {φ : FTy} (x : FVec Ideal ⟨2, ![N, W]⟩ φ) (upd : FVec Ideal ⟨2, ![E, W]⟩ φ) (i : Fin N) (k : Fin W) :
    Host.scatterAdd (F := Ideal) (rowsScat N E W wf) x idx upd (ix2 i k)
      = x (ix2 i k) + ∑ e : Fin E, if (idx (ix2 e (0 : Fin 1))).toInt = (i.val : ℤ) then upd (ix2 e k) else 0 := by
  unfold Host.scatterAdd
  rw [Ideal.hostScatterAdd_def]
  unfold Ideal.hostScatterAdd
  refine congrArg (x (ix2 i k) + ·) ?_
  rw [Finset.sum_filter, sum_idx2]
  refine Finset.sum_congr rfl fun e _ => ?_
  simp only [rowsScat_resultIdx_iff wf idx e _ i k]
  by_cases hP : (idx (ix2 e (0 : Fin 1))).toInt = (i.val : ℤ)
  · simp only [hP, true_and]
    rw [Finset.sum_ite_eq' Finset.univ k (fun k' => upd (ix2 e k')), if_pos (Finset.mem_univ k), if_pos trivial]
  · simp only [hP, false_and, if_false, Finset.sum_const_zero]

end ScatterRows

section ScatterVec

/-- The accumulation of E update numbers into a table of N numbers at an E-by-1 array of row numbers. -/
abbrev vecScat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

theorem vecScat_start0 : (vecScat N E wf).start (ix1 e) idx 0 = (idx (ix2 e (0 : Fin 1))).toInt := by
  unfold ScatterDims.start
  rw [dif_pos (show (0 : Fin 1) ∈ (vecScat N E wf).scatterDimsToOperandDims from List.mem_singleton.mpr rfl)]
  have hsi : (vecScat N E wf).siIdx (ix1 e) ⟨List.idxOf (0 : Fin 1) (vecScat N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScat_window0 : (vecScat N E wf).window (ix1 e) 0 = 0 := by
  unfold ScatterDims.window
  rw [dif_neg (show ¬ (0 : Fin 1) ∈ (vecScat N E wf).sKept from
    fun h => ((mem_kept _ _).mp h) (List.mem_singleton.mpr rfl))]

/-- Update e lands on entry i exactly when its row number, read signed, is i. -/
theorem vecScat_resultIdx_iff (i : Fin N) :
    (vecScat N E wf).resultIdx? (ix1 e) idx = some (ix1 i) ↔ (idx (ix2 e (0 : Fin 1))).toInt = (i.val : ℤ) := by
  have s0 := vecScat_start0 wf idx e
  have w0 := vecScat_window0 wf e
  have hi := i.isLt
  unfold ScatterDims.resultIdx?
  split
  · rename_i h
    rw [Option.some.injEq]
    constructor
    · intro hf
      have h0 : ((vecScat N E wf).start (ix1 e) idx 0 + ((vecScat N E wf).window (ix1 e) 0 : ℕ)).toNat = i.val :=
        congrArg (fun f : (⟨1, ![N]⟩ : Shape).Idx => (f 0).val) hf
      have hh := (h 0).1
      rw [s0, w0] at h0 hh
      omega
    · intro hI
      funext a; refine Fin.ext ?_
      obtain rfl : a = 0 := Subsingleton.elim _ _
      show ((vecScat N E wf).start (ix1 e) idx 0 + ((vecScat N E wf).window (ix1 e) 0 : ℕ)).toNat = i.val
      rw [s0, w0, hI]; omega
  · rename_i h
    constructor
    · intro hf; exact absurd hf (by simp)
    · intro hI
      exfalso; apply h; intro a
      obtain rfl : a = 0 := Subsingleton.elim _ _
      show 0 ≤ (vecScat N E wf).start (ix1 e) idx 0 + ((vecScat N E wf).window (ix1 e) 0 : ℕ)
        ∧ (vecScat N E wf).start (ix1 e) idx 0 + ((vecScat N E wf).window (ix1 e) 0 : ℕ) < (N : ℤ)
      rw [s0, w0, hI]; omega

/-- Entry i of the accumulated table, over the extended reals: the table's own entry plus the sum of the updates
    whose row number is i. -/
theorem scatterAdd_vec_apply {φ : FTy} (x : FVec Ideal ⟨1, ![N]⟩ φ) (upd : FVec Ideal ⟨1, ![E]⟩ φ) (i : Fin N) :
    Host.scatterAdd (F := Ideal) (vecScat N E wf) x idx upd (ix1 i)
      = x (ix1 i) + ∑ e : Fin E, if (idx (ix2 e (0 : Fin 1))).toInt = (i.val : ℤ) then upd (ix1 e) else 0 := by
  unfold Host.scatterAdd
  rw [Ideal.hostScatterAdd_def]
  unfold Ideal.hostScatterAdd
  refine congrArg (x (ix1 i) + ·) ?_
  rw [Finset.sum_filter, sum_idx1]
  refine Finset.sum_congr rfl fun e _ => ?_
  simp only [vecScat_resultIdx_iff wf idx e i]

end ScatterVec

end LibGatherScatter

end
-- ==== Proof.Results.lean ====
/-
  What the three results are, as functions of the argument arrays, over the extended reals.

  The contrastive total: for each of three tables (anchor rows `a`, paired rows `p`, and for each row a row number
  naming the negative row of `p`, clamped into range as a lookup clamps it), the per-row terms of `RowLoss` are summed
  over all rows and divided by the number of rows; the three means are added and scaled by a fixed weight.
  The blended embeddings: entry (i, j) is `σ(w₀ⱼ)·aᵢⱼ + σ(w₁ⱼ)·bᵢⱼ` with `σ` the logistic function and `w` a 2-by-256
  array of gate weights.
-/
import proofs.«167286_j7885559955680_2_alg».proof.Proof.RowLoss
import proofs.«167286_j7885559955680_2_alg».proof.Proof.LibGatherScatter

noncomputable section

namespace Cert.Results

open Idealize.ShloMosaic Idealize.ShloMosaic.ValueIdx Cert.RowLoss

/-- Row `r` of an N-by-256 array. -/
abbrev row {N : Nat} (x : (⟨2, ![N, 256]⟩ : Shape).Idx → EReal) (r : Fin N) : Fin 256 → EReal := fun j => x (ix2 r j)

/-- The sum over all rows of one table's per-row terms; `ii` holds, per row, the row number of its negative. -/
def lossSum (N : Nat) (hN : 0 < N) (a p : (⟨2, ![N, 256]⟩ : Shape).Idx → EReal) (ii : IVec ⟨2, ![N, 1]⟩ 32) : EReal :=
  ∑ r : Fin N, pairLoss (row a r) (row p r) (row p (LibGatherScatter.clampRow N hN (ii (ix2 r (0 : Fin 1)))))

/-- The contrastive total: three means, added left to right, times the weight. The divisors and the weight are the
    words both programs print; they are never evaluated. -/
def total (s0 s1 s2 : EReal) : EReal :=
  Ideal.ofBits .f32 0x3D4CCCCD#32 *
    ((Ideal.div s0 (Ideal.ofBits .f32 0x48435000#32) + Ideal.div s1 (Ideal.ofBits .f32 0x47C35000#32))
      + Ideal.div s2 (Ideal.ofBits .f32 0x46000000#32))

/-- The blend of two N-by-256 arrays by the logistic function of two rows of gate weights. -/
def blend {N : Nat} (w : (⟨2, ![2, 256]⟩ : Shape).Idx → EReal) (a b : (⟨2, ![N, 256]⟩ : Shape).Idx → EReal) :
    (⟨2, ![N, 256]⟩ : Shape).Idx → EReal :=
  fun i => Ideal.logistic (w (ix2 (0 : Fin 2) (i 1 : Fin 256))) * a i + Ideal.logistic (w (ix2 (1 : Fin 2) (i 1 : Fin 256))) * b i

theorem blend_apply {N : Nat} (w : (⟨2, ![2, 256]⟩ : Shape).Idx → EReal) (a b : (⟨2, ![N, 256]⟩ : Shape).Idx → EReal)
    (p : Fin N) (q : Fin 256) :
    blend w a b (ix2 p q) = Ideal.logistic (w (ix2 (0 : Fin 2) q)) * a (ix2 p q) + Ideal.logistic (w (ix2 (1 : Fin 2) q)) * b (ix2 p q) := rfl

end Cert.Results

end
-- ==== Proof.BlendKernel.lean ====
/-
  The two blended embedding arrays as the idealized kernel's run leaves them.

  Each of the two blending regions walks its output array block by block (1024 rows at a time for the looked-up table,
  2000 rows for the other); at every block it loads the whole 2-by-256 array of gate weights and the two input blocks,
  and stores `σ(w₀ⱼ)·aᵢⱼ + σ(w₁ⱼ)·bᵢⱼ` for every entry of the block, `σ` the logistic function. Here: the stored block
  read at one entry; the block a grid point writes back as that block of the blend of the whole arrays; every row lies
  in the block of its quotient by the block height, so the array ends as the blend of the arrays the region found; and
  what those arrays are — two arguments as launched, and for the first region the rows of a third argument looked up
  at a vector of row numbers (negative numbers counted from the end) by the host operations before the first region.
-/
import proofs.«167286_j7885559955680_2_alg».proof.Proof.KernelRun
import proofs.«167286_j7885559955680_2_alg».proof.Proof.Results
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Blend

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The stored block at one entry -/

/-- The first region's stored block at row `p`, column `q`: the logistic of the two gate weights of column `q`
    against the two loaded blocks' entries. -/
theorem pay3_apply (w : Vec Ideal S2x256 .f32) (a b : Vec Ideal S1024x256 .f32) (p : Fin 1024) (q : Fin 256) :
    k3_pay1 w a b (ix2 p q)
      = Ideal.logistic (w (ix2 (0 : Fin 2) q)) * a (ix2 p q) + Ideal.logistic (w (ix2 (1 : Fin 2) q)) * b (ix2 p q) := by
  unfold k3_pay1
  rw [addf_apply, mulf_apply, mulf_apply, broadcastTo_1b_ab_apply, broadcastTo_1b_ab_apply,
    slice2_axis0_apply 0 _ _ (0 : Fin 1) q (0 : Fin 2) rfl, slice2_axis0_apply 1 _ _ (0 : Fin 1) q (1 : Fin 2) rfl,
    shapeCast_self]
  rfl

/-- So the stored block at a block entry `y` is the blend of whole arrays `W`, `A`, `B` at the array entry `i` it
    sits at, once the loaded gate block is `W`, the loaded blocks at `y` are `A` and `B` at `i`, and `i` is in
    `y`'s column. -/
theorem pay3_blend (w : Vec Ideal S2x256 .f32) (a b : Vec Ideal S1024x256 .f32)
    (W : S2x256.Idx → EReal) (A B : S8192x256.Idx → EReal) (y : S1024x256.Idx) (i : S8192x256.Idx)
    (hw : w = W) (ha : a y = A i) (hb : b y = B i) (hi : (i 1).val = (y 1).val) :
    k3_pay1 w a b y = Cert.Results.blend W A B i := by
  obtain ⟨p, q, rfl⟩ : ∃ (p : Fin 1024) (q : Fin 256), y = ix2 p q := ⟨y 0, y 1, eq_ix2 y⟩
  obtain ⟨r, s, rfl⟩ : ∃ (r : Fin 8192) (s : Fin 256), i = ix2 r s := ⟨i 0, i 1, eq_ix2 i⟩
  obtain rfl : s = q := Fin.ext hi
  rw [pay3_apply, Cert.Results.blend_apply, ← ha, ← hb, hw]

/-- The second region's stored block at row `p`, column `q`: the logistic of the two gate weights of column `q`
    against the two loaded blocks' entries. -/
theorem pay4_apply (w : Vec Ideal S2x256 .f32) (a b : Vec Ideal S2000x256 .f32) (p : Fin 2000) (q : Fin 256) :
    k4_pay1 w a b (ix2 p q)
      = Ideal.logistic (w (ix2 (0 : Fin 2) q)) * a (ix2 p q) + Ideal.logistic (w (ix2 (1 : Fin 2) q)) * b (ix2 p q) := by
  unfold k4_pay1
  rw [addf_apply, mulf_apply, mulf_apply, broadcastTo_1b_ab_apply, broadcastTo_1b_ab_apply,
    slice2_axis0_apply 0 _ _ (0 : Fin 1) q (0 : Fin 2) rfl, slice2_axis0_apply 1 _ _ (0 : Fin 1) q (1 : Fin 2) rfl]
  rfl

/-- So the stored block at a block entry `y` is the blend of whole arrays `W`, `A`, `B` at the array entry `i` it
    sits at, once the loaded gate block is `W`, the loaded blocks at `y` are `A` and `B` at `i`, and `i` is in
    `y`'s column. -/
theorem pay4_blend (w : Vec Ideal S2x256 .f32) (a b : Vec Ideal S2000x256 .f32)
    (W : S2x256.Idx → EReal) (A B : S100000x256.Idx → EReal) (y : S2000x256.Idx) (i : S100000x256.Idx)
    (hw : w = W) (ha : a y = A i) (hb : b y = B i) (hi : (i 1).val = (y 1).val) :
    k4_pay1 w a b y = Cert.Results.blend W A B i := by
  obtain ⟨p, q, rfl⟩ : ∃ (p : Fin 2000) (q : Fin 256), y = ix2 p q := ⟨y 0, y 1, eq_ix2 y⟩
  obtain ⟨r, s, rfl⟩ : ∃ (r : Fin 100000) (s : Fin 256), i = ix2 r s := ⟨i 0, i 1, eq_ix2 i⟩
  obtain rfl : s = q := Fin.ext hi
  rw [pay4_apply, Cert.Results.blend_apply, ← ha, ← hb, hw]

section General
variable (V : (c : Dev nD) → (b : Ref sig .tc) → Buf (Elt Ideal) ((c : Thread nD τ).loc b))

/-! ## From blocks to the array -/

/-- The block indices, decided over the 8 grid points: the two row-blocked inputs and the output sit at block
    (t, 0) at point `t`, the gate weights at block (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the blend of the arrays as the region finds them. -/
theorem flushed3_eq (c : Dev nD) (t : Fin cfg3.N) :
    (dat3 V c).flushed 3 t = ((cfg3.win 3).blk t).view.read (Elt Ideal)
      (Cert.Results.blend (V c main_arg7) (V c main_v27) (V c main_arg4)) := by
  show (cfg3.win 3).cut (grid3.coords t) ((dat3 V c).after 3 t) = _
  rw [after3_3]
  unfold out3_3
  rw [View.canon_unit_zero hz]
  simp only [View.ld_unit_zero (S := S1024x256) hz, View.ld_unit_zero (S := S2x256) hz]
  obtain ⟨e00, e01, e10, e11, e20, e21, e30, e31⟩ := idx_facts3 t
  funext j
  show k3_pay1 (iblk3 V c 2 t) (iblk3 V c 0 t) (iblk3 V c 1 t) j
    = Cert.Results.blend (V c main_arg7) (V c main_v27) (V c main_arg4) (((cfg3.win 3).blk t).view.emb j)
  refine pay3_blend _ _ _ (V c main_arg7) (V c main_v27) (V c main_arg4) j (((cfg3.win 3).blk t).view.emb j) ?_ ?_ ?_ ?_
  · funext x
    show V c main_arg7 (((cfg3.win 2).blk t).view.emb x) = V c main_arg7 x
    refine congrArg _ (funext fun a => Fin.ext ?_)
    match a with
    | ⟨0, _⟩ => show win3_2.index t (0 : Fin 2) * 2 + 1 * (x 0).val = (x 0).val; omega
    | ⟨1, _⟩ => show win3_2.index t (1 : Fin 2) * 256 + 1 * (x 1).val = (x 1).val; omega
  · show V c main_v27 (((cfg3.win 0).blk t).view.emb j) = V c main_v27 (((cfg3.win 3).blk t).view.emb j)
    refine congrArg _ (funext fun a => Fin.ext ?_)
    match a with
    | ⟨0, _⟩ => show win3_0.index t (0 : Fin 2) * 1024 + 1 * (j 0).val = win3_3.index t (0 : Fin 2) * 1024 + 1 * (j 0).val; omega
    | ⟨1, _⟩ => show win3_0.index t (1 : Fin 2) * 256 + 1 * (j 1).val = win3_3.index t (1 : Fin 2) * 256 + 1 * (j 1).val; omega
  · show V c main_arg4 (((cfg3.win 1).blk t).view.emb j) = V c main_arg4 (((cfg3.win 3).blk t).view.emb j)
    refine congrArg _ (funext fun a => Fin.ext ?_)
    match a with
    | ⟨0, _⟩ => show win3_1.index t (0 : Fin 2) * 1024 + 1 * (j 0).val = win3_3.index t (0 : Fin 2) * 1024 + 1 * (j 0).val; omega
    | ⟨1, _⟩ => show win3_1.index t (1 : Fin 2) * 256 + 1 * (j 1).val = win3_3.index t (1 : Fin 2) * 256 + 1 * (j 1).val; omega
  · show win3_3.index t (1 : Fin 2) * 256 + 1 * (j 1).val = (j 1).val
    omega

/-- An entry of the array is in point `t`'s block iff each coordinate is in the block's range on its axis. -/
theorem mem_blk3 (t : Fin cfg3.N) (i : S8192x256.Idx) :
    i ∈ ((cfg3.win 3).blk t).view.set ↔ ∀ a : Fin 2, win3_3.index t a * S1024x256.size a ≤ (i a).val ∧ (i a).val < win3_3.index t a * S1024x256.size a + S1024x256.size a := by
  show i ∈ ((View.whole main_v40).slice (win3_3.rect t)).set ↔ _
  rw [View.set_slice_whole, Rect.mem_set_unit]
  exact Iff.rfl

/-- Every entry is written back: row `r` by the point `r / 1024`. -/
theorem cover3 (i : S8192x256.Idx) : ∃ t : Fin cfg3.N, (cfg3.win 3).flush t = true ∧ i ∈ ((cfg3.win 3).blk t).view.set := by
  have hi0 : (i 0).val < 8192 := (i 0).isLt
  have hi1 : (i 1).val < 256 := (i 1).isLt
  have hN : cfg3.N = 8 := N_3
  refine ⟨⟨(i 0).val / 1024, by rw [hN]; omega⟩, flush3_3 _, ?_⟩
  obtain ⟨-, -, -, -, -, -, e30, e31⟩ := idx_facts3 ⟨(i 0).val / 1024, by rw [hN]; omega⟩
  rw [mem_blk3]
  intro a
  match a with
  | ⟨0, _⟩ =>
    show win3_3.index _ (0 : Fin 2) * 1024 ≤ (i 0).val ∧ (i 0).val < win3_3.index _ (0 : Fin 2) * 1024 + 1024
    rw [e30]; show (i 0).val / 1024 * 1024 ≤ (i 0).val ∧ (i 0).val < (i 0).val / 1024 * 1024 + 1024; omega
  | ⟨1, _⟩ =>
    show win3_3.index _ (1 : Fin 2) * 256 ≤ (i 1).val ∧ (i 1).val < win3_3.index _ (1 : Fin 2) * 256 + 256
    rw [e31]; omega

/-- The first region's output array after its last point: the blend of the arrays the region found. -/
theorem final3 (c : Dev nD) : (dat3 V c).arrAt 3 cfg3.N
    = Cert.Results.blend (V c main_arg7) (V c main_v27) (V c main_arg4) :=
  (dat3 V c).arrAt_eq_of_cover 3 _ (fun t _ => flushed3_eq V c t) cover3

/-- The block indices, decided over the 50 grid points: the two row-blocked inputs and the output sit at block
    (t, 0) at point `t`, the gate weights at block (0, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the blend of the arrays as the region finds them. -/
theorem flushed4_eq (c : Dev nD) (t : Fin cfg4.N) :
    (dat4 V c).flushed 3 t = ((cfg4.win 3).blk t).view.read (Elt Ideal)
      (Cert.Results.blend (V c main_arg8) (V c main_arg2) (V c main_arg6)) := by
  show (cfg4.win 3).cut (grid4.coords t) ((dat4 V c).after 3 t) = _
  rw [after4_3]
  unfold out4_3
  rw [View.canon_unit_zero hz]
  simp only [View.ld_unit_zero (S := S2000x256) hz, View.ld_unit_zero (S := S2x256) hz]
  obtain ⟨e00, e01, e10, e11, e20, e21, e30, e31⟩ := idx_facts4 t
  funext j
  show k4_pay1 (iblk4 V c 2 t) (iblk4 V c 0 t) (iblk4 V c 1 t) j
    = Cert.Results.blend (V c main_arg8) (V c main_arg2) (V c main_arg6) (((cfg4.win 3).blk t).view.emb j)
  refine pay4_blend _ _ _ (V c main_arg8) (V c main_arg2) (V c main_arg6) j (((cfg4.win 3).blk t).view.emb j) ?_ ?_ ?_ ?_
  · funext x
    show V c main_arg8 (((cfg4.win 2).blk t).view.emb x) = V c main_arg8 x
    refine congrArg _ (funext fun a => Fin.ext ?_)
    match a with
    | ⟨0, _⟩ => show win4_2.index t (0 : Fin 2) * 2 + 1 * (x 0).val = (x 0).val; omega
    | ⟨1, _⟩ => show win4_2.index t (1 : Fin 2) * 256 + 1 * (x 1).val = (x 1).val; omega
  · show V c main_arg2 (((cfg4.win 0).blk t).view.emb j) = V c main_arg2 (((cfg4.win 3).blk t).view.emb j)
    refine congrArg _ (funext fun a => Fin.ext ?_)
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 256 + 1 * (j 1).val = win4_3.index t (1 : Fin 2) * 256 + 1 * (j 1).val; omega
  · show V c main_arg6 (((cfg4.win 1).blk t).view.emb j) = V c main_arg6 (((cfg4.win 3).blk t).view.emb j)
    refine congrArg _ (funext fun a => Fin.ext ?_)
    match a with
    | ⟨0, _⟩ => show win4_1.index t (0 : Fin 2) * 2000 + 1 * (j 0).val = win4_3.index t (0 : Fin 2) * 2000 + 1 * (j 0).val; omega
    | ⟨1, _⟩ => show win4_1.index t (1 : Fin 2) * 256 + 1 * (j 1).val = win4_3.index t (1 : Fin 2) * 256 + 1 * (j 1).val; omega
  · show win4_3.index t (1 : Fin 2) * 256 + 1 * (j 1).val = (j 1).val
    omega

/-- An entry of the array is in point `t`'s block iff each coordinate is in the block's range on its axis. -/
theorem mem_blk4 (t : Fin cfg4.N) (i : S100000x256.Idx) :
    i ∈ ((cfg4.win 3).blk t).view.set ↔ ∀ a : Fin 2, win4_3.index t a * S2000x256.size a ≤ (i a).val ∧ (i a).val < win4_3.index t a * S2000x256.size a + S2000x256.size a := by
  show i ∈ ((View.whole main_v41).slice (win4_3.rect t)).set ↔ _
  rw [View.set_slice_whole, Rect.mem_set_unit]
  exact Iff.rfl

/-- Every entry is written back: row `r` by the point `r / 2000`. -/
theorem cover4 (i : S100000x256.Idx) : ∃ t : Fin cfg4.N, (cfg4.win 3).flush t = true ∧ i ∈ ((cfg4.win 3).blk t).view.set := by
  have hi0 : (i 0).val < 100000 := (i 0).isLt
  have hi1 : (i 1).val < 256 := (i 1).isLt
  have hN : cfg4.N = 50 := N_4
  refine ⟨⟨(i 0).val / 2000, by rw [hN]; omega⟩, flush4_3 _, ?_⟩
  obtain ⟨-, -, -, -, -, -, e30, e31⟩ := idx_facts4 ⟨(i 0).val / 2000, by rw [hN]; omega⟩
  rw [mem_blk4]
  intro a
  match a with
  | ⟨0, _⟩ =>
    show win4_3.index _ (0 : Fin 2) * 2000 ≤ (i 0).val ∧ (i 0).val < win4_3.index _ (0 : Fin 2) * 2000 + 2000
    rw [e30]; show (i 0).val / 2000 * 2000 ≤ (i 0).val ∧ (i 0).val < (i 0).val / 2000 * 2000 + 2000; omega
  | ⟨1, _⟩ =>
    show win4_3.index _ (1 : Fin 2) * 256 ≤ (i 1).val ∧ (i 1).val < win4_3.index _ (1 : Fin 2) * 256 + 256
    rw [e31]; omega

/-- The second region's output array after its last point: the blend of the arrays the region found. -/
theorem final4 (c : Dev nD) : (dat4 V c).arrAt 3 cfg4.N
    = Cert.Results.blend (V c main_arg8) (V c main_arg2) (V c main_arg6) :=
  (dat4 V c).arrAt_eq_of_cover 3 _ (fun t _ => flushed4_eq V c t) cover4

end General

/-! ## The run's boundary contents at the two results -/

variable (m : (ℓ : Loc nD τ sig) → Buf (Elt Ideal) ℓ) (ρ : Dev nD → PrngReg)

/-- The looked-up table is written once, by the host operations before the first region; no later host operation and
    none of the first three regions writes it, so the third region finds it as those operations left it. -/
theorem found_looked_up (c : Dev nD) :
    W7 m ρ c (Proc.devRef .tc main_v27) = W1 m ρ c (Proc.devRef .tc main_v27) :=
  calc W7 m ρ c (Proc.devRef .tc main_v27)
    _ = W6 m ρ c (Proc.devRef .tc main_v27) := StableHlo.after_of_forall_not_mem (b := Proc.devRef .tc main_v27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v27) := W6_of_ne m ρ c main_v27 (by decide)
    _ = W4 m ρ c (Proc.devRef .tc main_v27) := StableHlo.after_of_forall_not_mem (b := Proc.devRef .tc main_v27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v27) := W4_of_ne m ρ c main_v27 (by decide)
    _ = W2 m ρ c (Proc.devRef .tc main_v27) := StableHlo.after_of_forall_not_mem (b := Proc.devRef .tc main_v27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v27) := W2_of_ne m ρ c main_v27 (by decide)

/-- The looked-up table: the rows of the first argument at the row numbers of the tenth, a negative number counted
    from the end (the first stretch of host operations, read at its last result). -/
theorem looked_up (c : Dev nD) : W1 (F := Ideal) m ρ c (Proc.devRef .tc main_v27)
    = Host.gather gather_S200000x256_S8192x1_S8192x256_1_0_n_n_0_1_1256 (m ((c : Thread nD τ).loc main_arg0)) (broadcastInDim S8192x1 ![0] bcast_S8192_S8192x1_0 (select (cmpi .slt (m ((c : Thread nD τ).loc main_arg9)) (broadcastInDim S8192 ![] bcast_S_S8192 (constantI S_ 32 0#32))) (addi (m ((c : Thread nD τ).loc main_arg9)) (broadcastInDim S8192 ![] bcast_S_S8192 (constantI S_ 32 200000#32))) (m ((c : Thread nD τ).loc main_arg9)))) := by
  show StableHlo.after hostOps0 (W0 m ρ c) (Proc.devRef .tc main_v27) = _
  after_results_simp <;> rfl

/-- The first blended array at the end of the run: the third region's output, untouched by the fourth, is the blend
    of what the third region found — the gate weights and the second table as launched, the first table as looked up. -/
theorem users (c : Dev nD) : W9 (F := Ideal) m ρ c (Proc.devRef .tc main_v40)
    = Cert.Results.blend (m ((c : Thread nD τ).loc main_arg7)) (W1 (F := Ideal) m ρ c (Proc.devRef .tc main_v27)) (m ((c : Thread nD τ).loc main_arg4)) := by
  have h7 : W7 m ρ c (Proc.devRef .tc main_arg7) = m ((c : Thread nD τ).loc main_arg7) :=
    ((W8_arr m ρ c 2).trans (((dat3 (V7 m ρ) c).arrAt_in 2 rfl _).trans (A_eq3 (V7 m ρ) c 2))).symm.trans
      ((W9_of_ne m ρ c main_arg7 (by decide)).symm.trans (W9_main_arg7 m ρ c))
  have h4 : W7 m ρ c (Proc.devRef .tc main_arg4) = m ((c : Thread nD τ).loc main_arg4) :=
    ((W8_arr m ρ c 1).trans (((dat3 (V7 m ρ) c).arrAt_in 1 rfl _).trans (A_eq3 (V7 m ρ) c 1))).symm.trans
      ((W9_of_ne m ρ c main_arg4 (by decide)).symm.trans (W9_main_arg4 m ρ c))
  have e := final3 (V7 m ρ) c
  rw [show V7 m ρ c main_arg7 = m ((c : Thread nD τ).loc main_arg7) from h7,
    show V7 m ρ c main_arg4 = m ((c : Thread nD τ).loc main_arg4) from h4,
    show V7 m ρ c main_v27 = W1 m ρ c (Proc.devRef .tc main_v27) from found_looked_up m ρ c] at e
  exact (W9_of_ne m ρ c main_v40 (by decide)).trans ((W8_arr m ρ c 3).trans e)

/-- The second blended array at the end of the run: the fourth region's output is the blend of what that region
    found, three arguments as launched. -/
theorem items (c : Dev nD) : W9 (F := Ideal) m ρ c (Proc.devRef .tc main_v41)
    = Cert.Results.blend (m ((c : Thread nD τ).loc main_arg8)) (m ((c : Thread nD τ).loc main_arg2)) (m ((c : Thread nD τ).loc main_arg6)) := by
  have h8 : W8 m ρ c (Proc.devRef .tc main_arg8) = m ((c : Thread nD τ).loc main_arg8) :=
    ((W9_arr m ρ c 2).trans (((dat4 (V8 m ρ) c).arrAt_in 2 rfl _).trans (A_eq4 (V8 m ρ) c 2))).symm.trans (W9_main_arg8 m ρ c)
  have h2 : W8 m ρ c (Proc.devRef .tc main_arg2) = m ((c : Thread nD τ).loc main_arg2) :=
    ((W9_arr m ρ c 0).trans (((dat4 (V8 m ρ) c).arrAt_in 0 rfl _).trans (A_eq4 (V8 m ρ) c 0))).symm.trans (W9_main_arg2 m ρ c)
  have h6 : W8 m ρ c (Proc.devRef .tc main_arg6) = m ((c : Thread nD τ).loc main_arg6) :=
    ((W9_arr m ρ c 1).trans (((dat4 (V8 m ρ) c).arrAt_in 1 rfl _).trans (A_eq4 (V8 m ρ) c 1))).symm.trans (W9_main_arg6 m ρ c)
  have e := final4 (V8 m ρ) c
  rw [show V8 m ρ c main_arg8 = m ((c : Thread nD τ).loc main_arg8) from h8,
    show V8 m ρ c main_arg2 = m ((c : Thread nD τ).loc main_arg2) from h2,
    show V8 m ρ c main_arg6 = m ((c : Thread nD τ).loc main_arg6) from h6] at e
  exact (W9_arr m ρ c 3).trans e

end Cert.KernelIdeal.Blend

end
-- ==== Proof.LibColumn.lean ====
/-
  Two layout operations of a keepdims row reduction, read at an index: a vector of length a viewed as
  an a-by-1 column reads its own entry, and an a-by-1 column broadcast along the second axis to
  a-by-b reads the column's entry of the same row.
-/
import Idealize.ShloMosaic.Lib.ValueIdx
import Idealize.ShloMosaic.Lib.Pipeline.Value

namespace Cert.Splat.Column

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Splat.Column
-- ==== Proof.LibSumIdx.lean ====
/-
  General lemmas on finite sums over index sets built from coordinates.

  * a rank-3 index set is the product of its three coordinate ranges, so a sum over it is the
    triple sum over the coordinates (the rank-3 companion of the rank-2 statement);
  * a sum over `Fin (m * n)` splits into `m` consecutive tiles of `n` terms each.
-/
import Idealize.ShloMosaic.Lib.ValueIdx

noncomputable section

open scoped BigOperators

namespace Cert.LibSumIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The `r`-th element of the `k`-th tile of width `n`. -/
def tile {m n : Nat} (k : Fin m) (r : Fin n) : Fin (m * n) :=
  ⟨k.val * n + r.val, by
    have hk := k.isLt; have hr := r.isLt
    calc k.val * n + r.val < k.val * n + n := by omega
      _ = (k.val + 1) * n := by ring
      _ ≤ m * n := Nat.mul_le_mul_right n hk⟩

/-- A sum over `Fin (m * n)` is the sum over the `m` tiles of the sums over each tile's `n` elements. -/
theorem sum_tiles {M : Type*} [AddCommMonoid M] {m n : Nat} (f : Fin (m * n) → M) :
    ∑ i, f i = ∑ k : Fin m, ∑ r : Fin n, f (tile k r) := by
  rw [← Equiv.sum_comp (finProdFinEquiv (m := m) (n := n)) f, Fintype.sum_prod_type]
  refine Finset.sum_congr rfl fun k _ => Finset.sum_congr rfl fun r _ => congrArg f (Fin.ext ?_)
  show r.val + n * k.val = k.val * n + r.val
  rw [Nat.mul_comm, Nat.add_comm]

end Cert.LibSumIdx

end
-- ==== Proof.Nce0Point.lean ====
/-
  One grid point of the first contrastive region. The body loads three 2000-by-256 blocks (anchor rows, paired rows,
  negative rows), scales every row by the larger of its length and the floor, takes per row the two cosines, applies
  softplus to their difference, sums the 2000 terms, and adds that sum to the one-number accumulator.
  Read at an index, the amount a point adds is the sum over its 2000 rows of the per-row term of `RowLoss`.
-/
import proofs.«167286_j7885559955680_2_alg».proof.Proof.Gen.KernelIdeal.Frame
import proofs.«167286_j7885559955680_2_alg».proof.Proof.RowLoss
import proofs.«167286_j7885559955680_2_alg».proof.Proof.LibColumn
import proofs.«167286_j7885559955680_2_alg».proof.Proof.LibSumIdx
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Nce0

open Cert.KernelIdeal Cert.KernelIdeal.Gen
open Idealize.ShloMosaic Idealize.ShloMosaic.TcCoe Idealize.ShloMosaic.ValueIdx Idealize.SL.Sem
open Cert.RowLoss

section AnyFloat
variable {F : FTy → Type} [FloatOps F]

/-- Every row of a block divided by the larger of its Euclidean length and the floor. -/
def scaled (x : FVec F S2000x256 .f32) : FVec F S2000x256 .f32 :=
  divf x (broadcastTo S2000x256 (maximumf (sqrt (shapeCast S2000x1 (multiReduction .add [1] S2000 (mulf x x) 0x00000000#32 reduces_S2000x256_S2000 (.inl rfl) rfl) shapeCasts_S2000_S2000x1)) (broadcast S2000x1 (Scalar.ofBits .f32 0x322BCC77#32))) broadcasts_S2000x1_S2000x256)

/-- The row sums of the entrywise product of two blocks, as a column. -/
def rowDots (x y : FVec F S2000x256 .f32) : FVec F S2000x1 .f32 :=
  shapeCast S2000x1 (multiReduction .add [1] S2000 (mulf x y) 0x00000000#32 reduces_S2000x256_S2000 (.inl rfl) rfl) shapeCasts_S2000_S2000x1

/-- The column of differences "cosine with the negative row minus cosine with the paired row". -/
theorem pay3_eq (x0 x1 x2 : Vec F S2000x256 .f32) :
    k0_pay3 x0 x1 x2 = subf (rowDots (scaled x0) (scaled (shapeCast S2000x256 x2 shapeCasts_S2000x256_S2000x256)))
      (rowDots (scaled x0) (scaled x1)) := rfl

/-- Its positive part. -/
theorem pay4_eq (x0 x1 x2 : Vec F S2000x256 .f32) :
    k0_pay4 x0 x1 x2 = maximumf (k0_pay3 x0 x1 x2) (broadcast S2000x1 (Scalar.ofBits .f32 0x00000000#32)) := rfl

end AnyFloat

/-! ## Reading the block operations at an index, over the extended reals -/

/-- Row `r` of a block. -/
abbrev brow (x : FVec Ideal S2000x256 .f32) (r : Fin 2000) : Fin 256 → EReal := fun k => x (ix2 r k)

theorem lift_eq (r : Fin 2000) (k : Fin 256) : reduces_S2000x256_S2000.lift (ix1 r) k = ix2 r k := by
  funext a
  match a with
  | ⟨0, _⟩ => rfl
  | ⟨1, _⟩ => rfl

/-- A row sum of an entrywise product is the sum over the row's 256 entries. -/
theorem rowDots_apply (x y : FVec Ideal S2000x256 .f32) (r : Fin 2000) (u : Fin 1) :
    rowDots x y (ix2 r u) = ∑ k : Fin 256, x (ix2 r k) * y (ix2 r k) := by
  unfold rowDots
  rw [Cert.Splat.Column.shapeCast_a_a1_apply]
  refine (Ideal.multiReduction_add_single (mulf x y) 0x00000000#32 reduces_S2000x256_S2000 (.inl rfl) rfl (ix1 r)).trans ?_
  show (∑ k : Fin 256, mulf x y (reduces_S2000x256_S2000.lift (ix1 r) k)) = ∑ k : Fin 256, x (ix2 r k) * y (ix2 r k)
  refine Finset.sum_congr rfl fun k _ => ?_
  exact congrArg (mulf x y) (lift_eq r k)

/-- A scaled block's entry is the row's scaled entry. -/
theorem scaled_apply (x : FVec Ideal S2000x256 .f32) (r : Fin 2000) (k : Fin 256) :
    scaled x (ix2 r k) = unitRow (brow x r) k := by
  unfold scaled
  rw [ValueIdx.divf_apply, Cert.Splat.Column.broadcastTo_a1_ab_apply, ValueIdx.maximumf_apply]
  show Ideal.div (x (ix2 r k)) (max (Ideal.sqrt (shapeCast S2000x1 _ shapeCasts_S2000_S2000x1 (ix2 r (0 : Fin 1)))) _) = _
  have h := rowDots_apply x x r (0 : Fin 1)
  unfold rowDots at h
  rw [h]
  rfl

/-- The cosine of two blocks' rows `r`. -/
theorem cos_apply (x y : FVec Ideal S2000x256 .f32) (r : Fin 2000) (u : Fin 1) :
    rowDots (scaled x) (scaled y) (ix2 r u) = cosine (brow x r) (brow y r) := by
  rw [rowDots_apply]
  unfold cosine
  refine Finset.sum_congr rfl fun k _ => ?_
  rw [scaled_apply, scaled_apply]

/-- The difference column at row `r`. -/
theorem pay3_apply (x0 x1 x2 : Vec Ideal S2000x256 .f32) (r : Fin 2000) (u : Fin 1) :
    k0_pay3 (F := Ideal) x0 x1 x2 (ix2 r u) = cosine (brow x0 r) (brow x2 r) - cosine (brow x0 r) (brow x1 r) := by
  rw [pay3_eq, shapeCast_self, ValueIdx.subf_apply, cos_apply, cos_apply]

/-! ## The amount one point adds to the accumulator -/

instance : Subsingleton S1.Idx := ⟨fun a b => funext fun d => by
  obtain ⟨d, hd⟩ := d
  have hd0 : d = 0 := by have : d < 1 := hd; omega
  subst hd0
  apply Fin.ext
  have h1 : (a ⟨0, hd⟩).val < 1 := (a ⟨0, hd⟩).isLt
  have h2 : (b ⟨0, hd⟩).val < 1 := (b ⟨0, hd⟩).isLt
  omega⟩

/-- The one entry of a one-entry array, through the cast to three unit axes. -/
theorem extract_eq (v : FVec Ideal S1 .f32) :
    extractAt ![0, 0, 0] (shapeCast S1x1x1 v shapeCasts_S1_S1x1x1) inpos_S1x1x1_p0_0_0 = v (ix1 (0 : Fin 1)) := by
  unfold extractAt shapeCast
  exact congrArg v (Subsingleton.elim _ _)

/-- The total of a 2000-entry column: the cast that adds a leading unit axis, then the sum over both remaining axes. -/
theorem colsum_apply (v : FVec Ideal S2000x1 .f32) :
    multiReduction .add [1, 2] S1 (shapeCast S1x2000x1 v shapeCasts_S2000x1_S1x2000x1) 0x00000000#32 reduces_S1x2000x1_S1 (.inl rfl) rfl
        (ix1 (0 : Fin 1))
      = ∑ r : Fin 2000, v (ix2 r (0 : Fin 1)) := by
  refine (Ideal.multiReduction_add_total _ 0x00000000#32 reduces_S1x2000x1_S1 (fun b => match b with | ⟨0, _⟩ => rfl)
    (.inl rfl) rfl (ix1 (0 : Fin 1))).trans ?_
  refine (Cert.LibSumIdx.sum_idx3 (n0 := 1) (n1 := 2000) (n2 := 1) _).trans ?_
  rw [Fin.sum_univ_one]
  refine Finset.sum_congr rfl fun r _ => ?_
  rw [Fin.sum_univ_one]
  refine (shapeCast_addUnit_apply ![2000, 1] v shapeCasts_S2000x1_S1x2000x1 (ix3 (0 : Fin 1) r (0 : Fin 1))).trans ?_
  exact congrArg v (funext fun a => match a with | ⟨0, _⟩ => rfl | ⟨1, _⟩ => rfl)

/-- What the accumulating store writes, from the difference column `d`, its positive part `p` and the accumulator `acc`. -/
theorem pay1_apply (d p : FVec Ideal S2000x1 .f32) (acc : Vec Ideal S1x1x1 .f32) (j : S1x1x1.Idx) :
    k0_pay1 (F := Ideal) d (Scalar.ofBits .f32 0x00000000#32) p acc j
      = acc j + ∑ r : Fin 2000,
          Scalar.select (Ideal.cmp .one (d (ix2 r (0 : Fin 1)) - 0) (d (ix2 r (0 : Fin 1)) - 0)) (d (ix2 r (0 : Fin 1)) + 0)
            (p (ix2 r (0 : Fin 1)) + Ideal.log1p (Ideal.exp (0 - max (d (ix2 r (0 : Fin 1)) - 0) (-(d (ix2 r (0 : Fin 1)) - 0))))) := by
  have hz : (Scalar.ofBits .f32 0x00000000#32 : Ideal .f32) = (0 : EReal) := Ideal.ofBits_zero_f32
  unfold k0_pay1
  dsimp only
  rw [ValueIdx.addf_apply, shapeCast_self, ValueIdx.broadcast_apply, extract_eq, colsum_apply]
  refine congrArg (acc j + ·) (Finset.sum_congr rfl fun r _ => ?_)
  rw [hz]
  rfl

/-- So a point adds, to whatever the accumulator holds, the sum of its 2000 rows' terms. -/
theorem point_apply (x0 x1 x2 : Vec Ideal S2000x256 .f32) (acc : Vec Ideal S1x1x1 .f32) (j : S1x1x1.Idx) :
    k0_pay1 (F := Ideal) (k0_pay3 x0 x1 x2) (Scalar.ofBits .f32 0x00000000#32) (k0_pay4 x0 x1 x2) acc j
      = acc j + ∑ r : Fin 2000, pairLoss (brow x0 r) (brow x1 r) (brow x2 r) := by
  have hz : (Scalar.ofBits .f32 0x00000000#32 : Ideal .f32) = (0 : EReal) := Ideal.ofBits_zero_f32
  rw [pay1_apply]
  refine congrArg (acc j + ·) (Finset.sum_congr rfl fun r _ => ?_)
  rw [pay4_eq, ValueIdx.maximumf_apply, ValueIdx.broadcast_apply, pay3_apply, hz]
  exact softplus_kernel _

end Cert.KernelIdeal.Nce0

end
-- ==== Proof.LibTileSums.lean ====
/-
# Re-tiling of finite double sums in a commutative additive monoid

Two ways of adding up the same per-pixel quantity `g n p` over `n < 16` images and
`p < 65536` pixels give the same total, using only that addition is commutative and
associative (no cancellation, no distributivity):

* `sum_range_mul`      : a sum over `a < A`, `b < B` of `f (a * B + b)` is the sum of `f` over `range (A * B)`.
* `sum_div_mod`        : a sum over `τ < B * C` of `h (τ / C) (τ % C)` is the double sum of `h` over `range B`, `range C`.
* `sum_slabs_general`, `sum_slabs`   : the slab tiling `(s, l, τ) ↦ (8 s + τ / 4, (τ % 4) * 16384 + l)`.
* `sum_masked_general`, `sum_masked` : the masked tiling `(l, τ) ↦ τ * 27008 + l`, terms past the end replaced by `0`.
* `sum_slabs_fin`, `sum_masked_fin` : the same two statements with `Fin` index types.
* `running_sum`        : a sequence with `acc 0 = f 0`, `acc (k+1) = acc k + f (k+1)` is the partial sum of `f`.
* `running_sum_restart`: the same when the recursion restarts at every multiple of a period `P`.
-/
import Mathlib.Algebra.BigOperators.Fin
import Mathlib.Algebra.BigOperators.Intervals

namespace Cert.LibTileSums

open Finset

variable {M : Type*} [AddCommMonoid M]

/-- Row-major flattening: summing `f (a * B + b)` over `a < A`, `b < B` is summing `f` over `range (A * B)`. -/
theorem sum_range_mul (A B : ℕ) (f : ℕ → M) :
    ∑ a ∈ range A, ∑ b ∈ range B, f (a * B + b) = ∑ i ∈ range (A * B), f i := by
  induction A with
  | zero => simp
  | succ A ih =>
    rw [Finset.sum_range_succ, ih, Nat.succ_mul, Finset.sum_range_add]

/-- Splitting an index `τ < B * C` into quotient and remainder by `C`. -/
theorem sum_div_mod (B C : ℕ) (h : ℕ → ℕ → M) :
    ∑ τ ∈ range (B * C), h (τ / C) (τ % C) = ∑ j ∈ range B, ∑ q ∈ range C, h j q := by
  rw [← sum_range_mul B C (fun τ => h (τ / C) (τ % C))]
  refine Finset.sum_congr rfl fun j _ => Finset.sum_congr rfl fun q hq => ?_
  have hq' : q < C := Finset.mem_range.mp hq
  have hC : 0 < C := by omega
  have e1 : (j * C + q) / C = j := by
    rw [Nat.mul_comm j C, Nat.mul_add_div hC, Nat.div_eq_of_lt hq', Nat.add_zero]
  have e2 : (j * C + q) % C = q := by
    rw [Nat.mul_comm j C, Nat.mul_add_mod, Nat.mod_eq_of_lt hq']
  rw [e1, e2]

/-- Slab tiling, general sizes: `(s, l, τ) ↦ (s * B + τ / C, (τ % C) * D + l)` enumerates
`range (A * B) × range (C * D)` exactly once. -/
theorem sum_slabs_general (A B C D : ℕ) (g : ℕ → ℕ → M) :
    ∑ s ∈ range A, ∑ l ∈ range D, ∑ τ ∈ range (B * C), g (s * B + τ / C) (τ % C * D + l)
      = ∑ n ∈ range (A * B), ∑ p ∈ range (C * D), g n p := by
  rw [← sum_range_mul A B (fun n => ∑ p ∈ range (C * D), g n p)]
  refine Finset.sum_congr rfl fun s _ => ?_
  calc ∑ l ∈ range D, ∑ τ ∈ range (B * C), g (s * B + τ / C) (τ % C * D + l)
      = ∑ l ∈ range D, ∑ j ∈ range B, ∑ q ∈ range C, g (s * B + j) (q * D + l) :=
        Finset.sum_congr rfl fun l _ => sum_div_mod B C (fun j q => g (s * B + j) (q * D + l))
    _ = ∑ j ∈ range B, ∑ l ∈ range D, ∑ q ∈ range C, g (s * B + j) (q * D + l) := Finset.sum_comm
    _ = ∑ j ∈ range B, ∑ q ∈ range C, ∑ l ∈ range D, g (s * B + j) (q * D + l) :=
        Finset.sum_congr rfl fun j _ => Finset.sum_comm
    _ = ∑ j ∈ range B, ∑ p ∈ range (C * D), g (s * B + j) p :=
        Finset.sum_congr rfl fun j _ => sum_range_mul C D (fun p => g (s * B + j) p)

/-- (1) Slab tiling of 16 images of 65536 pixels: 2 slabs × 16384 lanes × 32 sublanes. -/
theorem sum_slabs (g : ℕ → ℕ → M) :
    ∑ s ∈ range 2, ∑ l ∈ range 16384, ∑ τ ∈ range 32, g (8 * s + τ / 4) ((τ % 4) * 16384 + l)
      = ∑ n ∈ range 16, ∑ p ∈ range 65536, g n p := by
  have h : ∑ s ∈ range 2, ∑ l ∈ range 16384, ∑ τ ∈ range 32, g (s * 8 + τ / 4) (τ % 4 * 16384 + l)
      = ∑ n ∈ range 16, ∑ p ∈ range 65536, g n p := sum_slabs_general 2 8 4 16384 g
  rw [← h]
  refine Finset.sum_congr rfl fun s _ => Finset.sum_congr rfl fun l _ =>
    Finset.sum_congr rfl fun τ _ => ?_
  rw [Nat.mul_comm 8 s]

/-- Masked tiling, general sizes: the offsets `τ * B + l` (`τ < A`, `l < B`) that are `< N` enumerate
`range N` exactly once when `N ≤ A * B`; the others contribute `0`. -/
theorem sum_masked_general (A B N : ℕ) (hN : N ≤ A * B) (f : ℕ → M) :
    ∑ l ∈ range B, ∑ τ ∈ range A, (if τ * B + l < N then f (τ * B + l) else 0)
      = ∑ p ∈ range N, f p := by
  calc ∑ l ∈ range B, ∑ τ ∈ range A, (if τ * B + l < N then f (τ * B + l) else 0)
      = ∑ τ ∈ range A, ∑ l ∈ range B, (if τ * B + l < N then f (τ * B + l) else 0) := Finset.sum_comm
    _ = ∑ i ∈ range (A * B), (if i < N then f i else 0) :=
        sum_range_mul A B (fun i => if i < N then f i else 0)
    _ = ∑ i ∈ (range (A * B)).filter (fun i => i < N), f i := (Finset.sum_filter _ _).symm
    _ = ∑ p ∈ range N, f p := by
        congr 1
        ext i
        simp only [Finset.mem_filter, Finset.mem_range]
        omega

/-- (2) Masked tiling of 16 images of 65536 pixels: 3 tiles of 27008 lanes, the last one cut at 65536. -/
theorem sum_masked (g : ℕ → ℕ → M) :
    ∑ n ∈ range 16, ∑ l ∈ range 27008, ∑ τ ∈ range 3,
        (if τ * 27008 + l < 65536 then g n (τ * 27008 + l) else 0)
      = ∑ n ∈ range 16, ∑ p ∈ range 65536, g n p :=
  Finset.sum_congr rfl fun n _ => sum_masked_general 3 27008 65536 (by omega) (g n)

/-- (3a) Slab tiling with `Fin` index types. -/
theorem sum_slabs_fin (g : ℕ → ℕ → M) :
    ∑ s : Fin 2, ∑ l : Fin 16384, ∑ τ : Fin 32, g (8 * s.val + τ.val / 4) ((τ.val % 4) * 16384 + l.val)
      = ∑ n : Fin 16, ∑ p : Fin 65536, g n.val p.val := by
  have h := sum_slabs g
  simp only [Finset.sum_range] at h
  exact h

/-- (3b) Masked tiling with `Fin` index types. -/
theorem sum_masked_fin (g : ℕ → ℕ → M) :
    ∑ n : Fin 16, ∑ l : Fin 27008, ∑ τ : Fin 3,
        (if τ.val * 27008 + l.val < 65536 then g n.val (τ.val * 27008 + l.val) else 0)
      = ∑ n : Fin 16, ∑ p : Fin 65536, g n.val p.val := by
  have h := sum_masked g
  simp only [Finset.sum_range] at h
  exact h

/-- (4a) A running sum: `acc 0 = f 0` and `acc (k + 1) = acc k + f (k + 1)` give the partial sums of `f`. -/
theorem running_sum (acc f : ℕ → M) (h0 : acc 0 = f 0) (hs : ∀ k, acc (k + 1) = acc k + f (k + 1)) (k : ℕ) :
    acc k = ∑ i ∈ range (k + 1), f i := by
  induction k with
  | zero => rw [h0, Finset.sum_range_one]
  | succ k ih => rw [hs, ih, Finset.sum_range_succ f (k + 1)]

/-- Running sum from a restart point `b` (a multiple of the period): for `r < P`,
`acc (b + r)` is the sum of `f (b + i)` over `i ≤ r`. -/
theorem running_sum_from (P : ℕ) (acc f : ℕ → M)
    (h0 : ∀ t, t % P = 0 → acc t = f t) (hs : ∀ t, t % P ≠ 0 → acc t = acc (t - 1) + f t)
    (b : ℕ) (hb : b % P = 0) (r : ℕ) (hr : r < P) :
    acc (b + r) = ∑ i ∈ range (r + 1), f (b + i) := by
  induction r with
  | zero => rw [Finset.sum_range_one, Nat.add_zero, h0 b hb]
  | succ r ih =>
    have hmod : (b + (r + 1)) % P = r + 1 := by
      rw [Nat.add_mod, hb, Nat.zero_add, Nat.mod_mod, Nat.mod_eq_of_lt hr]
    have hne : (b + (r + 1)) % P ≠ 0 := by rw [hmod]; exact Nat.succ_ne_zero r
    have hpred : b + (r + 1) - 1 = b + r := rfl
    rw [hs _ hne, hpred, ih (Nat.lt_of_succ_lt hr), Finset.sum_range_succ (fun i => f (b + i)) (r + 1)]

/-- (4b) A running sum that restarts at every multiple of the period `P`. -/
theorem running_sum_restart (P : ℕ) (hP : 0 < P) (acc f : ℕ → M)
    (h0 : ∀ t, t % P = 0 → acc t = f t) (hs : ∀ t, t % P ≠ 0 → acc t = acc (t - 1) + f t) (t : ℕ) :
    acc t = ∑ i ∈ range (t % P + 1), f (t - t % P + i) := by
  have hb : (t - t % P) % P = 0 := Nat.sub_mod_eq_zero_of_mod_eq (Nat.mod_mod t P).symm
  have h := running_sum_from P acc f h0 hs (t - t % P) hb (t % P) (Nat.mod_lt t hP)
  rwa [Nat.sub_add_cancel (Nat.mod_le t P)] at h

end Cert.LibTileSums
-- ==== Proof.Nce0Fold.lean ====
/-
  The first contrastive region over its grid of 2 × 50 points. The one-number accumulator is reset at the first point
  of each half and every point adds the sum of its 2000 rows' terms, so after the last point of a half it holds the sum
  over that half's 50 blocks; it is written back then, and only then, to the half's entry of the 2-entry result.
-/
import proofs.«167286_j7885559955680_2_alg».proof.Proof.Nce0Point
import proofs.«167286_j7885559955680_2_alg».proof.Proof.LibTileSums

set_option maxRecDepth 16384
set_option pp.maxSteps 4000
set_option pp.deepTerms false

noncomputable section

namespace Cert.KernelIdeal.Nce0

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)
open Cert.RowLoss

section AnyFloat
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not reset leaves the accumulator `xo` plus the point's amount. -/
theorem out_B (c : Dev nD) (i : grid0.Coords) (a2 : Memref sig .tc .vmem S2000x256 .f32) (h2 : a2.IsWhole)
    (a3 : Memref sig .tc .vmem S2000x256 .f32) (h3 : a3.IsWhole) (a4 : Memref sig .tc .vmem S2000x256 .f32) (h4 : a4.IsWhole)
    (a5 : Memref sig .tc .vmem S1x1x1 .f32) (h5 : a5.IsWhole) (hc : ¬cond0_0 i)
    (x0 x1 x2 : Vec F S2000x256 .f32) (xo : Vec F S1x1x1 .f32) :
    out0_B_3 c i a2 h2 a3 h3 a4 h4 a5 h5 hc x0 x1 x2 xo
      = k0_pay1 (k0_pay3 x0 x1 x2) (Scalar.ofBits .f32 0x00000000#32) (k0_pay4 x0 x1 x2) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread,
    View.ld_unit_zero (S := S2000x256) hz2, View.ld_unit_zero (S := S1x1x1) hz3]

/-- A point that resets stores zero, reads it back, and leaves zero plus the point's amount. -/
theorem out_A (c : Dev nD) (i : grid0.Coords) (a2 : Memref sig .tc .vmem S2000x256 .f32) (h2 : a2.IsWhole)
    (a3 : Memref sig .tc .vmem S2000x256 .f32) (h3 : a3.IsWhole) (a4 : Memref sig .tc .vmem S2000x256 .f32) (h4 : a4.IsWhole)
    (a5 : Memref sig .tc .vmem S1x1x1 .f32) (h5 : a5.IsWhole) (hc : cond0_0 i)
    (x0 x1 x2 : Vec F S2000x256 .f32) :
    out0_A_3 c i a2 h2 a3 h3 a4 h4 a5 h5 hc x0 x1 x2
      = k0_pay1 (k0_pay3 x0 x1 x2) (Scalar.ofBits .f32 0x00000000#32) (k0_pay4 x0 x1 x2) (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S2000x256) hz2, View.ld_unit_zero (S := S1x1x1) hz3]

end AnyFloat

/-! ## The accumulator after each point, over the extended reals -/

section Region
variable (V : (c : Dev nD) → (b : Ref sig .tc) → Buf (Elt Ideal) ((c : Thread nD τ).loc b))

/-- The sum of the 2000 rows' terms of three blocks. -/
def blockSum (x0 x1 x2 : Vec Ideal S2000x256 .f32) : EReal :=
  ∑ r : Fin 2000, pairLoss (brow x0 r) (brow x1 r) (brow x2 r)

/-- What point `n` adds (zero past the grid). -/
def amount (c : Dev nD) (n : ℕ) : EReal :=
  if h : n < cfg0.N then blockSum (iblk0 V c 0 ⟨n, h⟩) (iblk0 V c 1 ⟨n, h⟩) (iblk0 V c 2 ⟨n, h⟩) else 0

/-- What the accumulator's one entry holds after point `n` (zero past the grid). -/
def acc (c : Dev nD) (j : S1x1x1.Idx) (n : ℕ) : EReal := if h : n < cfg0.N then outsAt0 V c n h j else 0

theorem pay2_apply (j : S1x1x1.Idx) : k0_pay2 (F := Ideal) j = 0 := Ideal.ofBits_zero_f32

theorem acc_reset (c : Dev nD) (j : S1x1x1.Idx) (n : ℕ) (h0 : n % 50 = 0) : acc V c j n = amount V c n := by
  unfold acc amount
  by_cases h : n < cfg0.N
  · rw [dif_pos h, dif_pos h, outsAt0_A V c ⟨n, h⟩ h0, out_A]
    refine (point_apply (iblk0 V c 0 ⟨n, h⟩) (iblk0 V c 1 ⟨n, h⟩) (iblk0 V c 2 ⟨n, h⟩) _ j).trans ?_
    rw [pay2_apply, zero_add]
    rfl
  · rw [dif_neg h, dif_neg h]

theorem acc_step (c : Dev nD) (j : S1x1x1.Idx) (n : ℕ) (h0 : n % 50 ≠ 0) : acc V c j n = acc V c j (n - 1) + amount V c n := by
  unfold acc amount
  have hN : cfg0.N = 100 := N_0
  by_cases h : n < cfg0.N
  · have h' : n - 1 < cfg0.N := Nat.lt_of_le_of_lt (Nat.sub_le _ _) h
    rw [dif_pos h, dif_pos h, dif_pos h', outsAt0_B V c ⟨n, h⟩ h0, out_B]
    exact point_apply (iblk0 V c 0 ⟨n, h⟩) (iblk0 V c 1 ⟨n, h⟩) (iblk0 V c 2 ⟨n, h⟩) _ j
  · have h' : ¬ n - 1 < cfg0.N := by omega
    rw [dif_neg h, dif_neg h, dif_neg h', add_zero]

/-- After point `n` the accumulator holds the sum of the amounts since the last reset. -/
theorem acc_eq (c : Dev nD) (j : S1x1x1.Idx) (n : ℕ) :
    acc V c j n = ∑ q ∈ Finset.range (n % 50 + 1), amount V c (n - n % 50 + q) :=
  Cert.LibTileSums.running_sum_restart 50 (by decide) (acc V c j) (amount V c) (acc_reset V c j) (acc_step V c j) n

end Region

end Cert.KernelIdeal.Nce0

end
-- ==== Proof.Nce0Array.lean ====
/-
  The first contrastive region's result array. Entry (h, 0, 0), h = 0 or 1, ends holding the sum of the amounts of the
  50 points of half h: the accumulator is written back exactly at the last point of each half, into that half's entry,
  and the two write-backs cover the array.
-/
import proofs.«167286_j7885559955680_2_alg».proof.Proof.Nce0Fold

set_option maxRecDepth 16384
set_option pp.maxSteps 4000
set_option pp.deepTerms false

noncomputable section

namespace Cert.KernelIdeal.Nce0

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)
open Cert.RowLoss

section Region
variable (V : (c : Dev nD) → (b : Ref sig .tc) → Buf (Elt Ideal) ((c : Thread nD τ).loc b))

/-- The result: per half, the sum of its 50 points' amounts. -/
def halves (c : Dev nD) : S2x1x1.Idx → EReal :=
  fun i => ∑ q ∈ Finset.range 50, amount V c ((i 0).val * 50 + q)

/-- The result window's block index at point `t`: the half the point lies in. -/
theorem out_index : ∀ t : Fin cfg0.N, win0_3.index t (0 : Fin 3) = t.val / 50 ∧ win0_3.index t (1 : Fin 3) = 0
    ∧ win0_3.index t (2 : Fin 3) = 0 :=
  (by decide +kernel : ∀ t : Fin grid0.N, _)

/-- What the last point of a half writes back is that half's entry of the result. -/
theorem flushed_eq (c : Dev nD) (t : Fin cfg0.N) (hf : (cfg0.win 3).flush t = true) :
    (dat0 V c).flushed 3 t = ((cfg0.win 3).blk t).view.read (Elt Ideal) (halves V c) := by
  have hN : cfg0.N = 100 := N_0
  have h49 : t.val % 50 = 49 := (flush0_3 t).mp hf
  obtain ⟨e0, e1, e2⟩ := out_index t
  show (cfg0.win 3).cut (grid0.coords t) ((dat0 V c).after 3 t) = _
  rw [after0_3]
  funext y
  show outsAt0 V c t.val t.isLt y = halves V c (((cfg0.win 3).blk t).view.emb y)
  have hacc := acc_eq V c y t.val
  unfold acc at hacc
  rw [dif_pos t.isLt] at hacc
  rw [hacc, h49]
  unfold halves
  have hy : ((((cfg0.win 3).blk t).view.emb y) 0).val = t.val / 50 := by
    show win0_3.index t (0 : Fin 3) * 1 + 1 * (y 0).val = _
    have hy0 : (y 0).val < 1 := (y 0).isLt
    omega
  rw [hy]
  refine Finset.sum_congr rfl fun q _ => ?_
  refine congrArg (amount V c) ?_
  omega

/-- Each entry of the result lies in the block written back at the last point of its half. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 100 := N_0
  have hi0 : (i 0).val < 2 := (i 0).isLt
  have hi1 : (i 1).val < 1 := (i 1).isLt
  have hi2 : (i 2).val < 1 := (i 2).isLt
  have hlt : (i 0).val * 50 + 49 < cfg0.N := by omega
  obtain ⟨e0, e1, e2⟩ := out_index ⟨(i 0).val * 50 + 49, hlt⟩
  refine ⟨⟨(i 0).val * 50 + 49, hlt⟩, (flush0_3 _).mpr (by show ((i 0).val * 50 + 49) % 50 = 49; omega), ?_⟩
  show i ∈ ((View.whole main_v28).slice (win0_3.rect ⟨(i 0).val * 50 + 49, hlt⟩)).set
  rw [View.set_slice_whole, Rect.mem_set_unit]
  intro a
  match a with
  | ⟨0, _⟩ =>
    show win0_3.index ⟨(i 0).val * 50 + 49, hlt⟩ (0 : Fin 3) * 1 ≤ (i 0).val
      ∧ (i 0).val < win0_3.index ⟨(i 0).val * 50 + 49, hlt⟩ (0 : Fin 3) * 1 + 1
    rw [e0]
    show ((i 0).val * 50 + 49) / 50 * 1 ≤ (i 0).val ∧ (i 0).val < ((i 0).val * 50 + 49) / 50 * 1 + 1
    omega
  | ⟨1, _⟩ =>
    show win0_3.index ⟨(i 0).val * 50 + 49, hlt⟩ (1 : Fin 3) * 1 ≤ (i 1).val
      ∧ (i 1).val < win0_3.index ⟨(i 0).val * 50 + 49, hlt⟩ (1 : Fin 3) * 1 + 1
    rw [e1]; omega
  | ⟨2, _⟩ =>
    show win0_3.index ⟨(i 0).val * 50 + 49, hlt⟩ (2 : Fin 3) * 1 ≤ (i 2).val
      ∧ (i 2).val < win0_3.index ⟨(i 0).val * 50 + 49, hlt⟩ (2 : Fin 3) * 1 + 1
    rw [e2]; omega

/-- The region's result array, whatever contents `V` the region is entered with. -/
theorem final (c : Dev nD) : (dat0 V c).arrAt 3 cfg0.N = halves V c :=
  (dat0 V c).arrAt_eq_of_cover 3 (halves V c) (flushed_eq V c) (cover c)

end Region

end Cert.KernelIdeal.Nce0

end
-- ==== Proof.Nce0Rows.lean ====
/-
  The first contrastive region's result in terms of the whole tables. Row r of the block a point t fetches is row
  2000·t + r of the table, so a point's amount is the sum of the terms of rows 2000·t … 2000·t + 1999, and the sum of the
  result's two entries — 2 halves of 50 points of 2000 rows — is the sum of the terms of all 200000 rows.
-/
import proofs.«167286_j7885559955680_2_alg».proof.Proof.Nce0Array
import proofs.«167286_j7885559955680_2_alg».proof.Proof.Results

set_option maxRecDepth 16384
set_option pp.maxSteps 4000
set_option pp.deepTerms false

noncomputable section

namespace Cert.KernelIdeal.Nce0

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)
open Cert.RowLoss Cert.Results

section Region
variable (V : (c : Dev nD) → (b : Ref sig .tc) → Buf (Elt Ideal) ((c : Thread nD τ).loc b))

/-- The three input windows' block index at point `t`: block t down the rows, the only block across. -/
theorem in_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem iblk_0_apply (c : Dev nD) (t : Fin cfg0.N) (r : Fin 2000) (k : Fin 256) (hR : t.val * 2000 + r.val < 200000) :
    (iblk0 V c 0 t : Vec Ideal S2000x256 .f32) (ix2 r k) = V c main_arg0 (ix2 (⟨t.val * 2000 + r.val, hR⟩ : Fin 200000) k) := by
  obtain ⟨e0, e1, -⟩ := in_index t
  unfold iblk0
  rw [View.read_apply]
  show V c main_arg0 (((cfg0.win 0).blk t).view.emb (ix2 r k)) = _
  refine congrArg (V c main_arg0) (funext fun a => Fin.ext ?_)
  match a with
  | ⟨0, _⟩ => show win0_0.index t (0 : Fin 2) * 2000 + 1 * r.val = t.val * 2000 + r.val; rw [e0]; omega
  | ⟨1, _⟩ => show win0_0.index t (1 : Fin 2) * 256 + 1 * k.val = k.val; rw [e1]; omega

theorem iblk_1_apply (c : Dev nD) (t : Fin cfg0.N) (r : Fin 2000) (k : Fin 256) (hR : t.val * 2000 + r.val < 200000) :
    (iblk0 V c 1 t : Vec Ideal S2000x256 .f32) (ix2 r k) = V c main_arg1 (ix2 (⟨t.val * 2000 + r.val, hR⟩ : Fin 200000) k) := by
  obtain ⟨-, -, e0, e1, -⟩ := in_index t
  unfold iblk0
  rw [View.read_apply]
  show V c main_arg1 (((cfg0.win 1).blk t).view.emb (ix2 r k)) = _
  refine congrArg (V c main_arg1) (funext fun a => Fin.ext ?_)
  match a with
  | ⟨0, _⟩ => show win0_1.index t (0 : Fin 2) * 2000 + 1 * r.val = t.val * 2000 + r.val; rw [e0]; omega
  | ⟨1, _⟩ => show win0_1.index t (1 : Fin 2) * 256 + 1 * k.val = k.val; rw [e1]; omega

theorem iblk_2_apply (c : Dev nD) (t : Fin cfg0.N) (r : Fin 2000) (k : Fin 256) (hR : t.val * 2000 + r.val < 200000) :
    (iblk0 V c 2 t : Vec Ideal S2000x256 .f32) (ix2 r k) = V c main_v6 (ix2 (⟨t.val * 2000 + r.val, hR⟩ : Fin 200000) k) := by
  obtain ⟨-, -, -, -, e0, e1⟩ := in_index t
  unfold iblk0
  rw [View.read_apply]
  show V c main_v6 (((cfg0.win 2).blk t).view.emb (ix2 r k)) = _
  refine congrArg (V c main_v6) (funext fun a => Fin.ext ?_)
  match a with
  | ⟨0, _⟩ => show win0_2.index t (0 : Fin 2) * 2000 + 1 * r.val = t.val * 2000 + r.val; rw [e0]; omega
  | ⟨1, _⟩ => show win0_2.index t (1 : Fin 2) * 256 + 1 * k.val = k.val; rw [e1]; omega

/-- Row `R`'s term as a function of the natural number `R` (zero past the table). -/
def rowTerm (A P G : (⟨2, ![200000, 256]⟩ : Shape).Idx → EReal) (R : ℕ) : EReal :=
  if h : R < 200000 then pairLoss (row A ⟨R, h⟩) (row P ⟨R, h⟩) (row G ⟨R, h⟩) else 0

/-- A point's amount is the sum of the terms of its 2000 rows of the tables. -/
theorem amount_rows (c : Dev nD) (n : ℕ) (hn : n < 100) :
    amount V c n = ∑ r ∈ Finset.range 2000, rowTerm (V c main_arg0) (V c main_arg1) (V c main_v6) (n * 2000 + r) := by
  have hN : cfg0.N = 100 := N_0
  have h : n < cfg0.N := by omega
  unfold amount
  rw [dif_pos h]
  unfold blockSum
  rw [← Fin.sum_univ_eq_sum_range (fun r => rowTerm (V c main_arg0) (V c main_arg1) (V c main_v6) (n * 2000 + r)) 2000]
  refine Finset.sum_congr rfl fun r _ => ?_
  have hR : n * 2000 + r.val < 200000 := by have := r.isLt; omega
  unfold rowTerm
  rw [dif_pos hR]
  rw [show brow (iblk0 V c 0 ⟨n, h⟩) r = row (N := 200000) (V c main_arg0) ⟨n * 2000 + r.val, hR⟩ from
        funext fun k => iblk_0_apply V c ⟨n, h⟩ r k hR,
      show brow (iblk0 V c 1 ⟨n, h⟩) r = row (N := 200000) (V c main_arg1) ⟨n * 2000 + r.val, hR⟩ from
        funext fun k => iblk_1_apply V c ⟨n, h⟩ r k hR,
      show brow (iblk0 V c 2 ⟨n, h⟩) r = row (N := 200000) (V c main_v6) ⟨n * 2000 + r.val, hR⟩ from
        funext fun k => iblk_2_apply V c ⟨n, h⟩ r k hR]

/-- The sum of the result's two entries is the sum of the terms of all rows. -/
theorem total_rows (c : Dev nD) :
    ∑ i : S2x1x1.Idx, halves V c i
      = ∑ R : Fin 200000, pairLoss (row (N := 200000) (V c main_arg0) R) (row (N := 200000) (V c main_arg1) R) (row (N := 200000) (V c main_v6) R) := by
  rw [Cert.LibSumIdx.sum_idx3 (n0 := 2) (n1 := 1) (n2 := 1) (halves V c)]
  simp only [Fin.sum_univ_one]
  unfold halves
  show ∑ h : Fin 2, ∑ q ∈ Finset.range 50, amount V c (h.val * 50 + q) = _
  rw [Fin.sum_univ_eq_sum_range (fun h => ∑ q ∈ Finset.range 50, amount V c (h * 50 + q)) 2,
    Cert.LibTileSums.sum_range_mul 2 50 (amount V c)]
  rw [Finset.sum_congr rfl (fun n hn => amount_rows V c n (Finset.mem_range.mp hn)),
    Cert.LibTileSums.sum_range_mul 100 2000 (rowTerm (V c main_arg0) (V c main_arg1) (V c main_v6)),
    ← Fin.sum_univ_eq_sum_range (rowTerm (V c main_arg0) (V c main_arg1) (V c main_v6)) 200000]
  refine Finset.sum_congr rfl fun R _ => ?_
  unfold rowTerm
  rw [dif_pos R.isLt]

end Region

end Cert.KernelIdeal.Nce0

end
-- ==== Proof.Nce1Point.lean ====
/-
  One grid point of the second contrastive region. The body loads three 2000-by-256 blocks (anchor rows, paired rows,
  negative rows), scales every row by the larger of its length and the floor, takes per row the two cosines, applies
  softplus to their difference, sums the 2000 terms, and adds that sum to the one-number accumulator.
  Read at an index, the amount a point adds is the sum over its 2000 rows of the per-row term of `RowLoss`.
-/
import proofs.«167286_j7885559955680_2_alg».proof.Proof.Gen.KernelIdeal.Frame
import proofs.«167286_j7885559955680_2_alg».proof.Proof.RowLoss
import proofs.«167286_j7885559955680_2_alg».proof.Proof.LibColumn
import proofs.«167286_j7885559955680_2_alg».proof.Proof.LibSumIdx
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Nce1

open Cert.KernelIdeal Cert.KernelIdeal.Gen
open Idealize.ShloMosaic Idealize.ShloMosaic.TcCoe Idealize.ShloMosaic.ValueIdx Idealize.SL.Sem
open Cert.RowLoss

section AnyFloat
variable {F : FTy → Type} [FloatOps F]

/-- Every row of a block divided by the larger of its Euclidean length and the floor. -/
def scaled (x : FVec F S2000x256 .f32) : FVec F S2000x256 .f32 :=
  divf x (broadcastTo S2000x256 (maximumf (sqrt (shapeCast S2000x1 (multiReduction .add [1] S2000 (mulf x x) 0x00000000#32 reduces_S2000x256_S2000 (.inl rfl) rfl) shapeCasts_S2000_S2000x1)) (broadcast S2000x1 (Scalar.ofBits .f32 0x322BCC77#32))) broadcasts_S2000x1_S2000x256)

/-- The row sums of the entrywise product of two blocks, as a column. -/
def rowDots (x y : FVec F S2000x256 .f32) : FVec F S2000x1 .f32 :=
  shapeCast S2000x1 (multiReduction .add [1] S2000 (mulf x y) 0x00000000#32 reduces_S2000x256_S2000 (.inl rfl) rfl) shapeCasts_S2000_S2000x1

/-- The column of differences "cosine with the negative row minus cosine with the paired row". -/
theorem pay3_eq (x0 x1 x2 : Vec F S2000x256 .f32) :
    k1_pay3 x0 x1 x2 = subf (rowDots (scaled x0) (scaled (shapeCast S2000x256 x2 shapeCasts_S2000x256_S2000x256)))
      (rowDots (scaled x0) (scaled x1)) := rfl

/-- Its positive part. -/
theorem pay4_eq (x0 x1 x2 : Vec F S2000x256 .f32) :
    k1_pay4 x0 x1 x2 = maximumf (k1_pay3 x0 x1 x2) (broadcast S2000x1 (Scalar.ofBits .f32 0x00000000#32)) := rfl

end AnyFloat

/-! ## Reading the block operations at an index, over the extended reals -/

/-- Row `r` of a block. -/
abbrev brow (x : FVec Ideal S2000x256 .f32) (r : Fin 2000) : Fin 256 → EReal := fun k => x (ix2 r k)

theorem lift_eq (r : Fin 2000) (k : Fin 256) : reduces_S2000x256_S2000.lift (ix1 r) k = ix2 r k := by
  funext a
  match a with
  | ⟨0, _⟩ => rfl
  | ⟨1, _⟩ => rfl

/-- A row sum of an entrywise product is the sum over the row's 256 entries. -/
theorem rowDots_apply (x y : FVec Ideal S2000x256 .f32) (r : Fin 2000) (u : Fin 1) :
    rowDots x y (ix2 r u) = ∑ k : Fin 256, x (ix2 r k) * y (ix2 r k) := by
  unfold rowDots
  rw [Cert.Splat.Column.shapeCast_a_a1_apply]
  refine (Ideal.multiReduction_add_single (mulf x y) 0x00000000#32 reduces_S2000x256_S2000 (.inl rfl) rfl (ix1 r)).trans ?_
  show (∑ k : Fin 256, mulf x y (reduces_S2000x256_S2000.lift (ix1 r) k)) = ∑ k : Fin 256, x (ix2 r k) * y (ix2 r k)
  refine Finset.sum_congr rfl fun k _ => ?_
  exact congrArg (mulf x y) (lift_eq r k)

/-- A scaled block's entry is the row's scaled entry. -/
theorem scaled_apply (x : FVec Ideal S2000x256 .f32) (r : Fin 2000) (k : Fin 256) :
    scaled x (ix2 r k) = unitRow (brow x r) k := by
  unfold scaled
  rw [ValueIdx.divf_apply, Cert.Splat.Column.broadcastTo_a1_ab_apply, ValueIdx.maximumf_apply]
  show Ideal.div (x (ix2 r k)) (max (Ideal.sqrt (shapeCast S2000x1 _ shapeCasts_S2000_S2000x1 (ix2 r (0 : Fin 1)))) _) = _
  have h := rowDots_apply x x r (0 : Fin 1)
  unfold rowDots at h
  rw [h]
  rfl

/-- The cosine of two blocks' rows `r`. -/
theorem cos_apply (x y : FVec Ideal S2000x256 .f32) (r : Fin 2000) (u : Fin 1) :
    rowDots (scaled x) (scaled y) (ix2 r u) = cosine (brow x r) (brow y r) := by
  rw [rowDots_apply]
  unfold cosine
  refine Finset.sum_congr rfl fun k _ => ?_
  rw [scaled_apply, scaled_apply]

/-- The difference column at row `r`. -/
theorem pay3_apply (x0 x1 x2 : Vec Ideal S2000x256 .f32) (r : Fin 2000) (u : Fin 1) :
    k1_pay3 (F := Ideal) x0 x1 x2 (ix2 r u) = cosine (brow x0 r) (brow x2 r) - cosine (brow x0 r) (brow x1 r) := by
  rw [pay3_eq, shapeCast_self, ValueIdx.subf_apply, cos_apply, cos_apply]

/-! ## The amount one point adds to the accumulator -/

instance : Subsingleton S1.Idx := ⟨fun a b => funext fun d => by
  obtain ⟨d, hd⟩ := d
  have hd0 : d = 0 := by have : d < 1 := hd; omega
  subst hd0
  apply Fin.ext
  have h1 : (a ⟨0, hd⟩).val < 1 := (a ⟨0, hd⟩).isLt
  have h2 : (b ⟨0, hd⟩).val < 1 := (b ⟨0, hd⟩).isLt
  omega⟩

/-- The one entry of a one-entry array, through the cast to three unit axes. -/
theorem extract_eq (v : FVec Ideal S1 .f32) :
    extractAt ![0, 0, 0] (shapeCast S1x1x1 v shapeCasts_S1_S1x1x1) inpos_S1x1x1_p0_0_0 = v (ix1 (0 : Fin 1)) := by
  unfold extractAt shapeCast
  exact congrArg v (Subsingleton.elim _ _)

/-- The total of a 2000-entry column: the cast that adds a leading unit axis, then the sum over both remaining axes. -/
theorem colsum_apply (v : FVec Ideal S2000x1 .f32) :
    multiReduction .add [1, 2] S1 (shapeCast S1x2000x1 v shapeCasts_S2000x1_S1x2000x1) 0x00000000#32 reduces_S1x2000x1_S1 (.inl rfl) rfl
        (ix1 (0 : Fin 1))
      = ∑ r : Fin 2000, v (ix2 r (0 : Fin 1)) := by
  refine (Ideal.multiReduction_add_total _ 0x00000000#32 reduces_S1x2000x1_S1 (fun b => match b with | ⟨0, _⟩ => rfl)
    (.inl rfl) rfl (ix1 (0 : Fin 1))).trans ?_
  refine (Cert.LibSumIdx.sum_idx3 (n0 := 1) (n1 := 2000) (n2 := 1) _).trans ?_
  rw [Fin.sum_univ_one]
  refine Finset.sum_congr rfl fun r _ => ?_
  rw [Fin.sum_univ_one]
  refine (shapeCast_addUnit_apply ![2000, 1] v shapeCasts_S2000x1_S1x2000x1 (ix3 (0 : Fin 1) r (0 : Fin 1))).trans ?_
  exact congrArg v (funext fun a => match a with | ⟨0, _⟩ => rfl | ⟨1, _⟩ => rfl)

/-- What the accumulating store writes, from the difference column `d`, its positive part `p` and the accumulator `acc`. -/
theorem pay1_apply (d p : FVec Ideal S2000x1 .f32) (acc : Vec Ideal S1x1x1 .f32) (j : S1x1x1.Idx) :
    k1_pay1 (F := Ideal) d (Scalar.ofBits .f32 0x00000000#32) p acc j
      = acc j + ∑ r : Fin 2000,
          Scalar.select (Ideal.cmp .one (d (ix2 r (0 : Fin 1)) - 0) (d (ix2 r (0 : Fin 1)) - 0)) (d (ix2 r (0 : Fin 1)) + 0)
            (p (ix2 r (0 : Fin 1)) + Ideal.log1p (Ideal.exp (0 - max (d (ix2 r (0 : Fin 1)) - 0) (-(d (ix2 r (0 : Fin 1)) - 0))))) := by
  have hz : (Scalar.ofBits .f32 0x00000000#32 : Ideal .f32) = (0 : EReal) := Ideal.ofBits_zero_f32
  unfold k1_pay1
  dsimp only
  rw [ValueIdx.addf_apply, shapeCast_self, ValueIdx.broadcast_apply, extract_eq, colsum_apply]
  refine congrArg (acc j + ·) (Finset.sum_congr rfl fun r _ => ?_)
  rw [hz]
  rfl

/-- So a point adds, to whatever the accumulator holds, the sum of its 2000 rows' terms. -/
theorem point_apply (x0 x1 x2 : Vec Ideal S2000x256 .f32) (acc : Vec Ideal S1x1x1 .f32) (j : S1x1x1.Idx) :
    k1_pay1 (F := Ideal) (k1_pay3 x0 x1 x2) (Scalar.ofBits .f32 0x00000000#32) (k1_pay4 x0 x1 x2) acc j
      = acc j + ∑ r : Fin 2000, pairLoss (brow x0 r) (brow x1 r) (brow x2 r) := by
  have hz : (Scalar.ofBits .f32 0x00000000#32 : Ideal .f32) = (0 : EReal) := Ideal.ofBits_zero_f32
  rw [pay1_apply]
  refine congrArg (acc j + ·) (Finset.sum_congr rfl fun r _ => ?_)
  rw [pay4_eq, ValueIdx.maximumf_apply, ValueIdx.broadcast_apply, pay3_apply, hz]
  exact softplus_kernel _

end Cert.KernelIdeal.Nce1

end
-- ==== Proof.Nce1Fold.lean ====
/-
  The second contrastive region over its grid of 2 × 25 points. The one-number accumulator is reset at the first point
  of each half and every point adds the sum of its 2000 rows' terms, so after the last point of a half it holds the sum
  over that half's 25 blocks; it is written back then, and only then, to the half's entry of the 2-entry result.
-/
import proofs.«167286_j7885559955680_2_alg».proof.Proof.Nce1Point
import proofs.«167286_j7885559955680_2_alg».proof.Proof.LibTileSums

set_option maxRecDepth 16384
set_option pp.maxSteps 4000
set_option pp.deepTerms false

noncomputable section

namespace Cert.KernelIdeal.Nce1

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)
open Cert.RowLoss

section AnyFloat
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not reset leaves the accumulator `xo` plus the point's amount. -/
theorem out_B (c : Dev nD) (i : grid1.Coords) (a2 : Memref sig .tc .vmem S2000x256 .f32) (h2 : a2.IsWhole)
    (a3 : Memref sig .tc .vmem S2000x256 .f32) (h3 : a3.IsWhole) (a4 : Memref sig .tc .vmem S2000x256 .f32) (h4 : a4.IsWhole)
    (a5 : Memref sig .tc .vmem S1x1x1 .f32) (h5 : a5.IsWhole) (hc : ¬cond1_0 i)
    (x0 x1 x2 : Vec F S2000x256 .f32) (xo : Vec F S1x1x1 .f32) :
    out1_B_3 c i a2 h2 a3 h3 a4 h4 a5 h5 hc x0 x1 x2 xo
      = k1_pay1 (k1_pay3 x0 x1 x2) (Scalar.ofBits .f32 0x00000000#32) (k1_pay4 x0 x1 x2) xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread,
    View.ld_unit_zero (S := S2000x256) hz2, View.ld_unit_zero (S := S1x1x1) hz3]

/-- A point that resets stores zero, reads it back, and leaves zero plus the point's amount. -/
theorem out_A (c : Dev nD) (i : grid1.Coords) (a2 : Memref sig .tc .vmem S2000x256 .f32) (h2 : a2.IsWhole)
    (a3 : Memref sig .tc .vmem S2000x256 .f32) (h3 : a3.IsWhole) (a4 : Memref sig .tc .vmem S2000x256 .f32) (h4 : a4.IsWhole)
    (a5 : Memref sig .tc .vmem S1x1x1 .f32) (h5 : a5.IsWhole) (hc : cond1_0 i)
    (x0 x1 x2 : Vec F S2000x256 .f32) :
    out1_A_3 c i a2 h2 a3 h3 a4 h4 a5 h5 hc x0 x1 x2
      = k1_pay1 (k1_pay3 x0 x1 x2) (Scalar.ofBits .f32 0x00000000#32) (k1_pay4 x0 x1 x2) (k1_pay2 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S2000x256) hz2, View.ld_unit_zero (S := S1x1x1) hz3]

end AnyFloat

/-! ## The accumulator after each point, over the extended reals -/

section Region
variable (V : (c : Dev nD) → (b : Ref sig .tc) → Buf (Elt Ideal) ((c : Thread nD τ).loc b))

/-- The sum of the 2000 rows' terms of three blocks. -/
def blockSum (x0 x1 x2 : Vec Ideal S2000x256 .f32) : EReal :=
  ∑ r : Fin 2000, pairLoss (brow x0 r) (brow x1 r) (brow x2 r)

/-- What point `n` adds (zero past the grid). -/
def amount (c : Dev nD) (n : ℕ) : EReal :=
  if h : n < cfg1.N then blockSum (iblk1 V c 0 ⟨n, h⟩) (iblk1 V c 1 ⟨n, h⟩) (iblk1 V c 2 ⟨n, h⟩) else 0

/-- What the accumulator's one entry holds after point `n` (zero past the grid). -/
def acc (c : Dev nD) (j : S1x1x1.Idx) (n : ℕ) : EReal := if h : n < cfg1.N then outsAt1 V c n h j else 0

theorem pay2_apply (j : S1x1x1.Idx) : k1_pay2 (F := Ideal) j = 0 := Ideal.ofBits_zero_f32

theorem acc_reset (c : Dev nD) (j : S1x1x1.Idx) (n : ℕ) (h0 : n % 25 = 0) : acc V c j n = amount V c n := by
  unfold acc amount
  by_cases h : n < cfg1.N
  · rw [dif_pos h, dif_pos h, outsAt1_A V c ⟨n, h⟩ h0, out_A]
    refine (point_apply (iblk1 V c 0 ⟨n, h⟩) (iblk1 V c 1 ⟨n, h⟩) (iblk1 V c 2 ⟨n, h⟩) _ j).trans ?_
    rw [pay2_apply, zero_add]
    rfl
  · rw [dif_neg h, dif_neg h]

theorem acc_step (c : Dev nD) (j : S1x1x1.Idx) (n : ℕ) (h0 : n % 25 ≠ 0) : acc V c j n = acc V c j (n - 1) + amount V c n := by
  unfold acc amount
  have hN : cfg1.N = 50 := N_1
  by_cases h : n < cfg1.N
  · have h' : n - 1 < cfg1.N := Nat.lt_of_le_of_lt (Nat.sub_le _ _) h
    rw [dif_pos h, dif_pos h, dif_pos h', outsAt1_B V c ⟨n, h⟩ h0, out_B]
    exact point_apply (iblk1 V c 0 ⟨n, h⟩) (iblk1 V c 1 ⟨n, h⟩) (iblk1 V c 2 ⟨n, h⟩) _ j
  · have h' : ¬ n - 1 < cfg1.N := by omega
    rw [dif_neg h, dif_neg h, dif_neg h', add_zero]

/-- After point `n` the accumulator holds the sum of the amounts since the last reset. -/
theorem acc_eq (c : Dev nD) (j : S1x1x1.Idx) (n : ℕ) :
    acc V c j n = ∑ q ∈ Finset.range (n % 25 + 1), amount V c (n - n % 25 + q) :=
  Cert.LibTileSums.running_sum_restart 25 (by decide) (acc V c j) (amount V c) (acc_reset V c j) (acc_step V c j) n

end Region

end Cert.KernelIdeal.Nce1

end
-- ==== Proof.Nce1Array.lean ====
/-
  The second contrastive region's result array. Entry (h, 0, 0), h = 0 or 1, ends holding the sum of the amounts of the
  25 points of half h: the accumulator is written back exactly at the last point of each half, into that half's entry,
  and the two write-backs cover the array.
-/
import proofs.«167286_j7885559955680_2_alg».proof.Proof.Nce1Fold

set_option maxRecDepth 16384
set_option pp.maxSteps 4000
set_option pp.deepTerms false

noncomputable section

namespace Cert.KernelIdeal.Nce1

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)
open Cert.RowLoss

section Region
variable (V : (c : Dev nD) → (b : Ref sig .tc) → Buf (Elt Ideal) ((c : Thread nD τ).loc b))

/-- The result: per half, the sum of its 25 points' amounts. -/
def halves (c : Dev nD) : S2x1x1.Idx → EReal :=
  fun i => ∑ q ∈ Finset.range 25, amount V c ((i 0).val * 25 + q)

/-- The result window's block index at point `t`: the half the point lies in. -/
theorem out_index : ∀ t : Fin cfg1.N, win1_3.index t (0 : Fin 3) = t.val / 25 ∧ win1_3.index t (1 : Fin 3) = 0
    ∧ win1_3.index t (2 : Fin 3) = 0 :=
  (by decide +kernel : ∀ t : Fin grid1.N, _)

/-- What the last point of a half writes back is that half's entry of the result. -/
theorem flushed_eq (c : Dev nD) (t : Fin cfg1.N) (hf : (cfg1.win 3).flush t = true) :
    (dat1 V c).flushed 3 t = ((cfg1.win 3).blk t).view.read (Elt Ideal) (halves V c) := by
  have hN : cfg1.N = 50 := N_1
  have h49 : t.val % 25 = 24 := (flush1_3 t).mp hf
  obtain ⟨e0, e1, e2⟩ := out_index t
  show (cfg1.win 3).cut (grid1.coords t) ((dat1 V c).after 3 t) = _
  rw [after1_3]
  funext y
  show outsAt1 V c t.val t.isLt y = halves V c (((cfg1.win 3).blk t).view.emb y)
  have hacc := acc_eq V c y t.val
  unfold acc at hacc
  rw [dif_pos t.isLt] at hacc
  rw [hacc, h49]
  unfold halves
  have hy : ((((cfg1.win 3).blk t).view.emb y) 0).val = t.val / 25 := by
    show win1_3.index t (0 : Fin 3) * 1 + 1 * (y 0).val = _
    have hy0 : (y 0).val < 1 := (y 0).isLt
    omega
  rw [hy]
  refine Finset.sum_congr rfl fun q _ => ?_
  refine congrArg (amount V c) ?_
  omega

/-- Each entry of the result lies in the block written back at the last point of its half. -/
theorem cover (c : Dev nD) (i : ((cfg1.win 3).arr.view.loc (c.tc : Thread nD τ)).2.ty.Idx) :
    ∃ t : Fin cfg1.N, (cfg1.win 3).flush t = true ∧ i ∈ ((cfg1.win 3).blk t).view.set := by
  have hN : cfg1.N = 50 := N_1
  have hi0 : (i 0).val < 2 := (i 0).isLt
  have hi1 : (i 1).val < 1 := (i 1).isLt
  have hi2 : (i 2).val < 1 := (i 2).isLt
  have hlt : (i 0).val * 25 + 24 < cfg1.N := by omega
  obtain ⟨e0, e1, e2⟩ := out_index ⟨(i 0).val * 25 + 24, hlt⟩
  refine ⟨⟨(i 0).val * 25 + 24, hlt⟩, (flush1_3 _).mpr (by show ((i 0).val * 25 + 24) % 25 = 24; omega), ?_⟩
  show i ∈ ((View.whole main_v30).slice (win1_3.rect ⟨(i 0).val * 25 + 24, hlt⟩)).set
  rw [View.set_slice_whole, Rect.mem_set_unit]
  intro a
  match a with
  | ⟨0, _⟩ =>
    show win1_3.index ⟨(i 0).val * 25 + 24, hlt⟩ (0 : Fin 3) * 1 ≤ (i 0).val
      ∧ (i 0).val < win1_3.index ⟨(i 0).val * 25 + 24, hlt⟩ (0 : Fin 3) * 1 + 1
    rw [e0]
    show ((i 0).val * 25 + 24) / 25 * 1 ≤ (i 0).val ∧ (i 0).val < ((i 0).val * 25 + 24) / 25 * 1 + 1
    omega
  | ⟨1, _⟩ =>
    show win1_3.index ⟨(i 0).val * 25 + 24, hlt⟩ (1 : Fin 3) * 1 ≤ (i 1).val
      ∧ (i 1).val < win1_3.index ⟨(i 0).val * 25 + 24, hlt⟩ (1 : Fin 3) * 1 + 1
    rw [e1]; omega
  | ⟨2, _⟩ =>
    show win1_3.index ⟨(i 0).val * 25 + 24, hlt⟩ (2 : Fin 3) * 1 ≤ (i 2).val
      ∧ (i 2).val < win1_3.index ⟨(i 0).val * 25 + 24, hlt⟩ (2 : Fin 3) * 1 + 1
    rw [e2]; omega

/-- The region's result array, whatever contents `V` the region is entered with. -/
theorem final (c : Dev nD) : (dat1 V c).arrAt 3 cfg1.N = halves V c :=
  (dat1 V c).arrAt_eq_of_cover 3 (halves V c) (flushed_eq V c) (cover c)

end Region

end Cert.KernelIdeal.Nce1

end
-- ==== Proof.Nce1Rows.lean ====
/-
  The second contrastive region's result in terms of the whole tables. Row r of the block a point t fetches is row
  2000·t + r of the table, so a point's amount is the sum of the terms of rows 2000·t … 2000·t + 1999, and the sum of the
  result's two entries — 2 halves of 25 points of 2000 rows — is the sum of the terms of all 100000 rows.
-/
import proofs.«167286_j7885559955680_2_alg».proof.Proof.Nce1Array
import proofs.«167286_j7885559955680_2_alg».proof.Proof.Results

set_option maxRecDepth 16384
set_option pp.maxSteps 4000
set_option pp.deepTerms false

noncomputable section

namespace Cert.KernelIdeal.Nce1

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)
open Cert.RowLoss Cert.Results

section Region
variable (V : (c : Dev nD) → (b : Ref sig .tc) → Buf (Elt Ideal) ((c : Thread nD τ).loc b))

/-- The three input windows' block index at point `t`: block t down the rows, the only block across. -/
theorem in_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem iblk_0_apply (c : Dev nD) (t : Fin cfg1.N) (r : Fin 2000) (k : Fin 256) (hR : t.val * 2000 + r.val < 100000) :
    (iblk1 V c 0 t : Vec Ideal S2000x256 .f32) (ix2 r k) = V c main_arg2 (ix2 (⟨t.val * 2000 + r.val, hR⟩ : Fin 100000) k) := by
  obtain ⟨e0, e1, -⟩ := in_index t
  unfold iblk1
  rw [View.read_apply]
  show V c main_arg2 (((cfg1.win 0).blk t).view.emb (ix2 r k)) = _
  refine congrArg (V c main_arg2) (funext fun a => Fin.ext ?_)
  match a with
  | ⟨0, _⟩ => show win1_0.index t (0 : Fin 2) * 2000 + 1 * r.val = t.val * 2000 + r.val; rw [e0]; omega
  | ⟨1, _⟩ => show win1_0.index t (1 : Fin 2) * 256 + 1 * k.val = k.val; rw [e1]; omega

theorem iblk_1_apply (c : Dev nD) (t : Fin cfg1.N) (r : Fin 2000) (k : Fin 256) (hR : t.val * 2000 + r.val < 100000) :
    (iblk1 V c 1 t : Vec Ideal S2000x256 .f32) (ix2 r k) = V c main_arg3 (ix2 (⟨t.val * 2000 + r.val, hR⟩ : Fin 100000) k) := by
  obtain ⟨-, -, e0, e1, -⟩ := in_index t
  unfold iblk1
  rw [View.read_apply]
  show V c main_arg3 (((cfg1.win 1).blk t).view.emb (ix2 r k)) = _
  refine congrArg (V c main_arg3) (funext fun a => Fin.ext ?_)
  match a with
  | ⟨0, _⟩ => show win1_1.index t (0 : Fin 2) * 2000 + 1 * r.val = t.val * 2000 + r.val; rw [e0]; omega
  | ⟨1, _⟩ => show win1_1.index t (1 : Fin 2) * 256 + 1 * k.val = k.val; rw [e1]; omega

theorem iblk_2_apply (c : Dev nD) (t : Fin cfg1.N) (r : Fin 2000) (k : Fin 256) (hR : t.val * 2000 + r.val < 100000) :
    (iblk1 V c 2 t : Vec Ideal S2000x256 .f32) (ix2 r k) = V c main_v13 (ix2 (⟨t.val * 2000 + r.val, hR⟩ : Fin 100000) k) := by
  obtain ⟨-, -, -, -, e0, e1⟩ := in_index t
  unfold iblk1
  rw [View.read_apply]
  show V c main_v13 (((cfg1.win 2).blk t).view.emb (ix2 r k)) = _
  refine congrArg (V c main_v13) (funext fun a => Fin.ext ?_)
  match a with
  | ⟨0, _⟩ => show win1_2.index t (0 : Fin 2) * 2000 + 1 * r.val = t.val * 2000 + r.val; rw [e0]; omega
  | ⟨1, _⟩ => show win1_2.index t (1 : Fin 2) * 256 + 1 * k.val = k.val; rw [e1]; omega

/-- Row `R`'s term as a function of the natural number `R` (zero past the table). -/
def rowTerm (A P G : (⟨2, ![100000, 256]⟩ : Shape).Idx → EReal) (R : ℕ) : EReal :=
  if h : R < 100000 then pairLoss (row A ⟨R, h⟩) (row P ⟨R, h⟩) (row G ⟨R, h⟩) else 0

/-- A point's amount is the sum of the terms of its 2000 rows of the tables. -/
theorem amount_rows (c : Dev nD) (n : ℕ) (hn : n < 50) :
    amount V c n = ∑ r ∈ Finset.range 2000, rowTerm (V c main_arg2) (V c main_arg3) (V c main_v13) (n * 2000 + r) := by
  have hN : cfg1.N = 50 := N_1
  have h : n < cfg1.N := by omega
  unfold amount
  rw [dif_pos h]
  unfold blockSum
  rw [← Fin.sum_univ_eq_sum_range (fun r => rowTerm (V c main_arg2) (V c main_arg3) (V c main_v13) (n * 2000 + r)) 2000]
  refine Finset.sum_congr rfl fun r _ => ?_
  have hR : n * 2000 + r.val < 100000 := by have := r.isLt; omega
  unfold rowTerm
  rw [dif_pos hR]
  rw [show brow (iblk1 V c 0 ⟨n, h⟩) r = row (N := 100000) (V c main_arg2) ⟨n * 2000 + r.val, hR⟩ from
        funext fun k => iblk_0_apply V c ⟨n, h⟩ r k hR,
      show brow (iblk1 V c 1 ⟨n, h⟩) r = row (N := 100000) (V c main_arg3) ⟨n * 2000 + r.val, hR⟩ from
        funext fun k => iblk_1_apply V c ⟨n, h⟩ r k hR,
      show brow (iblk1 V c 2 ⟨n, h⟩) r = row (N := 100000) (V c main_v13) ⟨n * 2000 + r.val, hR⟩ from
        funext fun k => iblk_2_apply V c ⟨n, h⟩ r k hR]

/-- The sum of the result's two entries is the sum of the terms of all rows. -/
theorem total_rows (c : Dev nD) :
    ∑ i : S2x1x1.Idx, halves V c i
      = ∑ R : Fin 100000, pairLoss (row (N := 100000) (V c main_arg2) R) (row (N := 100000) (V c main_arg3) R) (row (N := 100000) (V c main_v13) R) := by
  rw [Cert.LibSumIdx.sum_idx3 (n0 := 2) (n1 := 1) (n2 := 1) (halves V c)]
  simp only [Fin.sum_univ_one]
  unfold halves
  show ∑ h : Fin 2, ∑ q ∈ Finset.range 25, amount V c (h.val * 25 + q) = _
  rw [Fin.sum_univ_eq_sum_range (fun h => ∑ q ∈ Finset.range 25, amount V c (h * 25 + q)) 2,
    Cert.LibTileSums.sum_range_mul 2 25 (amount V c)]
  rw [Finset.sum_congr rfl (fun n hn => amount_rows V c n (Finset.mem_range.mp hn)),
    Cert.LibTileSums.sum_range_mul 50 2000 (rowTerm (V c main_arg2) (V c main_arg3) (V c main_v13)),
    ← Fin.sum_univ_eq_sum_range (rowTerm (V c main_arg2) (V c main_arg3) (V c main_v13)) 100000]
  refine Finset.sum_congr rfl fun R _ => ?_
  unfold rowTerm
  rw [dif_pos R.isLt]

end Region

end Cert.KernelIdeal.Nce1

end
-- ==== Proof.Nce2Point.lean ====
/-
  One grid point of the third contrastive region. The body loads three 1024-by-256 blocks (anchor rows, paired rows,
  negative rows), scales every row by the larger of its length and the floor, takes per row the two cosines, applies
  softplus to their difference, sums the 1024 terms, and adds that sum to the one-number accumulator.
  Read at an index, the amount a point adds is the sum over its 1024 rows of the per-row term of `RowLoss`.
-/
import proofs.«167286_j7885559955680_2_alg».proof.Proof.Gen.KernelIdeal.Frame
import proofs.«167286_j7885559955680_2_alg».proof.Proof.RowLoss
import proofs.«167286_j7885559955680_2_alg».proof.Proof.LibColumn
import proofs.«167286_j7885559955680_2_alg».proof.Proof.LibSumIdx
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Nce2

open Cert.KernelIdeal Cert.KernelIdeal.Gen
open Idealize.ShloMosaic Idealize.ShloMosaic.TcCoe Idealize.ShloMosaic.ValueIdx Idealize.SL.Sem
open Cert.RowLoss

section AnyFloat
variable {F : FTy → Type} [FloatOps F]

/-- Every row of a block divided by the larger of its Euclidean length and the floor. -/
def scaled (x : FVec F S1024x256 .f32) : FVec F S1024x256 .f32 :=
  divf x (broadcastTo S1024x256 (maximumf (sqrt (shapeCast S1024x1 (multiReduction .add [1] S1024 (mulf x x) 0x00000000#32 reduces_S1024x256_S1024 (.inl rfl) rfl) shapeCasts_S1024_S1024x1)) (broadcast S1024x1 (Scalar.ofBits .f32 0x322BCC77#32))) broadcasts_S1024x1_S1024x256)

/-- The row sums of the entrywise product of two blocks, as a column. -/
def rowDots (x y : FVec F S1024x256 .f32) : FVec F S1024x1 .f32 :=
  shapeCast S1024x1 (multiReduction .add [1] S1024 (mulf x y) 0x00000000#32 reduces_S1024x256_S1024 (.inl rfl) rfl) shapeCasts_S1024_S1024x1

/-- The column of differences "cosine with the negative row minus cosine with the paired row". -/
theorem pay3_eq (x0 x1 x2 : Vec F S1024x256 .f32) :
    k2_pay3 x0 x1 x2 = subf (rowDots (scaled x0) (scaled (shapeCast S1024x256 x2 shapeCasts_S1024x256_S1024x256)))
      (rowDots (scaled x0) (scaled x1)) := rfl

/-- Its positive part. -/
theorem pay4_eq (x0 x1 x2 : Vec F S1024x256 .f32) :
    k2_pay4 x0 x1 x2 = maximumf (k2_pay3 x0 x1 x2) (broadcast S1024x1 (Scalar.ofBits .f32 0x00000000#32)) := rfl

end AnyFloat

/-! ## Reading the block operations at an index, over the extended reals -/

/-- Row `r` of a block. -/
abbrev brow (x : FVec Ideal S1024x256 .f32) (r : Fin 1024) : Fin 256 → EReal := fun k => x (ix2 r k)

theorem lift_eq (r : Fin 1024) (k : Fin 256) : reduces_S1024x256_S1024.lift (ix1 r) k = ix2 r k := by
  funext a
  match a with
  | ⟨0, _⟩ => rfl
  | ⟨1, _⟩ => rfl

/-- A row sum of an entrywise product is the sum over the row's 256 entries. -/
theorem rowDots_apply (x y : FVec Ideal S1024x256 .f32) (r : Fin 1024) (u : Fin 1) :
    rowDots x y (ix2 r u) = ∑ k : Fin 256, x (ix2 r k) * y (ix2 r k) := by
  unfold rowDots
  rw [Cert.Splat.Column.shapeCast_a_a1_apply]
  refine (Ideal.multiReduction_add_single (mulf x y) 0x00000000#32 reduces_S1024x256_S1024 (.inl rfl) rfl (ix1 r)).trans ?_
  show (∑ k : Fin 256, mulf x y (reduces_S1024x256_S1024.lift (ix1 r) k)) = ∑ k : Fin 256, x (ix2 r k) * y (ix2 r k)
  refine Finset.sum_congr rfl fun k _ => ?_
  exact congrArg (mulf x y) (lift_eq r k)

/-- A scaled block's entry is the row's scaled entry. -/
theorem scaled_apply (x : FVec Ideal S1024x256 .f32) (r : Fin 1024) (k : Fin 256) :
    scaled x (ix2 r k) = unitRow (brow x r) k := by
  unfold scaled
  rw [ValueIdx.divf_apply, Cert.Splat.Column.broadcastTo_a1_ab_apply, ValueIdx.maximumf_apply]
  show Ideal.div (x (ix2 r k)) (max (Ideal.sqrt (shapeCast S1024x1 _ shapeCasts_S1024_S1024x1 (ix2 r (0 : Fin 1)))) _) = _
  have h := rowDots_apply x x r (0 : Fin 1)
  unfold rowDots at h
  rw [h]
  rfl

/-- The cosine of two blocks' rows `r`. -/
theorem cos_apply (x y : FVec Ideal S1024x256 .f32) (r : Fin 1024) (u : Fin 1) :
    rowDots (scaled x) (scaled y) (ix2 r u) = cosine (brow x r) (brow y r) := by
  rw [rowDots_apply]
  unfold cosine
  refine Finset.sum_congr rfl fun k _ => ?_
  rw [scaled_apply, scaled_apply]

/-- The difference column at row `r`. -/
theorem pay3_apply (x0 x1 x2 : Vec Ideal S1024x256 .f32) (r : Fin 1024) (u : Fin 1) :
    k2_pay3 (F := Ideal) x0 x1 x2 (ix2 r u) = cosine (brow x0 r) (brow x2 r) - cosine (brow x0 r) (brow x1 r) := by
  rw [pay3_eq, shapeCast_self, ValueIdx.subf_apply, cos_apply, cos_apply]

/-! ## The amount one point adds to the accumulator -/

instance : Subsingleton S1.Idx := ⟨fun a b => funext fun d => by
  obtain ⟨d, hd⟩ := d
  have hd0 : d = 0 := by have : d < 1 := hd; omega
  subst hd0
  apply Fin.ext
  have h1 : (a ⟨0, hd⟩).val < 1 := (a ⟨0, hd⟩).isLt
  have h2 : (b ⟨0, hd⟩).val < 1 := (b ⟨0, hd⟩).isLt
  omega⟩

/-- The one entry of a one-entry array, through the cast to three unit axes. -/
theorem extract_eq (v : FVec Ideal S1 .f32) :
    extractAt ![0, 0, 0] (shapeCast S1x1x1 v shapeCasts_S1_S1x1x1) inpos_S1x1x1_p0_0_0 = v (ix1 (0 : Fin 1)) := by
  unfold extractAt shapeCast
  exact congrArg v (Subsingleton.elim _ _)

/-- The total of a 1024-entry column: the cast that adds a leading unit axis, then the sum over both remaining axes. -/
theorem colsum_apply (v : FVec Ideal S1024x1 .f32) :
    multiReduction .add [1, 2] S1 (shapeCast S1x1024x1 v shapeCasts_S1024x1_S1x1024x1) 0x00000000#32 reduces_S1x1024x1_S1 (.inl rfl) rfl
        (ix1 (0 : Fin 1))
      = ∑ r : Fin 1024, v (ix2 r (0 : Fin 1)) := by
  refine (Ideal.multiReduction_add_total _ 0x00000000#32 reduces_S1x1024x1_S1 (fun b => match b with | ⟨0, _⟩ => rfl)
    (.inl rfl) rfl (ix1 (0 : Fin 1))).trans ?_
  refine (Cert.LibSumIdx.sum_idx3 (n0 := 1) (n1 := 1024) (n2 := 1) _).trans ?_
  rw [Fin.sum_univ_one]
  refine Finset.sum_congr rfl fun r _ => ?_
  rw [Fin.sum_univ_one]
  refine (shapeCast_addUnit_apply ![1024, 1] v shapeCasts_S1024x1_S1x1024x1 (ix3 (0 : Fin 1) r (0 : Fin 1))).trans ?_
  exact congrArg v (funext fun a => match a with | ⟨0, _⟩ => rfl | ⟨1, _⟩ => rfl)

/-- What the accumulating store writes, from the difference column `d`, its positive part `p` and the accumulator `acc`. -/
theorem pay1_apply (d p : FVec Ideal S1024x1 .f32) (acc : Vec Ideal S1x1x1 .f32) (j : S1x1x1.Idx) :
    k2_pay1 (F := Ideal) d (Scalar.ofBits .f32 0x00000000#32) p acc j
      = acc j + ∑ r : Fin 1024,
          Scalar.select (Ideal.cmp .one (d (ix2 r (0 : Fin 1)) - 0) (d (ix2 r (0 : Fin 1)) - 0)) (d (ix2 r (0 : Fin 1)) + 0)
            (p (ix2 r (0 : Fin 1)) + Ideal.log1p (Ideal.exp (0 - max (d (ix2 r (0 : Fin 1)) - 0) (-(d (ix2 r (0 : Fin 1)) - 0))))) := by
  have hz : (Scalar.ofBits .f32 0x00000000#32 : Ideal .f32) = (0 : EReal) := Ideal.ofBits_zero_f32
  unfold k2_pay1
  dsimp only
  rw [ValueIdx.addf_apply, shapeCast_self, ValueIdx.broadcast_apply, extract_eq, colsum_apply]
  refine congrArg (acc j + ·) (Finset.sum_congr rfl fun r _ => ?_)
  rw [hz]
  rfl

/-- So a point adds, to whatever the accumulator holds, the sum of its 1024 rows' terms. -/
theorem point_apply (x0 x1 x2 : Vec Ideal S1024x256 .f32) (acc : Vec Ideal S1x1x1 .f32) (j : S1x1x1.Idx) :
    k2_pay1 (F := Ideal) (k2_pay3 x0 x1 x2) (Scalar.ofBits .f32 0x00000000#32) (k2_pay4 x0 x1 x2) acc j
      = acc j + ∑ r : Fin 1024, pairLoss (brow x0 r) (brow x1 r) (brow x2 r) := by
  have hz : (Scalar.ofBits .f32 0x00000000#32 : Ideal .f32) = (0 : EReal) := Ideal.ofBits_zero_f32
  rw [pay1_apply]
  refine congrArg (acc j + ·) (Finset.sum_congr rfl fun r _ => ?_)
  rw [pay4_eq, ValueIdx.maximumf_apply, ValueIdx.broadcast_apply, pay3_apply, hz]
  exact softplus_kernel _

end Cert.KernelIdeal.Nce2

end
-- ==== Proof.Nce2Fold.lean ====
/-
  The third contrastive region over its grid of 2 × 4 points. The one-number accumulator is reset at the first point
  of each half and every point adds the sum of its 1024 rows' terms, so after the last point of a half it holds the sum
  over that half's 4 blocks; it is written back then, and only then, to the half's entry of the 2-entry result.
-/
import proofs.«167286_j7885559955680_2_alg».proof.Proof.Nce2Point
import proofs.«167286_j7885559955680_2_alg».proof.Proof.LibTileSums

set_option maxRecDepth 16384
set_option pp.maxSteps 4000
set_option pp.deepTerms false

noncomputable section

namespace Cert.KernelIdeal.Nce2

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)
open Cert.RowLoss

section AnyFloat
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not reset leaves the accumulator `xo` plus the point's amount. -/
theorem out_B (c : Dev nD) (i : grid2.Coords) (a2 : Memref sig .tc .vmem S1024x256 .f32) (h2 : a2.IsWhole)
    (a3 : Memref sig .tc .vmem S1024x256 .f32) (h3 : a3.IsWhole) (a4 : Memref sig .tc .vmem S1024x256 .f32) (h4 : a4.IsWhole)
    (a5 : Memref sig .tc .vmem S1x1x1 .f32) (h5 : a5.IsWhole) (hc : ¬cond2_0 i)
    (x0 x1 x2 : Vec F S1024x256 .f32) (xo : Vec F S1x1x1 .f32) :
    out2_B_3 c i a2 h2 a3 h3 a4 h4 a5 h5 hc x0 x1 x2 xo
      = k2_pay1 (k2_pay3 x0 x1 x2) (Scalar.ofBits .f32 0x00000000#32) (k2_pay4 x0 x1 x2) xo := by
  unfold out2_B_3
  rw [View.read_writes_eq_canon _ _ _ (cover2_B_3 c i a2 h2 a3 h3 a4 h4 a5 h5 hc x0 x1 x2 xo)]
  unfold kernelRun2_B
  dsimp only
  sl_unfold_words
  rw [View.canon_unit_zero hz3]
  simp only [View.readAt_eq_ld, h2.read_unread, h3.read_unread, h4.read_unread, h5.read_unread,
    View.ld_unit_zero (S := S1024x256) hz2, View.ld_unit_zero (S := S1x1x1) hz3]

/-- A point that resets stores zero, reads it back, and leaves zero plus the point's amount. -/
theorem out_A (c : Dev nD) (i : grid2.Coords) (a2 : Memref sig .tc .vmem S1024x256 .f32) (h2 : a2.IsWhole)
    (a3 : Memref sig .tc .vmem S1024x256 .f32) (h3 : a3.IsWhole) (a4 : Memref sig .tc .vmem S1024x256 .f32) (h4 : a4.IsWhole)
    (a5 : Memref sig .tc .vmem S1x1x1 .f32) (h5 : a5.IsWhole) (hc : cond2_0 i)
    (x0 x1 x2 : Vec F S1024x256 .f32) :
    out2_A_3 c i a2 h2 a3 h3 a4 h4 a5 h5 hc x0 x1 x2
      = k2_pay1 (k2_pay3 x0 x1 x2) (Scalar.ofBits .f32 0x00000000#32) (k2_pay4 x0 x1 x2) (k2_pay2 (F := F)) := by
  unfold out2_A_3
  rw [View.read_writes_eq_canon _ _ _ (cover2_A_3 c i a2 h2 a3 h3 a4 h4 a5 h5 hc x0 x1 x2)]
  unfold kernelRun2_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S1024x256) hz2, View.ld_unit_zero (S := S1x1x1) hz3]

end AnyFloat

/-! ## The accumulator after each point, over the extended reals -/

section Region
variable (V : (c : Dev nD) → (b : Ref sig .tc) → Buf (Elt Ideal) ((c : Thread nD τ).loc b))

/-- The sum of the 1024 rows' terms of three blocks. -/
def blockSum (x0 x1 x2 : Vec Ideal S1024x256 .f32) : EReal :=
  ∑ r : Fin 1024, pairLoss (brow x0 r) (brow x1 r) (brow x2 r)

/-- What point `n` adds (zero past the grid). -/
def amount (c : Dev nD) (n : ℕ) : EReal :=
  if h : n < cfg2.N then blockSum (iblk2 V c 0 ⟨n, h⟩) (iblk2 V c 1 ⟨n, h⟩) (iblk2 V c 2 ⟨n, h⟩) else 0

/-- What the accumulator's one entry holds after point `n` (zero past the grid). -/
def acc (c : Dev nD) (j : S1x1x1.Idx) (n : ℕ) : EReal := if h : n < cfg2.N then outsAt2 V c n h j else 0

theorem pay2_apply (j : S1x1x1.Idx) : k2_pay2 (F := Ideal) j = 0 := Ideal.ofBits_zero_f32

theorem acc_reset (c : Dev nD) (j : S1x1x1.Idx) (n : ℕ) (h0 : n % 4 = 0) : acc V c j n = amount V c n := by
  unfold acc amount
  by_cases h : n < cfg2.N
  · rw [dif_pos h, dif_pos h, outsAt2_A V c ⟨n, h⟩ h0, out_A]
    refine (point_apply (iblk2 V c 0 ⟨n, h⟩) (iblk2 V c 1 ⟨n, h⟩) (iblk2 V c 2 ⟨n, h⟩) _ j).trans ?_
    rw [pay2_apply, zero_add]
    rfl
  · rw [dif_neg h, dif_neg h]

theorem acc_step (c : Dev nD) (j : S1x1x1.Idx) (n : ℕ) (h0 : n % 4 ≠ 0) : acc V c j n = acc V c j (n - 1) + amount V c n := by
  unfold acc amount
  have hN : cfg2.N = 8 := N_2
  by_cases h : n < cfg2.N
  · have h' : n - 1 < cfg2.N := Nat.lt_of_le_of_lt (Nat.sub_le _ _) h
    rw [dif_pos h, dif_pos h, dif_pos h', outsAt2_B V c ⟨n, h⟩ h0, out_B]
    exact point_apply (iblk2 V c 0 ⟨n, h⟩) (iblk2 V c 1 ⟨n, h⟩) (iblk2 V c 2 ⟨n, h⟩) _ j
  · have h' : ¬ n - 1 < cfg2.N := by omega
    rw [dif_neg h, dif_neg h, dif_neg h', add_zero]

/-- After point `n` the accumulator holds the sum of the amounts since the last reset. -/
theorem acc_eq (c : Dev nD) (j : S1x1x1.Idx) (n : ℕ) :
    acc V c j n = ∑ q ∈ Finset.range (n % 4 + 1), amount V c (n - n % 4 + q) :=
  Cert.LibTileSums.running_sum_restart 4 (by decide) (acc V c j) (amount V c) (acc_reset V c j) (acc_step V c j) n

end Region

end Cert.KernelIdeal.Nce2

end
-- ==== Proof.Nce2Array.lean ====
/-
  The third contrastive region's result array. Entry (h, 0, 0), h = 0 or 1, ends holding the sum of the amounts of the
  4 points of half h: the accumulator is written back exactly at the last point of each half, into that half's entry,
  and the two write-backs cover the array.
-/
import proofs.«167286_j7885559955680_2_alg».proof.Proof.Nce2Fold

set_option maxRecDepth 16384
set_option pp.maxSteps 4000
set_option pp.deepTerms false

noncomputable section

namespace Cert.KernelIdeal.Nce2

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)
open Cert.RowLoss

section Region
variable (V : (c : Dev nD) → (b : Ref sig .tc) → Buf (Elt Ideal) ((c : Thread nD τ).loc b))

/-- The result: per half, the sum of its 4 points' amounts. -/
def halves (c : Dev nD) : S2x1x1.Idx → EReal :=
  fun i => ∑ q ∈ Finset.range 4, amount V c ((i 0).val * 4 + q)

/-- The result window's block index at point `t`: the half the point lies in. -/
theorem out_index : ∀ t : Fin cfg2.N, win2_3.index t (0 : Fin 3) = t.val / 4 ∧ win2_3.index t (1 : Fin 3) = 0
    ∧ win2_3.index t (2 : Fin 3) = 0 :=
  (by decide +kernel : ∀ t : Fin grid2.N, _)

/-- What the last point of a half writes back is that half's entry of the result. -/
theorem flushed_eq (c : Dev nD) (t : Fin cfg2.N) (hf : (cfg2.win 3).flush t = true) :
    (dat2 V c).flushed 3 t = ((cfg2.win 3).blk t).view.read (Elt Ideal) (halves V c) := by
  have hN : cfg2.N = 8 := N_2
  have h49 : t.val % 4 = 3 := (flush2_3 t).mp hf
  obtain ⟨e0, e1, e2⟩ := out_index t
  show (cfg2.win 3).cut (grid2.coords t) ((dat2 V c).after 3 t) = _
  rw [after2_3]
  funext y
  show outsAt2 V c t.val t.isLt y = halves V c (((cfg2.win 3).blk t).view.emb y)
  have hacc := acc_eq V c y t.val
  unfold acc at hacc
  rw [dif_pos t.isLt] at hacc
  rw [hacc, h49]
  unfold halves
  have hy : ((((cfg2.win 3).blk t).view.emb y) 0).val = t.val / 4 := by
    show win2_3.index t (0 : Fin 3) * 1 + 1 * (y 0).val = _
    have hy0 : (y 0).val < 1 := (y 0).isLt
    omega
  rw [hy]
  refine Finset.sum_congr rfl fun q _ => ?_
  refine congrArg (amount V c) ?_
  omega

/-- Each entry of the result lies in the block written back at the last point of its half. -/
theorem cover (c : Dev nD) (i : ((cfg2.win 3).arr.view.loc (c.tc : Thread nD τ)).2.ty.Idx) :
    ∃ t : Fin cfg2.N, (cfg2.win 3).flush t = true ∧ i ∈ ((cfg2.win 3).blk t).view.set := by
  have hN : cfg2.N = 8 := N_2
  have hi0 : (i 0).val < 2 := (i 0).isLt
  have hi1 : (i 1).val < 1 := (i 1).isLt
  have hi2 : (i 2).val < 1 := (i 2).isLt
  have hlt : (i 0).val * 4 + 3 < cfg2.N := by omega
  obtain ⟨e0, e1, e2⟩ := out_index ⟨(i 0).val * 4 + 3, hlt⟩
  refine ⟨⟨(i 0).val * 4 + 3, hlt⟩, (flush2_3 _).mpr (by show ((i 0).val * 4 + 3) % 4 = 3; omega), ?_⟩
  show i ∈ ((View.whole main_v32).slice (win2_3.rect ⟨(i 0).val * 4 + 3, hlt⟩)).set
  rw [View.set_slice_whole, Rect.mem_set_unit]
  intro a
  match a with
  | ⟨0, _⟩ =>
    show win2_3.index ⟨(i 0).val * 4 + 3, hlt⟩ (0 : Fin 3) * 1 ≤ (i 0).val
      ∧ (i 0).val < win2_3.index ⟨(i 0).val * 4 + 3, hlt⟩ (0 : Fin 3) * 1 + 1
    rw [e0]
    show ((i 0).val * 4 + 3) / 4 * 1 ≤ (i 0).val ∧ (i 0).val < ((i 0).val * 4 + 3) / 4 * 1 + 1
    omega
  | ⟨1, _⟩ =>
    show win2_3.index ⟨(i 0).val * 4 + 3, hlt⟩ (1 : Fin 3) * 1 ≤ (i 1).val
      ∧ (i 1).val < win2_3.index ⟨(i 0).val * 4 + 3, hlt⟩ (1 : Fin 3) * 1 + 1
    rw [e1]; omega
  | ⟨2, _⟩ =>
    show win2_3.index ⟨(i 0).val * 4 + 3, hlt⟩ (2 : Fin 3) * 1 ≤ (i 2).val
      ∧ (i 2).val < win2_3.index ⟨(i 0).val * 4 + 3, hlt⟩ (2 : Fin 3) * 1 + 1
    rw [e2]; omega

/-- The region's result array, whatever contents `V` the region is entered with. -/
theorem final (c : Dev nD) : (dat2 V c).arrAt 3 cfg2.N = halves V c :=
  (dat2 V c).arrAt_eq_of_cover 3 (halves V c) (flushed_eq V c) (cover c)

end Region

end Cert.KernelIdeal.Nce2

end
-- ==== Proof.Nce2Rows.lean ====
/-
  The third contrastive region's result in terms of the whole tables. Row r of the block a point t fetches is row
  1024·t + r of the table, so a point's amount is the sum of the terms of rows 1024·t … 1024·t + 1999, and the sum of the
  result's two entries — 2 halves of 4 points of 1024 rows — is the sum of the terms of all 8192 rows.
-/
import proofs.«167286_j7885559955680_2_alg».proof.Proof.Nce2Array
import proofs.«167286_j7885559955680_2_alg».proof.Proof.Results

set_option maxRecDepth 16384
set_option pp.maxSteps 4000
set_option pp.deepTerms false

noncomputable section

namespace Cert.KernelIdeal.Nce2

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)
open Cert.RowLoss Cert.Results

section Region
variable (V : (c : Dev nD) → (b : Ref sig .tc) → Buf (Elt Ideal) ((c : Thread nD τ).loc b))

/-- The three input windows' block index at point `t`: block t down the rows, the only block across. -/
theorem in_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem iblk_0_apply (c : Dev nD) (t : Fin cfg2.N) (r : Fin 1024) (k : Fin 256) (hR : t.val * 1024 + r.val < 8192) :
    (iblk2 V c 0 t : Vec Ideal S1024x256 .f32) (ix2 r k) = V c main_arg4 (ix2 (⟨t.val * 1024 + r.val, hR⟩ : Fin 8192) k) := by
  obtain ⟨e0, e1, -⟩ := in_index t
  unfold iblk2
  rw [View.read_apply]
  show V c main_arg4 (((cfg2.win 0).blk t).view.emb (ix2 r k)) = _
  refine congrArg (V c main_arg4) (funext fun a => Fin.ext ?_)
  match a with
  | ⟨0, _⟩ => show win2_0.index t (0 : Fin 2) * 1024 + 1 * r.val = t.val * 1024 + r.val; rw [e0]; omega
  | ⟨1, _⟩ => show win2_0.index t (1 : Fin 2) * 256 + 1 * k.val = k.val; rw [e1]; omega

theorem iblk_1_apply (c : Dev nD) (t : Fin cfg2.N) (r : Fin 1024) (k : Fin 256) (hR : t.val * 1024 + r.val < 8192) :
    (iblk2 V c 1 t : Vec Ideal S1024x256 .f32) (ix2 r k) = V c main_arg5 (ix2 (⟨t.val * 1024 + r.val, hR⟩ : Fin 8192) k) := by
  obtain ⟨-, -, e0, e1, -⟩ := in_index t
  unfold iblk2
  rw [View.read_apply]
  show V c main_arg5 (((cfg2.win 1).blk t).view.emb (ix2 r k)) = _
  refine congrArg (V c main_arg5) (funext fun a => Fin.ext ?_)
  match a with
  | ⟨0, _⟩ => show win2_1.index t (0 : Fin 2) * 1024 + 1 * r.val = t.val * 1024 + r.val; rw [e0]; omega
  | ⟨1, _⟩ => show win2_1.index t (1 : Fin 2) * 256 + 1 * k.val = k.val; rw [e1]; omega

theorem iblk_2_apply (c : Dev nD) (t : Fin cfg2.N) (r : Fin 1024) (k : Fin 256) (hR : t.val * 1024 + r.val < 8192) :
    (iblk2 V c 2 t : Vec Ideal S1024x256 .f32) (ix2 r k) = V c main_v20 (ix2 (⟨t.val * 1024 + r.val, hR⟩ : Fin 8192) k) := by
  obtain ⟨-, -, -, -, e0, e1⟩ := in_index t
  unfold iblk2
  rw [View.read_apply]
  show V c main_v20 (((cfg2.win 2).blk t).view.emb (ix2 r k)) = _
  refine congrArg (V c main_v20) (funext fun a => Fin.ext ?_)
  match a with
  | ⟨0, _⟩ => show win2_2.index t (0 : Fin 2) * 1024 + 1 * r.val = t.val * 1024 + r.val; rw [e0]; omega
  | ⟨1, _⟩ => show win2_2.index t (1 : Fin 2) * 256 + 1 * k.val = k.val; rw [e1]; omega

/-- Row `R`'s term as a function of the natural number `R` (zero past the table). -/
def rowTerm (A P G : (⟨2, ![8192, 256]⟩ : Shape).Idx → EReal) (R : ℕ) : EReal :=
  if h : R < 8192 then pairLoss (row A ⟨R, h⟩) (row P ⟨R, h⟩) (row G ⟨R, h⟩) else 0

/-- A point's amount is the sum of the terms of its 1024 rows of the tables. -/
theorem amount_rows (c : Dev nD) (n : ℕ) (hn : n < 8) :
    amount V c n = ∑ r ∈ Finset.range 1024, rowTerm (V c main_arg4) (V c main_arg5) (V c main_v20) (n * 1024 + r) := by
  have hN : cfg2.N = 8 := N_2
  have h : n < cfg2.N := by omega
  unfold amount
  rw [dif_pos h]
  unfold blockSum
  rw [← Fin.sum_univ_eq_sum_range (fun r => rowTerm (V c main_arg4) (V c main_arg5) (V c main_v20) (n * 1024 + r)) 1024]
  refine Finset.sum_congr rfl fun r _ => ?_
  have hR : n * 1024 + r.val < 8192 := by have := r.isLt; omega
  unfold rowTerm
  rw [dif_pos hR]
  rw [show brow (iblk2 V c 0 ⟨n, h⟩) r = row (N := 8192) (V c main_arg4) ⟨n * 1024 + r.val, hR⟩ from
        funext fun k => iblk_0_apply V c ⟨n, h⟩ r k hR,
      show brow (iblk2 V c 1 ⟨n, h⟩) r = row (N := 8192) (V c main_arg5) ⟨n * 1024 + r.val, hR⟩ from
        funext fun k => iblk_1_apply V c ⟨n, h⟩ r k hR,
      show brow (iblk2 V c 2 ⟨n, h⟩) r = row (N := 8192) (V c main_v20) ⟨n * 1024 + r.val, hR⟩ from
        funext fun k => iblk_2_apply V c ⟨n, h⟩ r k hR]

/-- The sum of the result's two entries is the sum of the terms of all rows. -/
theorem total_rows (c : Dev nD) :
    ∑ i : S2x1x1.Idx, halves V c i
      = ∑ R : Fin 8192, pairLoss (row (N := 8192) (V c main_arg4) R) (row (N := 8192) (V c main_arg5) R) (row (N := 8192) (V c main_v20) R) := by
  rw [Cert.LibSumIdx.sum_idx3 (n0 := 2) (n1 := 1) (n2 := 1) (halves V c)]
  simp only [Fin.sum_univ_one]
  unfold halves
  show ∑ h : Fin 2, ∑ q ∈ Finset.range 4, amount V c (h.val * 4 + q) = _
  rw [Fin.sum_univ_eq_sum_range (fun h => ∑ q ∈ Finset.range 4, amount V c (h * 4 + q)) 2,
    Cert.LibTileSums.sum_range_mul 2 4 (amount V c)]
  rw [Finset.sum_congr rfl (fun n hn => amount_rows V c n (Finset.mem_range.mp hn)),
    Cert.LibTileSums.sum_range_mul 8 1024 (rowTerm (V c main_arg4) (V c main_arg5) (V c main_v20)),
    ← Fin.sum_univ_eq_sum_range (rowTerm (V c main_arg4) (V c main_arg5) (V c main_v20)) 8192]
  refine Finset.sum_congr rfl fun R _ => ?_
  unfold rowTerm
  rw [dif_pos R.isLt]

end Region

end Cert.KernelIdeal.Nce2

end
-- ==== Proof.LossWalk.lean ====
/-
  The host operations around the three contrastive regions, read back. The loss result is the weight times the sum of
  three means, each the total of a region's two-entry result divided by its table's row count; and each region is
  entered with two of its tables as launched and the third the rows of the paired table looked up at the given row
  numbers (a negative number counted from the end).
-/
import proofs.«167286_j7885559955680_2_alg».proof.Proof.KernelRun
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-! ## The first stretch: nothing writes an argument; the three looked-up tables -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

theorem W1_v6 (c : Dev nD) : W1 m ρ c (Proc.devRef .tc main_v6)
    = Host.gather gather_S200000x256_S200000x1_S200000x256_1_0_n_n_0_1_1256 (m ((c : Thread nD τ).loc main_arg1)) (broadcastInDim S200000x1 ![0] bcast_S200000_S200000x1_0 (select (cmpi .slt (m ((c : Thread nD τ).loc main_arg10)) (broadcastInDim S200000 ![] bcast_S_S200000 (constantI S_ 32 0#32))) (addi (m ((c : Thread nD τ).loc main_arg10)) (broadcastInDim S200000 ![] bcast_S_S200000 (constantI S_ 32 200000#32))) (m ((c : Thread nD τ).loc main_arg10)))) := by
  show StableHlo.after hostOps0 (W0 m ρ c) (Proc.devRef .tc main_v6) = _
  after_results_simp <;> rfl
theorem W1_v13 (c : Dev nD) : W1 m ρ c (Proc.devRef .tc main_v13)
    = Host.gather gather_S100000x256_S100000x1_S100000x256_1_0_n_n_0_1_1256 (m ((c : Thread nD τ).loc main_arg3)) (broadcastInDim S100000x1 ![0] bcast_S100000_S100000x1_0 (select (cmpi .slt (m ((c : Thread nD τ).loc main_arg11)) (broadcastInDim S100000 ![] bcast_S_S100000 (constantI S_ 32 0#32))) (addi (m ((c : Thread nD τ).loc main_arg11)) (broadcastInDim S100000 ![] bcast_S_S100000 (constantI S_ 32 100000#32))) (m ((c : Thread nD τ).loc main_arg11)))) := by
  show StableHlo.after hostOps0 (W0 m ρ c) (Proc.devRef .tc main_v13) = _
  after_results_simp <;> rfl
theorem W1_v20 (c : Dev nD) : W1 m ρ c (Proc.devRef .tc main_v20)
    = Host.gather gather_S8192x256_S8192x1_S8192x256_1_0_n_n_0_1_1256 (m ((c : Thread nD τ).loc main_arg5)) (broadcastInDim S8192x1 ![0] bcast_S8192_S8192x1_0 (select (cmpi .slt (m ((c : Thread nD τ).loc main_arg12)) (broadcastInDim S8192 ![] bcast_S_S8192 (constantI S_ 32 0#32))) (addi (m ((c : Thread nD τ).loc main_arg12)) (broadcastInDim S8192 ![] bcast_S_S8192 (constantI S_ 32 8192#32))) (m ((c : Thread nD τ).loc main_arg12)))) := by
  show StableHlo.after hostOps0 (W0 m ρ c) (Proc.devRef .tc main_v20) = _
  after_results_simp <;> rfl

/-! ## A buffer that neither a region nor a later stretch writes keeps its contents up to each region's entry -/

theorem W3_main_arg2 (c : Dev nD) : W3 m ρ c (Proc.devRef .tc main_arg2) = W1 m ρ c (Proc.devRef .tc main_arg2) := by
  refine Eq.trans ?_ (W2_of_ne m ρ c main_arg2 (by decide))
  show StableHlo.after hostOps1 (W2 m ρ c) (Proc.devRef .tc main_arg2) = _
  after_results <;> rfl

theorem W3_main_arg3 (c : Dev nD) : W3 m ρ c (Proc.devRef .tc main_arg3) = W1 m ρ c (Proc.devRef .tc main_arg3) := by
  refine Eq.trans ?_ (W2_of_ne m ρ c main_arg3 (by decide))
  show StableHlo.after hostOps1 (W2 m ρ c) (Proc.devRef .tc main_arg3) = _
  after_results <;> rfl

theorem W3_main_v13 (c : Dev nD) : W3 m ρ c (Proc.devRef .tc main_v13) = W1 m ρ c (Proc.devRef .tc main_v13) := by
  refine Eq.trans ?_ (W2_of_ne m ρ c main_v13 (by decide))
  show StableHlo.after hostOps1 (W2 m ρ c) (Proc.devRef .tc main_v13) = _
  after_results <;> rfl

theorem W3_main_arg4 (c : Dev nD) : W3 m ρ c (Proc.devRef .tc main_arg4) = W1 m ρ c (Proc.devRef .tc main_arg4) := by
  refine Eq.trans ?_ (W2_of_ne m ρ c main_arg4 (by decide))
  show StableHlo.after hostOps1 (W2 m ρ c) (Proc.devRef .tc main_arg4) = _
  after_results <;> rfl

theorem W3_main_arg5 (c : Dev nD) : W3 m ρ c (Proc.devRef .tc main_arg5) = W1 m ρ c (Proc.devRef .tc main_arg5) := by
  refine Eq.trans ?_ (W2_of_ne m ρ c main_arg5 (by decide))
  show StableHlo.after hostOps1 (W2 m ρ c) (Proc.devRef .tc main_arg5) = _
  after_results <;> rfl

theorem W3_main_v20 (c : Dev nD) : W3 m ρ c (Proc.devRef .tc main_v20) = W1 m ρ c (Proc.devRef .tc main_v20) := by
  refine Eq.trans ?_ (W2_of_ne m ρ c main_v20 (by decide))
  show StableHlo.after hostOps1 (W2 m ρ c) (Proc.devRef .tc main_v20) = _
  after_results <;> rfl

theorem W5_main_arg4 (c : Dev nD) : W5 m ρ c (Proc.devRef .tc main_arg4) = W1 m ρ c (Proc.devRef .tc main_arg4) := by
  refine Eq.trans ?_ ((W4_of_ne m ρ c main_arg4 (by decide)).trans (W3_main_arg4 m ρ c))
  show StableHlo.after hostOps2 (W4 m ρ c) (Proc.devRef .tc main_arg4) = _
  after_results <;> rfl

theorem W5_main_arg5 (c : Dev nD) : W5 m ρ c (Proc.devRef .tc main_arg5) = W1 m ρ c (Proc.devRef .tc main_arg5) := by
  refine Eq.trans ?_ ((W4_of_ne m ρ c main_arg5 (by decide)).trans (W3_main_arg5 m ρ c))
  show StableHlo.after hostOps2 (W4 m ρ c) (Proc.devRef .tc main_arg5) = _
  after_results <;> rfl

theorem W5_main_v20 (c : Dev nD) : W5 m ρ c (Proc.devRef .tc main_v20) = W1 m ρ c (Proc.devRef .tc main_v20) := by
  refine Eq.trans ?_ ((W4_of_ne m ρ c main_v20 (by decide)).trans (W3_main_v20 m ρ c))
  show StableHlo.after hostOps2 (W4 m ρ c) (Proc.devRef .tc main_v20) = _
  after_results <;> rfl

/-! ## The scalar tail -/

/-- The first region's total is formed right after it and untouched afterwards. -/
theorem W6_v29 (c : Dev nD) : W6 m ρ c (Proc.devRef .tc main_v29)
    = Host.reduceAdd (W2 m ρ c (Proc.devRef .tc main_v28)) (constant S_ .f32 0x00000000#32) reducesTo_S2x1x1_S_d0_1_2 h_S_ := by
  refine (W6_of_ne m ρ c main_v29 (by decide)).trans ?_
  refine Eq.trans (show StableHlo.after hostOps2 (W4 m ρ c) (Proc.devRef .tc main_v29) = W4 m ρ c (Proc.devRef .tc main_v29) by
    after_results <;> rfl) ?_
  refine (W4_of_ne m ρ c main_v29 (by decide)).trans ?_
  show StableHlo.after hostOps1 (W2 m ρ c) (Proc.devRef .tc main_v29) = _
  after_results <;> rfl

/-- The second region's total likewise. -/
theorem W6_v31 (c : Dev nD) : W6 m ρ c (Proc.devRef .tc main_v31)
    = Host.reduceAdd (W4 m ρ c (Proc.devRef .tc main_v30)) (constant S_ .f32 0x00000000#32) reducesTo_S2x1x1_S_d0_1_2 h_S_ := by
  refine (W6_of_ne m ρ c main_v31 (by decide)).trans ?_
  show StableHlo.after hostOps2 (W4 m ρ c) (Proc.devRef .tc main_v31) = _
  after_results <;> rfl

/-- The loss result: the weight times the sum of the three means. -/
theorem tail (c : Dev nD) : W9 m ρ c (Proc.devRef .tc main_v39)
    = mulf (constant S_ .f32 0x3D4CCCCD#32) (addf (addf
        (Host.divf (Host.reduceAdd (W2 m ρ c (Proc.devRef .tc main_v28)) (constant S_ .f32 0x00000000#32) reducesTo_S2x1x1_S_d0_1_2 h_S_) (constant S_ .f32 0x48435000#32))
        (Host.divf (Host.reduceAdd (W4 m ρ c (Proc.devRef .tc main_v30)) (constant S_ .f32 0x00000000#32) reducesTo_S2x1x1_S_d0_1_2 h_S_) (constant S_ .f32 0x47C35000#32)))
        (Host.divf (Host.reduceAdd (W6 m ρ c (Proc.devRef .tc main_v32)) (constant S_ .f32 0x00000000#32) reducesTo_S2x1x1_S_d0_1_2 h_S_) (constant S_ .f32 0x46000000#32))) := by
  refine (W9_of_ne m ρ c main_v39 (by decide)).trans ((W8_of_ne m ρ c main_v39 (by decide)).trans ?_)
  rw [← W6_v29 m ρ c, ← W6_v31 m ρ c]
  show StableHlo.after hostOps3 (W6 m ρ c) (Proc.devRef .tc main_v39) = _
  after_results <;> rfl

end Cert.KernelIdeal.Walk

end
-- ==== Proof.KernelLoss.lean ====
/-
  The idealized kernel's loss result, as a function of the arguments. Each contrastive region's two-entry result totals
  to the sum of the per-row terms over all rows of its tables; the host operations after the regions divide the three
  totals by the tables' row counts, add them and scale by the weight.
-/
import proofs.«167286_j7885559955680_2_alg».proof.Proof.Nce0Rows
import proofs.«167286_j7885559955680_2_alg».proof.Proof.Nce1Rows
import proofs.«167286_j7885559955680_2_alg».proof.Proof.Nce2Rows
import proofs.«167286_j7885559955680_2_alg».proof.Proof.LossWalk
import proofs.«167286_j7885559955680_2_alg».proof.Proof.Results
import proofs.«167286_j7885559955680_2_alg».proof.Proof.LibGatherScatter

set_option maxRecDepth 16384
set_option pp.maxSteps 4000
set_option pp.deepTerms false

noncomputable section

namespace Cert.KernelIdeal.Loss

open Cert.KernelIdeal Cert.KernelIdeal.Gen
open Idealize.ShloMosaic Idealize.ShloMosaic.TcCoe Idealize.ShloMosaic.ValueIdx Idealize.SL.Sem
open Cert.RowLoss Cert.Results

variable (m : (ℓ : Loc nD τ sig) → Buf (Elt Ideal) ℓ) (ρ : Dev nD → PrngReg)

/-- The total of region 0's two-entry result is the sum of the per-row terms over all 200000 rows of its tables, the
    negative row of each row being the paired table's row at the given row number, clamped into range. -/
theorem total0 (c : Dev nD) (i : S_.Idx) :
    Host.reduceAdd (F := Ideal) (W2 m ρ c (Proc.devRef .tc main_v28)) (constant S_ .f32 0x00000000#32) reducesTo_S2x1x1_S_d0_1_2 h_S_ i
      = lossSum 200000 (by decide) (m ((c : Thread nD τ).loc main_arg0)) (m ((c : Thread nD τ).loc main_arg1)) (broadcastInDim S200000x1 ![0] bcast_S200000_S200000x1_0 (select (cmpi .slt (m ((c : Thread nD τ).loc main_arg10)) (broadcastInDim S200000 ![] bcast_S_S200000 (constantI S_ 32 0#32))) (addi (m ((c : Thread nD τ).loc main_arg10)) (broadcastInDim S200000 ![] bcast_S_S200000 (constantI S_ 32 200000#32))) (m ((c : Thread nD τ).loc main_arg10)))) := by
  have hfin : W2 m ρ c (Proc.devRef .tc main_v28) = Nce0.halves (V1 m ρ) c :=
    (W2_arr m ρ c 3).trans (Nce0.final (V1 m ρ) c)
  rw [hfin]
  simp only [Host.reduceAdd, Ideal.hostReduceAdd_def]
  refine (Ideal.hostReduceAdd_total reducesTo_S2x1x1_S_d0_1_2 (fun b => b.elim0) (Nce0.halves (V1 m ρ) c) _ i).trans ?_
  rw [Nce0.total_rows]
  refine Eq.trans (congrArg (· + _) (show constant (F := Ideal) S_ .f32 0x00000000#32 (Shape.Idx.first h_S_) = (0 : EReal) from Ideal.ofBits_zero_f32)) ?_
  rw [zero_add]
  unfold lossSum
  refine Finset.sum_congr rfl fun R _ => ?_
  rw [show V1 m ρ c main_arg0 = m ((c : Thread nD τ).loc main_arg0) from Walk.W1_arg0 m ρ c,
    show V1 m ρ c main_arg1 = m ((c : Thread nD τ).loc main_arg1) from Walk.W1_arg1 m ρ c,
    show V1 m ρ c main_v6 = _ from (Walk.W1_v6 m ρ c)]
  refine congrArg (pairLoss _ _) (funext fun k => ?_)
  exact LibGatherScatter.gather_rows_apply (by decide) gather_S200000x256_S200000x1_S200000x256_1_0_n_n_0_1_1256.wf _ _ R k

/-- The total of region 1's two-entry result is the sum of the per-row terms over all 100000 rows of its tables, the
    negative row of each row being the paired table's row at the given row number, clamped into range. -/
theorem total1 (c : Dev nD) (i : S_.Idx) :
    Host.reduceAdd (F := Ideal) (W4 m ρ c (Proc.devRef .tc main_v30)) (constant S_ .f32 0x00000000#32) reducesTo_S2x1x1_S_d0_1_2 h_S_ i
      = lossSum 100000 (by decide) (m ((c : Thread nD τ).loc main_arg2)) (m ((c : Thread nD τ).loc main_arg3)) (broadcastInDim S100000x1 ![0] bcast_S100000_S100000x1_0 (select (cmpi .slt (m ((c : Thread nD τ).loc main_arg11)) (broadcastInDim S100000 ![] bcast_S_S100000 (constantI S_ 32 0#32))) (addi (m ((c : Thread nD τ).loc main_arg11)) (broadcastInDim S100000 ![] bcast_S_S100000 (constantI S_ 32 100000#32))) (m ((c : Thread nD τ).loc main_arg11)))) := by
  have hfin : W4 m ρ c (Proc.devRef .tc main_v30) = Nce1.halves (V3 m ρ) c :=
    (W4_arr m ρ c 3).trans (Nce1.final (V3 m ρ) c)
  rw [hfin]
  simp only [Host.reduceAdd, Ideal.hostReduceAdd_def]
  refine (Ideal.hostReduceAdd_total reducesTo_S2x1x1_S_d0_1_2 (fun b => b.elim0) (Nce1.halves (V3 m ρ) c) _ i).trans ?_
  rw [Nce1.total_rows]
  refine Eq.trans (congrArg (· + _) (show constant (F := Ideal) S_ .f32 0x00000000#32 (Shape.Idx.first h_S_) = (0 : EReal) from Ideal.ofBits_zero_f32)) ?_
  rw [zero_add]
  unfold lossSum
  refine Finset.sum_congr rfl fun R _ => ?_
  rw [show V3 m ρ c main_arg2 = m ((c : Thread nD τ).loc main_arg2) from Walk.W3_main_arg2 m ρ c,
    show V3 m ρ c main_arg3 = m ((c : Thread nD τ).loc main_arg3) from Walk.W3_main_arg3 m ρ c,
    show V3 m ρ c main_v13 = _ from (Walk.W3_main_v13 m ρ c).trans (Walk.W1_v13 m ρ c)]
  refine congrArg (pairLoss _ _) (funext fun k => ?_)
  exact LibGatherScatter.gather_rows_apply (by decide) gather_S100000x256_S100000x1_S100000x256_1_0_n_n_0_1_1256.wf _ _ R k

/-- The total of region 2's two-entry result is the sum of the per-row terms over all 8192 rows of its tables, the
    negative row of each row being the paired table's row at the given row number, clamped into range. -/
theorem total2 (c : Dev nD) (i : S_.Idx) :
    Host.reduceAdd (F := Ideal) (W6 m ρ c (Proc.devRef .tc main_v32)) (constant S_ .f32 0x00000000#32) reducesTo_S2x1x1_S_d0_1_2 h_S_ i
      = lossSum 8192 (by decide) (m ((c : Thread nD τ).loc main_arg4)) (m ((c : Thread nD τ).loc main_arg5)) (broadcastInDim S8192x1 ![0] bcast_S8192_S8192x1_0 (select (cmpi .slt (m ((c : Thread nD τ).loc main_arg12)) (broadcastInDim S8192 ![] bcast_S_S8192 (constantI S_ 32 0#32))) (addi (m ((c : Thread nD τ).loc main_arg12)) (broadcastInDim S8192 ![] bcast_S_S8192 (constantI S_ 32 8192#32))) (m ((c : Thread nD τ).loc main_arg12)))) := by
  have hfin : W6 m ρ c (Proc.devRef .tc main_v32) = Nce2.halves (V5 m ρ) c :=
    (W6_arr m ρ c 3).trans (Nce2.final (V5 m ρ) c)
  rw [hfin]
  simp only [Host.reduceAdd, Ideal.hostReduceAdd_def]
  refine (Ideal.hostReduceAdd_total reducesTo_S2x1x1_S_d0_1_2 (fun b => b.elim0) (Nce2.halves (V5 m ρ) c) _ i).trans ?_
  rw [Nce2.total_rows]
  refine Eq.trans (congrArg (· + _) (show constant (F := Ideal) S_ .f32 0x00000000#32 (Shape.Idx.first h_S_) = (0 : EReal) from Ideal.ofBits_zero_f32)) ?_
  rw [zero_add]
  unfold lossSum
  refine Finset.sum_congr rfl fun R _ => ?_
  rw [show V5 m ρ c main_arg4 = m ((c : Thread nD τ).loc main_arg4) from Walk.W5_main_arg4 m ρ c,
    show V5 m ρ c main_arg5 = m ((c : Thread nD τ).loc main_arg5) from Walk.W5_main_arg5 m ρ c,
    show V5 m ρ c main_v20 = _ from (Walk.W5_main_v20 m ρ c).trans (Walk.W1_v20 m ρ c)]
  refine congrArg (pairLoss _ _) (funext fun k => ?_)
  exact LibGatherScatter.gather_rows_apply (by decide) gather_S8192x256_S8192x1_S8192x256_1_0_n_n_0_1_1256.wf _ _ R k

/-- The loss result at the end of the run. -/
theorem loss (c : Dev nD) : W9 (F := Ideal) m ρ c (Proc.devRef .tc main_v39) = fun _ => total
    (lossSum 200000 (by decide) (m ((c : Thread nD τ).loc main_arg0)) (m ((c : Thread nD τ).loc main_arg1)) (broadcastInDim S200000x1 ![0] bcast_S200000_S200000x1_0 (select (cmpi .slt (m ((c : Thread nD τ).loc main_arg10)) (broadcastInDim S200000 ![] bcast_S_S200000 (constantI S_ 32 0#32))) (addi (m ((c : Thread nD τ).loc main_arg10)) (broadcastInDim S200000 ![] bcast_S_S200000 (constantI S_ 32 200000#32))) (m ((c : Thread nD τ).loc main_arg10)))))
    (lossSum 100000 (by decide) (m ((c : Thread nD τ).loc main_arg2)) (m ((c : Thread nD τ).loc main_arg3)) (broadcastInDim S100000x1 ![0] bcast_S100000_S100000x1_0 (select (cmpi .slt (m ((c : Thread nD τ).loc main_arg11)) (broadcastInDim S100000 ![] bcast_S_S100000 (constantI S_ 32 0#32))) (addi (m ((c : Thread nD τ).loc main_arg11)) (broadcastInDim S100000 ![] bcast_S_S100000 (constantI S_ 32 100000#32))) (m ((c : Thread nD τ).loc main_arg11)))))
    (lossSum 8192 (by decide) (m ((c : Thread nD τ).loc main_arg4)) (m ((c : Thread nD τ).loc main_arg5)) (broadcastInDim S8192x1 ![0] bcast_S8192_S8192x1_0 (select (cmpi .slt (m ((c : Thread nD τ).loc main_arg12)) (broadcastInDim S8192 ![] bcast_S_S8192 (constantI S_ 32 0#32))) (addi (m ((c : Thread nD τ).loc main_arg12)) (broadcastInDim S8192 ![] bcast_S_S8192 (constantI S_ 32 8192#32))) (m ((c : Thread nD τ).loc main_arg12))))) := by
  rw [Walk.tail]
  funext i
  show Ideal.ofBits .f32 0x3D4CCCCD#32 * ((Ideal.div (Host.reduceAdd (F := Ideal) _ _ _ _ i) _ + Ideal.div (Host.reduceAdd (F := Ideal) _ _ _ _ i) _)
    + Ideal.div (Host.reduceAdd (F := Ideal) _ _ _ _ i) _) = _
  rw [total0, total1, total2]
  rfl

end Cert.KernelIdeal.Loss

end
-- ==== Proof.BlendReference.lean ====
/-
  The two blended embedding arrays as the idealized reference computes them, read entry by entry.

  The reference forms the logistic of the 2-by-256 array of gate weights as `1 / (1 + exp(-w))`, cuts out each of its
  two rows, flattens the row, lays it out again as a 1-by-256 row and spreads it down all the rows of the table; the
  result is the first spread row times the first table plus the second spread row times the second table. Here: the
  spelt-out logistic at one entry is the logistic function of that entry; a row cut out, flattened, laid out and spread
  reads, at row `p` and column `q`, the array's entry at that row number and column `q`; so each result is the blend
  `σ(w₀ⱼ)·aᵢⱼ + σ(w₁ⱼ)·bᵢⱼ` of its two tables.
-/
import proofs.«167286_j7885559955680_2_alg».proof.Proof.Gen.ReferenceIdeal
import proofs.«167286_j7885559955680_2_alg».proof.Proof.Results
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Blend

open Cert.ReferenceIdeal Cert.ReferenceIdeal.Gen
open Idealize.ShloMosaic Idealize.ShloMosaic.ValueIdx

/-! ## The spelt-out logistic at one entry -/

/-- `1 / (1 + exp(-w))` with both ones the float one's word spread over the array, read at an entry, is the logistic
    function of the entry. -/
theorem sigmoid_apply (w : (⟨S2x256, .f32⟩ : BufTy).Contents (Elt Ideal)) (k : S2x256.Idx) :
    Host.divf (F := Ideal) (broadcastInDim S2x256 ![] bcast_S_S2x256 (constant (F := Ideal) S_ .f32 0x3F800000#32)) (addf (broadcastInDim S2x256 ![] bcast_S_S2x256 (constant (F := Ideal) S_ .f32 0x3F800000#32)) (Host.exp (F := Ideal) (Host.negf (F := Ideal) w))) k
      = Ideal.logistic (w k) := by
  show Ideal.div (broadcastInDim S2x256 ![] bcast_S_S2x256 (constant (F := Ideal) S_ .f32 0x3F800000#32) k)
      (broadcastInDim S2x256 ![] bcast_S_S2x256 (constant (F := Ideal) S_ .f32 0x3F800000#32) k + Ideal.exp (-(w k)))
    = Ideal.div 1 (1 + Ideal.exp (-(w k)))
  rw [broadcastInDim_apply _ bcast_S_S2x256 _ k ix0 (fun a => a.elim0), constant_apply, Cert.RowLoss.ofBits_one]

/-! ## A row cut out, flattened, laid out again and spread down the rows -/

/-- Row `o` of a 2-by-256 array, cut out as a 1-by-256 array, flattened to 256 entries, laid out as a 1-by-256 row and
    spread down `N` rows, reads at row `p`, column `q` the array's entry in row `o`, column `q`. -/
theorem spread_apply {α : Type} {N : Nat} (o : Nat) (σ : (⟨2, ![2, 256]⟩ : Shape).Idx → α)
    (hs : (⟨2, ![2, 256]⟩ : Shape).Slices ![o, 0] ⟨2, ![1, 256]⟩)
    (hc : (⟨2, ![1, 256]⟩ : Shape).ShapeCasts ⟨1, ![256]⟩)
    (hb : (⟨1, ![256]⟩ : Shape).BroadcastsInDim ⟨2, ![1, 256]⟩ (![1] : Fin 1 → Fin 2))
    (hB : (⟨2, ![1, 256]⟩ : Shape).BroadcastsInDim ⟨2, ![N, 256]⟩ (![0, 1] : Fin 2 → Fin 2))
    (p : Fin N) (q : Fin 256) (k : Fin 2) (hk : k.val = o) :
    broadcastInDim ⟨2, ![N, 256]⟩ ![0, 1] hB (broadcastInDim ⟨2, ![1, 256]⟩ ![1] hb
      (shapeCast ⟨1, ![256]⟩ (extractStridedSlice ⟨2, ![1, 256]⟩ ![o, 0] σ hs) hc)) (ix2 p q) = σ (ix2 k q) := by
  rw [broadcastInDim_apply _ hB _ (ix2 p q) (ix2 (0 : Fin 1) q) (fun a => match a with
      | ⟨0, _⟩ => by show 0 = if (1 : Nat) = 1 then 0 else p.val; rw [if_pos rfl]
      | ⟨1, _⟩ => by show q.val = if (256 : Nat) = 1 then 0 else q.val; rw [if_neg (by decide)]),
    broadcastInDim_apply _ hb _ (ix2 (0 : Fin 1) q) (ix1 q) (fun a => match a with
      | ⟨0, _⟩ => by show q.val = if (256 : Nat) = 1 then 0 else q.val; rw [if_neg (by decide)]),
    shapeCast_1a_a_apply, slice2_axis0_apply o σ hs (0 : Fin 1) q k (by rw [hk]; rfl)]

/-! ## The two results -/

/-- The first result: the blend, by the gate weights, of the looked-up rows of the first table and the second table. -/
theorem users (x0 : (⟨S200000x256, .f32⟩ : BufTy).Contents (Elt Ideal)) (x4 : (⟨S8192x256, .f32⟩ : BufTy).Contents (Elt Ideal))
    (x7 : (⟨S2x256, .f32⟩ : BufTy).Contents (Elt Ideal)) (x9 : (⟨S8192, .i32⟩ : BufTy).Contents (Elt Ideal)) :
    addf (mulf (broadcastInDim S8192x256 ![0, 1] bcast_S1x256_S8192x256_0_1 (broadcastInDim S1x256 ![1] bcast_S256_S1x256_1 (shapeCast _ (extractStridedSlice S1x256 ![0, 0] (Host.divf (F := Ideal) (broadcastInDim S2x256 ![] bcast_S_S2x256 (constant (F := Ideal) S_ .f32 0x3F800000#32)) (addf (broadcastInDim S2x256 ![] bcast_S_S2x256 (constant (F := Ideal) S_ .f32 0x3F800000#32)) (Host.exp (F := Ideal) (Host.negf (F := Ideal) x7)))) slices_S2x256_S1x256_0_0) shapeCasts_S1x256_S256))) (Host.gather gather_S200000x256_S8192x1_S8192x256_1_0_n_n_0_1_1256 x0 (broadcastInDim S8192x1 ![0] bcast_S8192_S8192x1_0 (select (cmpi .slt x9 (broadcastInDim S8192 ![] bcast_S_S8192 (constantI S_ 32 0#32))) (addi x9 (broadcastInDim S8192 ![] bcast_S_S8192 (constantI S_ 32 200000#32))) x9)))) (mulf (broadcastInDim S8192x256 ![0, 1] bcast_S1x256_S8192x256_0_1 (broadcastInDim S1x256 ![1] bcast_S256_S1x256_1 (shapeCast _ (extractStridedSlice S1x256 ![1, 0] (Host.divf (F := Ideal) (broadcastInDim S2x256 ![] bcast_S_S2x256 (constant (F := Ideal) S_ .f32 0x3F800000#32)) (addf (broadcastInDim S2x256 ![] bcast_S_S2x256 (constant (F := Ideal) S_ .f32 0x3F800000#32)) (Host.exp (F := Ideal) (Host.negf (F := Ideal) x7)))) slices_S2x256_S1x256_1_0) shapeCasts_S1x256_S256))) x4)
      = Cert.Results.blend x7 (Host.gather gather_S200000x256_S8192x1_S8192x256_1_0_n_n_0_1_1256 x0 (broadcastInDim S8192x1 ![0] bcast_S8192_S8192x1_0 (select (cmpi .slt x9 (broadcastInDim S8192 ![] bcast_S_S8192 (constantI S_ 32 0#32))) (addi x9 (broadcastInDim S8192 ![] bcast_S_S8192 (constantI S_ 32 200000#32))) x9))) x4 := by
  funext i
  obtain ⟨p, q, rfl⟩ : ∃ (p : Fin 8192) (q : Fin 256), i = ix2 p q := ⟨i 0, i 1, eq_ix2 i⟩
  rw [Cert.Results.blend_apply, addf_apply, mulf_apply, mulf_apply,
    spread_apply 0 _ slices_S2x256_S1x256_0_0 shapeCasts_S1x256_S256 bcast_S256_S1x256_1 bcast_S1x256_S8192x256_0_1 p q (0 : Fin 2) rfl,
    spread_apply 1 _ slices_S2x256_S1x256_1_0 shapeCasts_S1x256_S256 bcast_S256_S1x256_1 bcast_S1x256_S8192x256_0_1 p q (1 : Fin 2) rfl,
    sigmoid_apply, sigmoid_apply]

/-- The second result: the blend, by its own gate weights, of the third and fourth tables. -/
theorem items (x2 x6 : (⟨S100000x256, .f32⟩ : BufTy).Contents (Elt Ideal)) (x8 : (⟨S2x256, .f32⟩ : BufTy).Contents (Elt Ideal)) :
    addf (mulf (broadcastInDim S100000x256 ![0, 1] bcast_S1x256_S100000x256_0_1 (broadcastInDim S1x256 ![1] bcast_S256_S1x256_1 (shapeCast _ (extractStridedSlice S1x256 ![0, 0] (Host.divf (F := Ideal) (broadcastInDim S2x256 ![] bcast_S_S2x256 (constant (F := Ideal) S_ .f32 0x3F800000#32)) (addf (broadcastInDim S2x256 ![] bcast_S_S2x256 (constant (F := Ideal) S_ .f32 0x3F800000#32)) (Host.exp (F := Ideal) (Host.negf (F := Ideal) x8)))) slices_S2x256_S1x256_0_0) shapeCasts_S1x256_S256))) x2) (mulf (broadcastInDim S100000x256 ![0, 1] bcast_S1x256_S100000x256_0_1 (broadcastInDim S1x256 ![1] bcast_S256_S1x256_1 (shapeCast _ (extractStridedSlice S1x256 ![1, 0] (Host.divf (F := Ideal) (broadcastInDim S2x256 ![] bcast_S_S2x256 (constant (F := Ideal) S_ .f32 0x3F800000#32)) (addf (broadcastInDim S2x256 ![] bcast_S_S2x256 (constant (F := Ideal) S_ .f32 0x3F800000#32)) (Host.exp (F := Ideal) (Host.negf (F := Ideal) x8)))) slices_S2x256_S1x256_1_0) shapeCasts_S1x256_S256))) x6)
      = Cert.Results.blend x8 x2 x6 := by
  funext i
  obtain ⟨p, q, rfl⟩ : ∃ (p : Fin 100000) (q : Fin 256), i = ix2 p q := ⟨i 0, i 1, eq_ix2 i⟩
  rw [Cert.Results.blend_apply, addf_apply, mulf_apply, mulf_apply,
    spread_apply 0 _ slices_S2x256_S1x256_0_0 shapeCasts_S1x256_S256 bcast_S256_S1x256_1 bcast_S1x256_S100000x256_0_1 p q (0 : Fin 2) rfl,
    spread_apply 1 _ slices_S2x256_S1x256_1_0 shapeCasts_S1x256_S256 bcast_S256_S1x256_1 bcast_S1x256_S100000x256_0_1 p q (1 : Fin 2) rfl,
    sigmoid_apply, sigmoid_apply]

end Cert.ReferenceIdeal.Blend

end
-- ==== Proof.ReferenceTerms.lean ====
/-
  The reference's contrastive total as one term of its nine arguments, built from named pieces.

  For each of the three tables the reference scales every row of the anchor array and of the paired array to unit
  length (the length floored away from zero), takes per row the inner product of the anchor row with the paired row the
  row number names minus its inner product with its own paired row, divides by the temperature, applies the soft-plus
  and averages over the rows; the three averages are added left to right and multiplied by the weight. The definitions
  below spell exactly the operations the printed program applies, in its order and with its records; nothing is proved
  here.
-/
import proofs.«167286_j7885559955680_2_alg».proof.Proof.Gen.ReferenceIdeal

noncomputable section

namespace Cert.ReferenceIdeal.Loss

open Cert.ReferenceIdeal Cert.ReferenceIdeal.Gen Idealize.ShloMosaic

variable {F : FTy → Type} [FloatOps F]

/-! ## The table of 200000 rows -/

/-- Every row divided by its length, the length kept away from zero by a small floor. -/
def scaled200000 (x : (⟨S200000x256, .f32⟩ : BufTy).Contents (Elt F)) : (⟨S200000x256, .f32⟩ : BufTy).Contents (Elt F) :=
  Host.divf x (broadcastInDim S200000x256 ![0, 1] bcast_S200000x1_S200000x256_0_1 (maximumf (Host.sqrt (broadcastInDim S200000x1 ![0] bcast_S200000_S200000x1_0 (Host.reduceAdd (mulf x x) (constant S_ .f32 0x00000000#32) reducesTo_S200000x256_S200000_d1 h_S_))) (broadcastInDim S200000x1 ![] bcast_S_S200000x1 (constant S_ .f32 0x322BCC77#32))))

/-- The row numbers as a one-column array, a negative number counted from the end. -/
def rownums200000 (idx : (⟨S200000, .i32⟩ : BufTy).Contents (Elt F)) : (⟨S200000x1, .i32⟩ : BufTy).Contents (Elt F) :=
  broadcastInDim S200000x1 ![0] bcast_S200000_S200000x1_0 (select (cmpi .slt idx (broadcastInDim S200000 ![] bcast_S_S200000 (constantI S_ 32 0#32))) (addi idx (broadcastInDim S200000 ![] bcast_S_S200000 (constantI S_ 32 200000#32))) idx)

/-- Per row: the inner product of the scaled anchor row with the scaled row the row number names, minus its inner
    product with the scaled paired row, over the temperature. -/
def diff200000 (x0 x1 : (⟨S200000x256, .f32⟩ : BufTy).Contents (Elt F)) (idx : (⟨S200000, .i32⟩ : BufTy).Contents (Elt F)) : (⟨S200000, .f32⟩ : BufTy).Contents (Elt F) :=
  Host.divf (subf (Host.reduceAdd (mulf (scaled200000 x0) (Host.gather gather_S200000x256_S200000x1_S200000x256_1_0_n_n_0_1_1256 (scaled200000 x1) (rownums200000 idx))) (constant S_ .f32 0x00000000#32) reducesTo_S200000x256_S200000_d1 h_S_) (Host.reduceAdd (mulf (scaled200000 x0) (scaled200000 x1)) (constant S_ .f32 0x00000000#32) reducesTo_S200000x256_S200000_d1 h_S_)) (broadcastInDim S200000 ![] bcast_S_S200000 (constant S_ .f32 0x3F800000#32))

/-- The soft-plus of every entry, spelt as `max(d, 0) + log1p(exp(-|d|))` behind a guard that passes a not-a-number on. -/
def softplus200000 (d : (⟨S200000, .f32⟩ : BufTy).Contents (Elt F)) : (⟨S200000, .f32⟩ : BufTy).Contents (Elt F) :=
  select (cmpf .une (subf d (broadcastInDim S200000 ![] bcast_S_S200000 (constant S_ .f32 0x00000000#32))) (subf d (broadcastInDim S200000 ![] bcast_S_S200000 (constant S_ .f32 0x00000000#32)))) (addf d (broadcastInDim S200000 ![] bcast_S_S200000 (constant S_ .f32 0x00000000#32))) (addf (maximumf d (broadcastInDim S200000 ![] bcast_S_S200000 (constant S_ .f32 0x00000000#32))) (Host.log1p (Host.exp (Host.negf (Host.absf (subf d (broadcastInDim S200000 ![] bcast_S_S200000 (constant S_ .f32 0x00000000#32))))))))

/-- The mean over the rows of the soft-plus of the per-row differences. -/
def mean200000 (x0 x1 : (⟨S200000x256, .f32⟩ : BufTy).Contents (Elt F)) (idx : (⟨S200000, .i32⟩ : BufTy).Contents (Elt F)) : (⟨S_, .f32⟩ : BufTy).Contents (Elt F) :=
  Host.divf (Host.reduceAdd (softplus200000 (diff200000 x0 x1 idx)) (constant S_ .f32 0x00000000#32) reducesTo_S200000_S_d0 h_S_) (constant S_ .f32 0x48435000#32)

/-! ## The table of 100000 rows -/

/-- Every row divided by its length, the length kept away from zero by a small floor. -/
def scaled100000 (x : (⟨S100000x256, .f32⟩ : BufTy).Contents (Elt F)) : (⟨S100000x256, .f32⟩ : BufTy).Contents (Elt F) :=
  Host.divf x (broadcastInDim S100000x256 ![0, 1] bcast_S100000x1_S100000x256_0_1 (maximumf (Host.sqrt (broadcastInDim S100000x1 ![0] bcast_S100000_S100000x1_0 (Host.reduceAdd (mulf x x) (constant S_ .f32 0x00000000#32) reducesTo_S100000x256_S100000_d1 h_S_))) (broadcastInDim S100000x1 ![] bcast_S_S100000x1 (constant S_ .f32 0x322BCC77#32))))

/-- The row numbers as a one-column array, a negative number counted from the end. -/
def rownums100000 (idx : (⟨S100000, .i32⟩ : BufTy).Contents (Elt F)) : (⟨S100000x1, .i32⟩ : BufTy).Contents (Elt F) :=
  broadcastInDim S100000x1 ![0] bcast_S100000_S100000x1_0 (select (cmpi .slt idx (broadcastInDim S100000 ![] bcast_S_S100000 (constantI S_ 32 0#32))) (addi idx (broadcastInDim S100000 ![] bcast_S_S100000 (constantI S_ 32 100000#32))) idx)

/-- Per row: the inner product of the scaled anchor row with the scaled row the row number names, minus its inner
    product with the scaled paired row, over the temperature. -/
def diff100000 (x0 x1 : (⟨S100000x256, .f32⟩ : BufTy).Contents (Elt F)) (idx : (⟨S100000, .i32⟩ : BufTy).Contents (Elt F)) : (⟨S100000, .f32⟩ : BufTy).Contents (Elt F) :=
  Host.divf (subf (Host.reduceAdd (mulf (scaled100000 x0) (Host.gather gather_S100000x256_S100000x1_S100000x256_1_0_n_n_0_1_1256 (scaled100000 x1) (rownums100000 idx))) (constant S_ .f32 0x00000000#32) reducesTo_S100000x256_S100000_d1 h_S_) (Host.reduceAdd (mulf (scaled100000 x0) (scaled100000 x1)) (constant S_ .f32 0x00000000#32) reducesTo_S100000x256_S100000_d1 h_S_)) (broadcastInDim S100000 ![] bcast_S_S100000 (constant S_ .f32 0x3F800000#32))

/-- The soft-plus of every entry, spelt as `max(d, 0) + log1p(exp(-|d|))` behind a guard that passes a not-a-number on. -/
def softplus100000 (d : (⟨S100000, .f32⟩ : BufTy).Contents (Elt F)) : (⟨S100000, .f32⟩ : BufTy).Contents (Elt F) :=
  select (cmpf .une (subf d (broadcastInDim S100000 ![] bcast_S_S100000 (constant S_ .f32 0x00000000#32))) (subf d (broadcastInDim S100000 ![] bcast_S_S100000 (constant S_ .f32 0x00000000#32)))) (addf d (broadcastInDim S100000 ![] bcast_S_S100000 (constant S_ .f32 0x00000000#32))) (addf (maximumf d (broadcastInDim S100000 ![] bcast_S_S100000 (constant S_ .f32 0x00000000#32))) (Host.log1p (Host.exp (Host.negf (Host.absf (subf d (broadcastInDim S100000 ![] bcast_S_S100000 (constant S_ .f32 0x00000000#32))))))))

/-- The mean over the rows of the soft-plus of the per-row differences. -/
def mean100000 (x0 x1 : (⟨S100000x256, .f32⟩ : BufTy).Contents (Elt F)) (idx : (⟨S100000, .i32⟩ : BufTy).Contents (Elt F)) : (⟨S_, .f32⟩ : BufTy).Contents (Elt F) :=
  Host.divf (Host.reduceAdd (softplus100000 (diff100000 x0 x1 idx)) (constant S_ .f32 0x00000000#32) reducesTo_S100000_S_d0 h_S_) (constant S_ .f32 0x47C35000#32)

/-! ## The table of 8192 rows -/

/-- Every row divided by its length, the length kept away from zero by a small floor. -/
def scaled8192 (x : (⟨S8192x256, .f32⟩ : BufTy).Contents (Elt F)) : (⟨S8192x256, .f32⟩ : BufTy).Contents (Elt F) :=
  Host.divf x (broadcastInDim S8192x256 ![0, 1] bcast_S8192x1_S8192x256_0_1 (maximumf (Host.sqrt (broadcastInDim S8192x1 ![0] bcast_S8192_S8192x1_0 (Host.reduceAdd (mulf x x) (constant S_ .f32 0x00000000#32) reducesTo_S8192x256_S8192_d1 h_S_))) (broadcastInDim S8192x1 ![] bcast_S_S8192x1 (constant S_ .f32 0x322BCC77#32))))

/-- The row numbers as a one-column array, a negative number counted from the end. -/
def rownums8192 (idx : (⟨S8192, .i32⟩ : BufTy).Contents (Elt F)) : (⟨S8192x1, .i32⟩ : BufTy).Contents (Elt F) :=
  broadcastInDim S8192x1 ![0] bcast_S8192_S8192x1_0 (select (cmpi .slt idx (broadcastInDim S8192 ![] bcast_S_S8192 (constantI S_ 32 0#32))) (addi idx (broadcastInDim S8192 ![] bcast_S_S8192 (constantI S_ 32 8192#32))) idx)

/-- Per row: the inner product of the scaled anchor row with the scaled row the row number names, minus its inner
    product with the scaled paired row, over the temperature. -/
def diff8192 (x0 x1 : (⟨S8192x256, .f32⟩ : BufTy).Contents (Elt F)) (idx : (⟨S8192, .i32⟩ : BufTy).Contents (Elt F)) : (⟨S8192, .f32⟩ : BufTy).Contents (Elt F) :=
  Host.divf (subf (Host.reduceAdd (mulf (scaled8192 x0) (Host.gather gather_S8192x256_S8192x1_S8192x256_1_0_n_n_0_1_1256 (scaled8192 x1) (rownums8192 idx))) (constant S_ .f32 0x00000000#32) reducesTo_S8192x256_S8192_d1 h_S_) (Host.reduceAdd (mulf (scaled8192 x0) (scaled8192 x1)) (constant S_ .f32 0x00000000#32) reducesTo_S8192x256_S8192_d1 h_S_)) (broadcastInDim S8192 ![] bcast_S_S8192 (constant S_ .f32 0x3F800000#32))

/-- The soft-plus of every entry, spelt as `max(d, 0) + log1p(exp(-|d|))` behind a guard that passes a not-a-number on. -/
def softplus8192 (d : (⟨S8192, .f32⟩ : BufTy).Contents (Elt F)) : (⟨S8192, .f32⟩ : BufTy).Contents (Elt F) :=
  select (cmpf .une (subf d (broadcastInDim S8192 ![] bcast_S_S8192 (constant S_ .f32 0x00000000#32))) (subf d (broadcastInDim S8192 ![] bcast_S_S8192 (constant S_ .f32 0x00000000#32)))) (addf d (broadcastInDim S8192 ![] bcast_S_S8192 (constant S_ .f32 0x00000000#32))) (addf (maximumf d (broadcastInDim S8192 ![] bcast_S_S8192 (constant S_ .f32 0x00000000#32))) (Host.log1p (Host.exp (Host.negf (Host.absf (subf d (broadcastInDim S8192 ![] bcast_S_S8192 (constant S_ .f32 0x00000000#32))))))))

/-- The mean over the rows of the soft-plus of the per-row differences. -/
def mean8192 (x0 x1 : (⟨S8192x256, .f32⟩ : BufTy).Contents (Elt F)) (idx : (⟨S8192, .i32⟩ : BufTy).Contents (Elt F)) : (⟨S_, .f32⟩ : BufTy).Contents (Elt F) :=
  Host.divf (Host.reduceAdd (softplus8192 (diff8192 x0 x1 idx)) (constant S_ .f32 0x00000000#32) reducesTo_S8192_S_d0 h_S_) (constant S_ .f32 0x46000000#32)

/-! ## The total -/

/-- The three means added left to right, times the weight. -/
def lossTerm (x0 x1 : (⟨S200000x256, .f32⟩ : BufTy).Contents (Elt F)) (x2 x3 : (⟨S100000x256, .f32⟩ : BufTy).Contents (Elt F)) (x4 x5 : (⟨S8192x256, .f32⟩ : BufTy).Contents (Elt F))
    (x10 : (⟨S200000, .i32⟩ : BufTy).Contents (Elt F)) (x11 : (⟨S100000, .i32⟩ : BufTy).Contents (Elt F)) (x12 : (⟨S8192, .i32⟩ : BufTy).Contents (Elt F)) : (⟨S_, .f32⟩ : BufTy).Contents (Elt F) :=
  mulf (constant S_ .f32 0x3D4CCCCD#32) (addf (addf (mean200000 x0 x1 x10) (mean100000 x2 x3 x11)) (mean8192 x4 x5 x12))

end Cert.ReferenceIdeal.Loss

end
-- ==== Proof.ReferenceLoss.lean ====
/-
  The reference's contrastive total read against the specification.

  Read at its one index, the reference's term is the weight times the sum of three quotients, each a host sum over a
  table's rows divided by the table's row count. A row's summand is the soft-plus — spelt with a guard no extended
  real trips and with the difference first divided by one — of the difference of two row sums of products of scaled
  rows; a scaled row is the row over the larger of its Euclidean length and the floor, which is the specification's
  unit row, so the two row sums are the cosines with the row the row number names and with the paired row. Host sums
  here are exact sums from zero, and the lookup reads the row its signed, clamped row number names.
-/
import proofs.«167286_j7885559955680_2_alg».proof.Proof.ReferenceTerms
import proofs.«167286_j7885559955680_2_alg».proof.Proof.Results
import proofs.«167286_j7885559955680_2_alg».proof.Proof.LibGatherScatter
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Loss

open Cert.ReferenceIdeal Cert.ReferenceIdeal.Gen
open Idealize.ShloMosaic Idealize.ShloMosaic.ValueIdx
open Cert.RowLoss Cert.Results LibGatherScatter
open scoped BigOperators

/-! ## The host's entrywise operations at an index, over the extended reals -/

section Pointwise
variable {s : Shape} {φ : FTy}
theorem hdivf_apply (a b : FVec Ideal s φ) (i : s.Idx) : Host.divf (F := Ideal) a b i = Ideal.div (a i) (b i) := rfl
theorem hsqrt_apply (a : FVec Ideal s φ) (i : s.Idx) : Host.sqrt (F := Ideal) a i = Ideal.sqrt (a i) := rfl
theorem hexp_apply (a : FVec Ideal s φ) (i : s.Idx) : Host.exp (F := Ideal) a i = Ideal.exp (a i) := rfl
theorem hlog1p_apply (a : FVec Ideal s φ) (i : s.Idx) : Host.log1p (F := Ideal) a i = Ideal.log1p (a i) := rfl
theorem hnegf_apply (a : FVec Ideal s φ) (i : s.Idx) : Host.negf (F := Ideal) a i = -(a i) := rfl
theorem habsf_apply (a : FVec Ideal s φ) (i : s.Idx) : Host.absf (F := Ideal) a i = max (a i) (-(a i)) := rfl
theorem cmpf_une_apply (a b : FVec Ideal s φ) (i : s.Idx) : cmpf .une a b i = Ideal.cmp .une (a i) (b i) := rfl
end Pointwise

/-- The host's sums start from the float zero's word: zero. -/
theorem zero_init : (constant (F := Ideal) S_ .f32 0x00000000#32) (Shape.Idx.first h_S_) = (0 : EReal) := Ideal.ofBits_zero_f32

/-! ## The table of 200000 rows -/

/-- A row sum: the host's sum along the columns, from zero, at row `r`. -/
theorem rowsum200000 (x : FVec Ideal S200000x256 .f32) (r : Fin 200000) :
    Host.reduceAdd (F := Ideal) x (constant (F := Ideal) S_ .f32 0x00000000#32) reducesTo_S200000x256_S200000_d1 h_S_ (ix1 r)
      = ∑ k : Fin 256, x (ix2 r k) := by
  simp only [Host.reduceAdd, Ideal.hostReduceAdd_def]
  refine (Ideal.hostReduceAdd_single reducesTo_S200000x256_S200000_d1 (by decide) x _ (ix1 r)).trans ?_
  rw [zero_init, zero_add]
  show (∑ k : Fin 256, x _) = ∑ k : Fin 256, x (ix2 r k)
  refine Finset.sum_congr rfl fun k _ => ?_
  exact congrArg x (funext fun a => Fin.ext (by match a with | ⟨0, _⟩ => rfl | ⟨1, _⟩ => rfl))

/-- A scaled table's entry is its row's scaled entry. -/
theorem scaled200000_apply (x : FVec Ideal S200000x256 .f32) (r : Fin 200000) (k : Fin 256) :
    scaled200000 (F := Ideal) x (ix2 r k) = unitRow (row x r) k := by
  unfold scaled200000
  rw [hdivf_apply, broadcastInDim_apply _ bcast_S200000x1_S200000x256_0_1 _ (ix2 r k) (ix2 r (0 : Fin 1)) (fun a => match a with
      | ⟨0, _⟩ => by show r.val = if (200000 : Nat) = 1 then 0 else r.val; rw [if_neg (by decide)]
      | ⟨1, _⟩ => by show 0 = if (1 : Nat) = 1 then 0 else k.val; rw [if_pos rfl]),
    maximumf_apply, hsqrt_apply,
    broadcastInDim_apply _ bcast_S200000_S200000x1_0 _ (ix2 r (0 : Fin 1)) (ix1 r) (fun a => match a with
      | ⟨0, _⟩ => by show r.val = if (200000 : Nat) = 1 then 0 else r.val; rw [if_neg (by decide)]),
    broadcastInDim_apply _ bcast_S_S200000x1 _ (ix2 r (0 : Fin 1)) ix0 (fun a => a.elim0),
    rowsum200000]
  rfl

/-- The row sum of the product of two scaled tables is the cosine of their rows. -/
theorem cos200000_apply (x y : FVec Ideal S200000x256 .f32) (r : Fin 200000) :
    Host.reduceAdd (F := Ideal) (mulf (scaled200000 (F := Ideal) x) (scaled200000 (F := Ideal) y)) (constant (F := Ideal) S_ .f32 0x00000000#32)
        reducesTo_S200000x256_S200000_d1 h_S_ (ix1 r)
      = cosine (row x r) (row y r) := by
  rw [rowsum200000]
  unfold cosine
  refine Finset.sum_congr rfl fun k _ => ?_
  rw [mulf_apply, scaled200000_apply, scaled200000_apply]

/-- The printed lookup record is the lookup of whole rows at a one-column array of row numbers. -/
theorem gather200000_eq : gather_S200000x256_S200000x1_S200000x256_1_0_n_n_0_1_1256
    = rowsDims 200000 200000 256 gather_S200000x256_S200000x1_S200000x256_1_0_n_n_0_1_1256_wf := rfl

/-- The row sum of a scaled table against the looked-up rows of another is the cosine with the row the row number names. -/
theorem cosn200000_apply (x y : FVec Ideal S200000x256 .f32) (ii : IVec ⟨2, ![200000, 1]⟩ 32) (r : Fin 200000) :
    Host.reduceAdd (F := Ideal) (mulf (scaled200000 (F := Ideal) x)
          (Host.gather gather_S200000x256_S200000x1_S200000x256_1_0_n_n_0_1_1256 (scaled200000 (F := Ideal) y) ii))
        (constant (F := Ideal) S_ .f32 0x00000000#32) reducesTo_S200000x256_S200000_d1 h_S_ (ix1 r)
      = cosine (row x r) (row y (clampRow 200000 (by decide) (ii (ix2 r (0 : Fin 1))))) := by
  rw [rowsum200000]
  unfold cosine
  refine Finset.sum_congr rfl fun k _ => ?_
  rw [mulf_apply, scaled200000_apply, gather200000_eq, gather_rows_apply (by decide), scaled200000_apply]

/-- The per-row difference: cosine with the row the row number names minus cosine with the paired row, over one. -/
theorem diff200000_apply (x0 x1 : FVec Ideal S200000x256 .f32) (idx : IVec S200000 32) (r : Fin 200000) :
    diff200000 (F := Ideal) x0 x1 idx (ix1 r)
      = Ideal.div (cosine (row x0 r) (row x1 (clampRow 200000 (by decide) (rownums200000 (F := Ideal) idx (ix2 r (0 : Fin 1)))))
          - cosine (row x0 r) (row x1 r)) 1 := by
  unfold diff200000
  rw [hdivf_apply, subf_apply, cosn200000_apply, cos200000_apply,
    broadcastInDim_apply _ bcast_S_S200000 _ (ix1 r) ix0 (fun a => a.elim0), constant_apply, ofBits_one]

/-- The zero the soft-plus subtracts, adds and compares with. -/
theorem zero200000_apply (r : Fin 200000) :
    broadcastInDim S200000 ![] bcast_S_S200000 (constant (F := Ideal) S_ .f32 0x00000000#32) (ix1 r) = (0 : EReal) := by
  rw [broadcastInDim_apply _ bcast_S_S200000 _ (ix1 r) ix0 (fun a => a.elim0), constant_apply]
  exact Ideal.ofBits_zero_f32

/-- The soft-plus spelling at one row. -/
theorem softplus200000_apply (d : FVec Ideal S200000 .f32) (r : Fin 200000) :
    softplus200000 (F := Ideal) d (ix1 r)
      = Scalar.select (Ideal.cmp .une (d (ix1 r) - 0) (d (ix1 r) - 0)) (d (ix1 r) + 0)
          (max (d (ix1 r)) 0 + Ideal.log1p (Ideal.exp (-(max (d (ix1 r) - 0) (-(d (ix1 r) - 0)))))) := by
  unfold softplus200000
  simp only [select_apply, cmpf_une_apply, subf_apply, addf_apply, maximumf_apply, hlog1p_apply, hexp_apply, hnegf_apply,
    habsf_apply]
  rw [zero200000_apply]

/-- The sum over the rows of the soft-plus of the per-row differences is the table's sum of per-row terms. -/
theorem total200000_apply (x0 x1 : FVec Ideal S200000x256 .f32) (idx : IVec S200000 32) (i : S_.Idx) :
    Host.reduceAdd (F := Ideal) (softplus200000 (F := Ideal) (diff200000 (F := Ideal) x0 x1 idx)) (constant (F := Ideal) S_ .f32 0x00000000#32)
        reducesTo_S200000_S_d0 h_S_ i
      = lossSum 200000 (by decide) x0 x1 (rownums200000 (F := Ideal) idx) := by
  simp only [Host.reduceAdd, Ideal.hostReduceAdd_def]
  refine (Ideal.hostReduceAdd_total reducesTo_S200000_S_d0 (fun b => b.elim0) _ _ i).trans ?_
  rw [zero_init, zero_add, sum_idx1]
  unfold lossSum
  refine Finset.sum_congr rfl fun r _ => ?_
  rw [softplus200000_apply, diff200000_apply]
  exact softplus_reference _

/-- The table's mean: that sum over the divisor. -/
theorem mean200000_apply (x0 x1 : FVec Ideal S200000x256 .f32) (idx : IVec S200000 32) (i : S_.Idx) :
    mean200000 (F := Ideal) x0 x1 idx i
      = Ideal.div (lossSum 200000 (by decide) x0 x1 (rownums200000 (F := Ideal) idx)) (Ideal.ofBits .f32 0x48435000#32) := by
  unfold mean200000
  rw [hdivf_apply, constant_apply, total200000_apply]

/-! ## The table of 100000 rows -/

/-- A row sum: the host's sum along the columns, from zero, at row `r`. -/
theorem rowsum100000 (x : FVec Ideal S100000x256 .f32) (r : Fin 100000) :
    Host.reduceAdd (F := Ideal) x (constant (F := Ideal) S_ .f32 0x00000000#32) reducesTo_S100000x256_S100000_d1 h_S_ (ix1 r)
      = ∑ k : Fin 256, x (ix2 r k) := by
  simp only [Host.reduceAdd, Ideal.hostReduceAdd_def]
  refine (Ideal.hostReduceAdd_single reducesTo_S100000x256_S100000_d1 (by decide) x _ (ix1 r)).trans ?_
  rw [zero_init, zero_add]
  show (∑ k : Fin 256, x _) = ∑ k : Fin 256, x (ix2 r k)
  refine Finset.sum_congr rfl fun k _ => ?_
  exact congrArg x (funext fun a => Fin.ext (by match a with | ⟨0, _⟩ => rfl | ⟨1, _⟩ => rfl))

/-- A scaled table's entry is its row's scaled entry. -/
theorem scaled100000_apply (x : FVec Ideal S100000x256 .f32) (r : Fin 100000) (k : Fin 256) :
    scaled100000 (F := Ideal) x (ix2 r k) = unitRow (row x r) k := by
  unfold scaled100000
  rw [hdivf_apply, broadcastInDim_apply _ bcast_S100000x1_S100000x256_0_1 _ (ix2 r k) (ix2 r (0 : Fin 1)) (fun a => match a with
      | ⟨0, _⟩ => by show r.val = if (100000 : Nat) = 1 then 0 else r.val; rw [if_neg (by decide)]
      | ⟨1, _⟩ => by show 0 = if (1 : Nat) = 1 then 0 else k.val; rw [if_pos rfl]),
    maximumf_apply, hsqrt_apply,
    broadcastInDim_apply _ bcast_S100000_S100000x1_0 _ (ix2 r (0 : Fin 1)) (ix1 r) (fun a => match a with
      | ⟨0, _⟩ => by show r.val = if (100000 : Nat) = 1 then 0 else r.val; rw [if_neg (by decide)]),
    broadcastInDim_apply _ bcast_S_S100000x1 _ (ix2 r (0 : Fin 1)) ix0 (fun a => a.elim0),
    rowsum100000]
  rfl

/-- The row sum of the product of two scaled tables is the cosine of their rows. -/
theorem cos100000_apply (x y : FVec Ideal S100000x256 .f32) (r : Fin 100000) :
    Host.reduceAdd (F := Ideal) (mulf (scaled100000 (F := Ideal) x) (scaled100000 (F := Ideal) y)) (constant (F := Ideal) S_ .f32 0x00000000#32)
        reducesTo_S100000x256_S100000_d1 h_S_ (ix1 r)
      = cosine (row x r) (row y r) := by
  rw [rowsum100000]
  unfold cosine
  refine Finset.sum_congr rfl fun k _ => ?_
  rw [mulf_apply, scaled100000_apply, scaled100000_apply]

/-- The printed lookup record is the lookup of whole rows at a one-column array of row numbers. -/
theorem gather100000_eq : gather_S100000x256_S100000x1_S100000x256_1_0_n_n_0_1_1256
    = rowsDims 100000 100000 256 gather_S100000x256_S100000x1_S100000x256_1_0_n_n_0_1_1256_wf := rfl

/-- The row sum of a scaled table against the looked-up rows of another is the cosine with the row the row number names. -/
theorem cosn100000_apply (x y : FVec Ideal S100000x256 .f32) (ii : IVec ⟨2, ![100000, 1]⟩ 32) (r : Fin 100000) :
    Host.reduceAdd (F := Ideal) (mulf (scaled100000 (F := Ideal) x)
          (Host.gather gather_S100000x256_S100000x1_S100000x256_1_0_n_n_0_1_1256 (scaled100000 (F := Ideal) y) ii))
        (constant (F := Ideal) S_ .f32 0x00000000#32) reducesTo_S100000x256_S100000_d1 h_S_ (ix1 r)
      = cosine (row x r) (row y (clampRow 100000 (by decide) (ii (ix2 r (0 : Fin 1))))) := by
  rw [rowsum100000]
  unfold cosine
  refine Finset.sum_congr rfl fun k _ => ?_
  rw [mulf_apply, scaled100000_apply, gather100000_eq, gather_rows_apply (by decide), scaled100000_apply]

/-- The per-row difference: cosine with the row the row number names minus cosine with the paired row, over one. -/
theorem diff100000_apply (x0 x1 : FVec Ideal S100000x256 .f32) (idx : IVec S100000 32) (r : Fin 100000) :
    diff100000 (F := Ideal) x0 x1 idx (ix1 r)
      = Ideal.div (cosine (row x0 r) (row x1 (clampRow 100000 (by decide) (rownums100000 (F := Ideal) idx (ix2 r (0 : Fin 1)))))
          - cosine (row x0 r) (row x1 r)) 1 := by
  unfold diff100000
  rw [hdivf_apply, subf_apply, cosn100000_apply, cos100000_apply,
    broadcastInDim_apply _ bcast_S_S100000 _ (ix1 r) ix0 (fun a => a.elim0), constant_apply, ofBits_one]

/-- The zero the soft-plus subtracts, adds and compares with. -/
theorem zero100000_apply (r : Fin 100000) :
    broadcastInDim S100000 ![] bcast_S_S100000 (constant (F := Ideal) S_ .f32 0x00000000#32) (ix1 r) = (0 : EReal) := by
  rw [broadcastInDim_apply _ bcast_S_S100000 _ (ix1 r) ix0 (fun a => a.elim0), constant_apply]
  exact Ideal.ofBits_zero_f32

/-- The soft-plus spelling at one row. -/
theorem softplus100000_apply (d : FVec Ideal S100000 .f32) (r : Fin 100000) :
    softplus100000 (F := Ideal) d (ix1 r)
      = Scalar.select (Ideal.cmp .une (d (ix1 r) - 0) (d (ix1 r) - 0)) (d (ix1 r) + 0)
          (max (d (ix1 r)) 0 + Ideal.log1p (Ideal.exp (-(max (d (ix1 r) - 0) (-(d (ix1 r) - 0)))))) := by
  unfold softplus100000
  simp only [select_apply, cmpf_une_apply, subf_apply, addf_apply, maximumf_apply, hlog1p_apply, hexp_apply, hnegf_apply,
    habsf_apply]
  rw [zero100000_apply]

/-- The sum over the rows of the soft-plus of the per-row differences is the table's sum of per-row terms. -/
theorem total100000_apply (x0 x1 : FVec Ideal S100000x256 .f32) (idx : IVec S100000 32) (i : S_.Idx) :
    Host.reduceAdd (F := Ideal) (softplus100000 (F := Ideal) (diff100000 (F := Ideal) x0 x1 idx)) (constant (F := Ideal) S_ .f32 0x00000000#32)
        reducesTo_S100000_S_d0 h_S_ i
      = lossSum 100000 (by decide) x0 x1 (rownums100000 (F := Ideal) idx) := by
  simp only [Host.reduceAdd, Ideal.hostReduceAdd_def]
  refine (Ideal.hostReduceAdd_total reducesTo_S100000_S_d0 (fun b => b.elim0) _ _ i).trans ?_
  rw [zero_init, zero_add, sum_idx1]
  unfold lossSum
  refine Finset.sum_congr rfl fun r _ => ?_
  rw [softplus100000_apply, diff100000_apply]
  exact softplus_reference _

/-- The table's mean: that sum over the divisor. -/
theorem mean100000_apply (x0 x1 : FVec Ideal S100000x256 .f32) (idx : IVec S100000 32) (i : S_.Idx) :
    mean100000 (F := Ideal) x0 x1 idx i
      = Ideal.div (lossSum 100000 (by decide) x0 x1 (rownums100000 (F := Ideal) idx)) (Ideal.ofBits .f32 0x47C35000#32) := by
  unfold mean100000
  rw [hdivf_apply, constant_apply, total100000_apply]

/-! ## The table of 8192 rows -/

/-- A row sum: the host's sum along the columns, from zero, at row `r`. -/
theorem rowsum8192 (x : FVec Ideal S8192x256 .f32) (r : Fin 8192) :
    Host.reduceAdd (F := Ideal) x (constant (F := Ideal) S_ .f32 0x00000000#32) reducesTo_S8192x256_S8192_d1 h_S_ (ix1 r)
      = ∑ k : Fin 256, x (ix2 r k) := by
  simp only [Host.reduceAdd, Ideal.hostReduceAdd_def]
  refine (Ideal.hostReduceAdd_single reducesTo_S8192x256_S8192_d1 (by decide) x _ (ix1 r)).trans ?_
  rw [zero_init, zero_add]
  show (∑ k : Fin 256, x _) = ∑ k : Fin 256, x (ix2 r k)
  refine Finset.sum_congr rfl fun k _ => ?_
  exact congrArg x (funext fun a => Fin.ext (by match a with | ⟨0, _⟩ => rfl | ⟨1, _⟩ => rfl))

/-- A scaled table's entry is its row's scaled entry. -/
theorem scaled8192_apply (x : FVec Ideal S8192x256 .f32) (r : Fin 8192) (k : Fin 256) :
    scaled8192 (F := Ideal) x (ix2 r k) = unitRow (row x r) k := by
  unfold scaled8192
  rw [hdivf_apply, broadcastInDim_apply _ bcast_S8192x1_S8192x256_0_1 _ (ix2 r k) (ix2 r (0 : Fin 1)) (fun a => match a with
      | ⟨0, _⟩ => by show r.val = if (8192 : Nat) = 1 then 0 else r.val; rw [if_neg (by decide)]
      | ⟨1, _⟩ => by show 0 = if (1 : Nat) = 1 then 0 else k.val; rw [if_pos rfl]),
    maximumf_apply, hsqrt_apply,
    broadcastInDim_apply _ bcast_S8192_S8192x1_0 _ (ix2 r (0 : Fin 1)) (ix1 r) (fun a => match a with
      | ⟨0, _⟩ => by show r.val = if (8192 : Nat) = 1 then 0 else r.val; rw [if_neg (by decide)]),
    broadcastInDim_apply _ bcast_S_S8192x1 _ (ix2 r (0 : Fin 1)) ix0 (fun a => a.elim0),
    rowsum8192]
  rfl

/-- The row sum of the product of two scaled tables is the cosine of their rows. -/
theorem cos8192_apply (x y : FVec Ideal S8192x256 .f32) (r : Fin 8192) :
    Host.reduceAdd (F := Ideal) (mulf (scaled8192 (F := Ideal) x) (scaled8192 (F := Ideal) y)) (constant (F := Ideal) S_ .f32 0x00000000#32)
        reducesTo_S8192x256_S8192_d1 h_S_ (ix1 r)
      = cosine (row x r) (row y r) := by
  rw [rowsum8192]
  unfold cosine
  refine Finset.sum_congr rfl fun k _ => ?_
  rw [mulf_apply, scaled8192_apply, scaled8192_apply]

/-- The printed lookup record is the lookup of whole rows at a one-column array of row numbers. -/
theorem gather8192_eq : gather_S8192x256_S8192x1_S8192x256_1_0_n_n_0_1_1256
    = rowsDims 8192 8192 256 gather_S8192x256_S8192x1_S8192x256_1_0_n_n_0_1_1256_wf := rfl

/-- The row sum of a scaled table against the looked-up rows of another is the cosine with the row the row number names. -/
theorem cosn8192_apply (x y : FVec Ideal S8192x256 .f32) (ii : IVec ⟨2, ![8192, 1]⟩ 32) (r : Fin 8192) :
    Host.reduceAdd (F := Ideal) (mulf (scaled8192 (F := Ideal) x)
          (Host.gather gather_S8192x256_S8192x1_S8192x256_1_0_n_n_0_1_1256 (scaled8192 (F := Ideal) y) ii))
        (constant (F := Ideal) S_ .f32 0x00000000#32) reducesTo_S8192x256_S8192_d1 h_S_ (ix1 r)
      = cosine (row x r) (row y (clampRow 8192 (by decide) (ii (ix2 r (0 : Fin 1))))) := by
  rw [rowsum8192]
  unfold cosine
  refine Finset.sum_congr rfl fun k _ => ?_
  rw [mulf_apply, scaled8192_apply, gather8192_eq, gather_rows_apply (by decide), scaled8192_apply]

/-- The per-row difference: cosine with the row the row number names minus cosine with the paired row, over one. -/
theorem diff8192_apply (x0 x1 : FVec Ideal S8192x256 .f32) (idx : IVec S8192 32) (r : Fin 8192) :
    diff8192 (F := Ideal) x0 x1 idx (ix1 r)
      = Ideal.div (cosine (row x0 r) (row x1 (clampRow 8192 (by decide) (rownums8192 (F := Ideal) idx (ix2 r (0 : Fin 1)))))
          - cosine (row x0 r) (row x1 r)) 1 := by
  unfold diff8192
  rw [hdivf_apply, subf_apply, cosn8192_apply, cos8192_apply,
    broadcastInDim_apply _ bcast_S_S8192 _ (ix1 r) ix0 (fun a => a.elim0), constant_apply, ofBits_one]

/-- The zero the soft-plus subtracts, adds and compares with. -/
theorem zero8192_apply (r : Fin 8192) :
    broadcastInDim S8192 ![] bcast_S_S8192 (constant (F := Ideal) S_ .f32 0x00000000#32) (ix1 r) = (0 : EReal) := by
  rw [broadcastInDim_apply _ bcast_S_S8192 _ (ix1 r) ix0 (fun a => a.elim0), constant_apply]
  exact Ideal.ofBits_zero_f32

/-- The soft-plus spelling at one row. -/
theorem softplus8192_apply (d : FVec Ideal S8192 .f32) (r : Fin 8192) :
    softplus8192 (F := Ideal) d (ix1 r)
      = Scalar.select (Ideal.cmp .une (d (ix1 r) - 0) (d (ix1 r) - 0)) (d (ix1 r) + 0)
          (max (d (ix1 r)) 0 + Ideal.log1p (Ideal.exp (-(max (d (ix1 r) - 0) (-(d (ix1 r) - 0)))))) := by
  unfold softplus8192
  simp only [select_apply, cmpf_une_apply, subf_apply, addf_apply, maximumf_apply, hlog1p_apply, hexp_apply, hnegf_apply,
    habsf_apply]
  rw [zero8192_apply]

/-- The sum over the rows of the soft-plus of the per-row differences is the table's sum of per-row terms. -/
theorem total8192_apply (x0 x1 : FVec Ideal S8192x256 .f32) (idx : IVec S8192 32) (i : S_.Idx) :
    Host.reduceAdd (F := Ideal) (softplus8192 (F := Ideal) (diff8192 (F := Ideal) x0 x1 idx)) (constant (F := Ideal) S_ .f32 0x00000000#32)
        reducesTo_S8192_S_d0 h_S_ i
      = lossSum 8192 (by decide) x0 x1 (rownums8192 (F := Ideal) idx) := by
  simp only [Host.reduceAdd, Ideal.hostReduceAdd_def]
  refine (Ideal.hostReduceAdd_total reducesTo_S8192_S_d0 (fun b => b.elim0) _ _ i).trans ?_
  rw [zero_init, zero_add, sum_idx1]
  unfold lossSum
  refine Finset.sum_congr rfl fun r _ => ?_
  rw [softplus8192_apply, diff8192_apply]
  exact softplus_reference _

/-- The table's mean: that sum over the divisor. -/
theorem mean8192_apply (x0 x1 : FVec Ideal S8192x256 .f32) (idx : IVec S8192 32) (i : S_.Idx) :
    mean8192 (F := Ideal) x0 x1 idx i
      = Ideal.div (lossSum 8192 (by decide) x0 x1 (rownums8192 (F := Ideal) idx)) (Ideal.ofBits .f32 0x46000000#32) := by
  unfold mean8192
  rw [hdivf_apply, constant_apply, total8192_apply]

/-! ## The total -/

/-- The reference's contrastive total is the specification's, at the three tables' sums of per-row terms. -/
theorem loss (x0 x1 : (⟨S200000x256, .f32⟩ : BufTy).Contents (Elt Ideal)) (x2 x3 : (⟨S100000x256, .f32⟩ : BufTy).Contents (Elt Ideal))
    (x4 x5 : (⟨S8192x256, .f32⟩ : BufTy).Contents (Elt Ideal)) (x10 : (⟨S200000, .i32⟩ : BufTy).Contents (Elt Ideal))
    (x11 : (⟨S100000, .i32⟩ : BufTy).Contents (Elt Ideal)) (x12 : (⟨S8192, .i32⟩ : BufTy).Contents (Elt Ideal)) :
    lossTerm (F := Ideal) x0 x1 x2 x3 x4 x5 x10 x11 x12
      = fun _ => Cert.Results.total (Cert.Results.lossSum 200000 (by decide) x0 x1 (rownums200000 x10))
          (Cert.Results.lossSum 100000 (by decide) x2 x3 (rownums100000 x11))
          (Cert.Results.lossSum 8192 (by decide) x4 x5 (rownums8192 x12)) := by
  funext i
  unfold lossTerm Cert.Results.total
  rw [mulf_apply, addf_apply, addf_apply, constant_apply, mean200000_apply, mean100000_apply, mean8192_apply]

end Cert.ReferenceIdeal.Loss

end
-- ==== Proof.lean ====
/-
  The claim: the word-level kernel, its idealization and the idealized reference each run to the end from any memory
  with their argument arrays unchanged; the ideal pass rewrote nothing; and over the extended reals the idealized kernel
  and the idealized reference, run on the same arguments, end with the same three results.

  The mathematics of the last part. The first two results are blends of two embedding arrays gated column by column:
  entry (i, j) is `σ(w₀ⱼ)·aᵢⱼ + σ(w₁ⱼ)·bᵢⱼ`, `σ` the logistic function, one of the arrays in the first result being rows
  of a table looked up at given row numbers. The kernel computes each block by block with `σ` as one operation; the
  reference spells `σ` as `1 / (1 + e^(−w))`, which is its definition here, and spreads the gate rows by reshapes and
  broadcasts that only rename indices. The third result is a weight times the sum of three means; each mean is, over
  the rows r of an anchor table and a paired table, of `softplus (cos(aᵣ, p_{n(r)}) − cos(aᵣ, pᵣ))` where `n(r)` is a
  given row number and the cosine divides each row by the larger of its length and a small floor. The kernel looks the
  negative rows up first and scales them inside the body, sums 2000 (or 1024) rows' terms per grid point into an
  accumulator restarted on each half of the grid, and totals the two halves on the host; the reference scales the paired
  table first and looks the scaled rows up, and sums all rows at once. Scaling a row commutes with looking it up, sums
  of extended reals regroup freely, and the remaining differences are spellings (subtracting or adding zero, dividing
  by one, `0 − x` for `−x`, a guard `d ≠ d` that never holds), none of which needs the inputs to be finite.
-/
import proofs.«167286_j7885559955680_2_alg».proof.Defs
import proofs.«167286_j7885559955680_2_alg».proof.Proof.Gen.Kernel
import proofs.«167286_j7885559955680_2_alg».proof.Proof.Gen.Kernel.Frame
import proofs.«167286_j7885559955680_2_alg».proof.Proof.Gen.KernelIdeal
import proofs.«167286_j7885559955680_2_alg».proof.Proof.Gen.ReferenceIdeal
import proofs.«167286_j7885559955680_2_alg».proof.Proof.Gen.Pre_finite_inputs
import proofs.«167286_j7885559955680_2_alg».proof.Proof.KernelRun
import proofs.«167286_j7885559955680_2_alg».proof.Proof.BlendKernel
import proofs.«167286_j7885559955680_2_alg».proof.Proof.KernelLoss
import proofs.«167286_j7885559955680_2_alg».proof.Proof.BlendReference
import proofs.«167286_j7885559955680_2_alg».proof.Proof.ReferenceTerms
import proofs.«167286_j7885559955680_2_alg».proof.Proof.ReferenceRun
import proofs.«167286_j7885559955680_2_alg».proof.Proof.ReferenceLoss
import Idealize.ShloMosaic.Lib.StableHlo.Run
import Idealize.ShloMosaic.Adequacy
import Idealize.ShloMosaic.Init

set_option maxRecDepth 16384

noncomputable section

namespace Cert.Proof

open Idealize.ShloMosaic Idealize.SL.Sem

/-- The word-level kernel runs to the end with its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its three results dropped. -/
theorem frame_ri : Cert.frame_ReferenceIdeal := fun m ρ _ =>
  (θ_run Cert.ReferenceIdeal.defs _ _).mono (fun _ h c => (h c).2.2.2) (Cert.ReferenceIdeal.RunP.run (F := Ideal) m ρ)

/-- The ideal pass rewrote nothing. -/
theorem preserves : Cert.preserves_Kernel_KernelIdeal := trivial

/-- Over the extended reals both programs end with the same three results: the two blends
    `σ(w₀ⱼ)·aᵢⱼ + σ(w₁ⱼ)·bᵢⱼ` and the weighted sum of the three tables' mean per-row terms. -/
theorem algebraic : Cert.algebraic_KernelIdeal_ReferenceIdeal := by
  intro m ρ m' ρ' _ hagree
  refine ⟨_, _, _, (θ_run Cert.KernelIdeal.defs _ _).mono (fun r h c =>
      ⟨(h c).1.trans ((Cert.KernelIdeal.Blend.users m ρ c).trans
          (congrArg (fun g => Cert.Results.blend _ g _) (Cert.KernelIdeal.Blend.looked_up m ρ c))),
        (h c).2.1.trans (Cert.KernelIdeal.Blend.items m ρ c),
        (h c).2.2.1.trans (Cert.KernelIdeal.Loss.loss m ρ c),
        (h c).2.2.2⟩) (Cert.KernelIdeal.Results.run_results (F := Ideal) m ρ), ?_⟩
  refine (θ_run Cert.ReferenceIdeal.defs _ _).mono (fun r h c => ?_) (Cert.ReferenceIdeal.RunP.run (F := Ideal) m' ρ')
  obtain ⟨a0, a1, a2, a3, a4, a5, a6, a7, a8, a9, a10, a11, a12⟩ := hagree c
  refine ⟨(h c).1.trans ?_, (h c).2.1.trans ?_, (h c).2.2.1.trans ?_, (h c).2.2.2⟩
  · rw [a0, a4, a7, a9]
    exact Cert.ReferenceIdeal.Blend.users _ _ _ _
  · rw [a2, a6, a8]
    exact Cert.ReferenceIdeal.Blend.items _ _ _
  · rw [a0, a1, a2, a3, a4, a5, a10, a11, a12]
    exact Cert.ReferenceIdeal.Loss.loss _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
